-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x100000x3 : Shape := ⟨3, ![2, 100000, 3]⟩
abbrev S3x64 : Shape := ⟨2, ![3, 64]⟩
abbrev S64 : Shape := ⟨1, ![64]⟩
abbrev S4x64 : Shape := ⟨2, ![4, 64]⟩
abbrev S_ : Shape := ⟨0, ![]⟩

class Facts : Prop where
  bcast_S_S2x100000x3 : S_.BroadcastsInDim S2x100000x3 (![] : Fin 0 → Fin S2x100000x3.rank)
  reducesTo_S2x100000x3_S_d0_1_2 : S2x100000x3.ReducesTo [0, 1, 2] S_
  h_S_ : 0 < S_.numel
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S4x64 : S_.BroadcastsInDim S4x64 (![] : Fin 0 → Fin S4x64.rank)
  reducesTo_S4x64_S_d0_1 : S4x64.ReducesTo [0, 1] S_

variable [Facts]

def fn_part1 {F : FTy → Type} [FloatOps F] (main_arg4 : FVec F S4x64 .f32) (main_arg5 : FVec F S64 .f32) (main_arg6 : IVec S_ 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S4x64 .f32 := Host.absf main_arg4
  let main_cst_6 : FVec F S_ .f32 := constant S_ .f32 0x7F800000#32
  let main_v20 : FVec F S4x64 .f32 := broadcastInDim S4x64 ![] bcast_S_S4x64 main_cst_6
  let main_v21 : IVec S4x64 1 := cmpf .olt main_v19 main_v20
  let main_c_7 : IVec S_ 1 := constantI S_ 1 1#1
  let main_v22 : IVec S_ 1 := (fun x v => Host.reduce IntOp.andi x v reducesTo_S4x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_c_10 : IVec S_ 32 := constantI S_ 32 4294967292#32
  let main_v29 : IVec S_ 1 := cmpi .sge main_arg6 main_c_10
  let main_c_11 : IVec S_ 32 := constantI S_ 32 4#32
  let main_v30 : IVec S_ 1 := cmpi .slt main_arg6 main_c_11
  let main_v31 : IVec S_ 1 := andi main_v29 main_v30
  let main_v32 : IVec S_ 1 := andi main_v28 main_v31
  main_v32

def fn {F : FTy → Type} [FloatOps F] (main_arg0 : FVec F S2x100000x3 .f32) (main_arg1 : FVec F S2x100000x3 .f32) (main_arg2 : FVec F S3x64 .f32) (main_arg3 : FVec F S64 .f32) (main_arg4 : FVec F S4x64 .f32) (main_arg5 : FVec F S64 .f32) (main_arg6 : IVec S_ 32) : IVec S_ 1 :=
  let main_v0 : FVec F S2x100000x3 .f32 := Host.absf main_arg0
  let main_cst : FVec F S_ .f32 := constant S_ .f32 0x7F800000#32
  let main_v1 : FVec F S2x100000x3 .f32 := broadcastInDim S2x100000x3 ![] bcast_S_S2x100000x3 main_cst
  let main_v2 : IVec S2x100000x3 1 := cmpf .olt main_v0 main_v1
  let main_c : IVec S_ 1 := constantI S_ 1 1#1
  let main_v3 : IVec S_ 1 := (fun x v => Host.reduce IntOp.andi x v reducesTo_S2x100000x3_S_d0_1_2 h_S_) main_v2 main_c
  let main_v4 : FVec F S2x100000x3 .f32 := Host.absf main_arg1
  let main_cst_0 : FVec F S_ .f32 := constant S_ .f32 0x7F800000#32
  let main_v5 : FVec F S2x100000x3 .f32 := broadcastInDim S2x100000x3 ![] bcast_S_S2x100000x3 main_cst_0
  let main_v6 : IVec S2x100000x3 1 := cmpf .olt main_v4 main_v5
  let main_c_1 : IVec S_ 1 := constantI S_ 1 1#1
  let main_v7 : IVec S_ 1 := (fun x v => Host.reduce IntOp.andi x v reducesTo_S2x100000x3_S_d0_1_2 h_S_) main_v6 main_c_1
  let main_v8 : IVec S_ 1 := andi main_v3 main_v7
  let main_v9 : FVec F S3x64 .f32 := Host.absf main_arg2
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_v13 main_v16
-- ==== Kernel.lean ====
abbrev S2x100000x3 : Shape := ⟨3, ![2, 100000, 3]⟩
abbrev S3x64 : Shape := ⟨2, ![3, 64]⟩
abbrev S64 : Shape := ⟨1, ![64]⟩
abbrev S4x64 : Shape := ⟨2, ![4, 64]⟩
abbrev S_ : Shape := ⟨0, ![]⟩
abbrev S2x100000x1 : Shape := ⟨3, ![2, 100000, 1]⟩
abbrev S2x100000 : Shape := ⟨2, ![2, 100000]⟩
abbrev S2 : Shape := ⟨1, ![2]⟩
abbrev S2x1 : Shape := ⟨2, ![2, 1]⟩
abbrev S200000 : Shape := ⟨1, ![200000]⟩
abbrev S200000x3 : Shape := ⟨2, ![200000, 3]⟩
abbrev S200000x64 : Shape := ⟨2, ![200000, 64]⟩
abbrev S1x64 : Shape := ⟨2, ![1, 64]⟩
abbrev S200000x1 : Shape := ⟨2, ![200000, 1]⟩
abbrev S200000x65 : Shape := ⟨2, ![200000, 65]⟩
abbrev S524288x65 : Shape := ⟨2, ![524288, 65]⟩
abbrev S524288x64 : Shape := ⟨2, ![524288, 64]⟩
abbrev S524288x1 : Shape := ⟨2, ![524288, 1]⟩
abbrev S524288 : Shape := ⟨1, ![524288]⟩
abbrev S4096x64 : Shape := ⟨2, ![4096, 64]⟩
abbrev S4096x1 : Shape := ⟨2, ![4096, 1]⟩
abbrev S2x512x512x64 : Shape := ⟨4, ![2, 512, 512, 64]⟩

abbrev nBuf : Space → Nat
  | .hbm => 166
  | .vmem => 11
  | .smem => 0
  | _ => 0

abbrev hbmTy0_0 (i : Nat) : BufTy := match i % 128 with
  | 0 => ⟨S2x100000x3, .f32⟩
  | 1 => ⟨S2x100000x3, .f32⟩
  | 2 => ⟨S3x64, .f32⟩
  | 3 => ⟨S64, .f32⟩
  | 4 => ⟨S4x64, .f32⟩
  | 5 => ⟨S64, .f32⟩
  | 6 => ⟨S_, .i32⟩
  | 7 => ⟨S2x100000x1, .f32⟩
  | 8 => ⟨S2x100000, .f32⟩
  | 9 => ⟨S_, .f32⟩
  | 10 => ⟨S2x100000, .f32⟩
  | 11 => ⟨S2x100000, .f32⟩
  | 12 => ⟨S_, .f32⟩
  | 13 => ⟨S2x100000, .f32⟩
  | 14 => ⟨S2x100000, .f32⟩
  | 15 => ⟨S2x100000, .f32⟩
  | 16 => ⟨S_, .i32⟩
  | 17 => ⟨S_, .i32⟩
  | 18 => ⟨S_, .f32⟩
  | 19 => ⟨S2x100000, .f32⟩
  | 20 => ⟨S2x100000, .f32⟩
  | 21 => ⟨S_, .f32⟩
  | 22 => ⟨S2x100000, .f32⟩
  | 23 => ⟨S2x100000, .f32⟩
  | 24 => ⟨S2x100000, .i32⟩
  | 25 => ⟨S2x100000x1, .f32⟩
  | 26 => ⟨S2x100000, .f32⟩
  | 27 => ⟨S_, .f32⟩
  | 28 => ⟨S2x100000, .f32⟩
  | 29 => ⟨S2x100000, .f32⟩
  | 30 => ⟨S_, .f32⟩
  | 31 => ⟨S2x100000, .f32⟩
  | 32 => ⟨S2x100000, .f32⟩
  | 33 => ⟨S2x100000, .f32⟩
  | 34 => ⟨S_, .i32⟩
  | 35 => ⟨S_, .i32⟩
  | 36 => ⟨S_, .f32⟩
  | 37 => ⟨S2x100000, .f32⟩
  | 38 => ⟨S2x100000, .f32⟩
  | 39 => ⟨S_, .f32⟩
  | 40 => ⟨S2x100000, .f32⟩
  | 41 => ⟨S2x100000, .f32⟩
  | 42 => ⟨S2x100000, .i32⟩
  | 43 => ⟨S2, .i32⟩
  | 44 => ⟨S2x1, .i32⟩
  | 45 => ⟨S_, .i32⟩
  | 46 => ⟨S2x1, .i32⟩
  | 47 => ⟨S2x1, .i32⟩
  | 48 => ⟨S_, .i32⟩
  | 49 => ⟨S2x1, .i32⟩
  | 50 => ⟨S2x1, .i32⟩
  | 51 => ⟨S_, .i32⟩
  | 52 => ⟨S2x100000, .i32⟩
  | 53 => ⟨S2x100000, .i32⟩
  | 54 => ⟨S2x100000, .i32⟩
  | 55 => ⟨S2x100000, .i32⟩
  | 56 => ⟨S2x100000, .i32⟩
  | 57 => ⟨S200000, .i32⟩
  | 58 => ⟨S200000x3, .f32⟩
  | 59 => ⟨S200000x64, .f32⟩
  | 60 => ⟨S1x64, .f32⟩
  | 61 => ⟨S200000x64, .f32⟩
  | 62 => ⟨S200000x64, .f32⟩
  | 63 => ⟨S_, .f32⟩
  | 64 => ⟨S200000x64, .f32⟩
  | 65 => ⟨S200000x64, .f32⟩
  | 66 => ⟨S_, .f32⟩
  | 67 => ⟨S200000x1, .f32⟩
  | 68 => ⟨S200000x65, .f32⟩
  | 69 => ⟨S_, .f32⟩
  | 70 => ⟨S524288x65, .f32⟩
  | 71 => ⟨S200000x1, .i32⟩
  | 72 => ⟨S524288x65, .f32⟩
  | 73 => ⟨S524288x64, .f32⟩
  | 74 => ⟨S524288x1, .f32⟩
  | 75 => ⟨S524288, .f32⟩
  | 76 => ⟨S2x100000x1, .f32⟩
  | 77 => ⟨S2x100000, .f32⟩
  | 78 => ⟨S_, .f32⟩
  | 79 => ⟨S2x100000, .f32⟩
  | 80 => ⟨S2x100000, .f32⟩
  | 81 => ⟨S_, .f32⟩
  | 82 => ⟨S2x100000, .f32⟩
  | 83 => ⟨S2x100000, .f32⟩
  | 84 => ⟨S2x100000, .f32⟩
  | 85 => ⟨S_, .i32⟩
  | 86 => ⟨S_, .i32⟩
  | 87 => ⟨S_, .f32⟩
  | 88 => ⟨S2x100000, .f32⟩
  | 89 => ⟨S2x100000, .f32⟩
  | 90 => ⟨S_, .f32⟩
  | 91 => ⟨S2x100000, .f32⟩
  | 92 => ⟨S2x100000, .f32⟩
  | 93 => ⟨S2x100000, .i32⟩
  | 94 => ⟨S2x100000x1, .f32⟩
  | 95 => ⟨S2x100000, .f32⟩
  | 96 => ⟨S_, .f32⟩
  | 97 => ⟨S2x100000, .f32⟩
  | 98 => ⟨S2x100000, .f32⟩
  | 99 => ⟨S_, .f32⟩
  | 100 => ⟨S2x100000, .f32⟩
  | 101 => ⟨S2x100000, .f32⟩
  | 102 => ⟨S2x100000, .f32⟩
  | 103 => ⟨S_, .i32⟩
  | 104 => ⟨S_, .i32⟩
  | 105 => ⟨S_, .f32⟩
  | 106 => ⟨S2x100000, .f32⟩
  | 107 => ⟨S2x100000, .f32⟩
  | 108 => ⟨S_, .f32⟩
  | 109 => ⟨S2x100000, .f32⟩
  | 110 => ⟨S2x100000, .f32⟩
  | 111 => ⟨S2x100000, .i32⟩
  | 112 => ⟨S2, .i32⟩
  | 113 => ⟨S2x1, .i32⟩
  | 114 => ⟨S_, .i32⟩
  | 115 => ⟨S2x1, .i32⟩
  | 116 => ⟨S2x1, .i32⟩
  | 117 => ⟨S_, .i32⟩
  | 118 => ⟨S2x1, .i32⟩
  | 119 => ⟨S2x1, .i32⟩
  | 120 => ⟨S_, .i32⟩
  | 121 => ⟨S2x100000, .i32⟩
  | 122 => ⟨S2x100000, .i32⟩
  | 123 => ⟨S2x100000, .i32⟩
  | 124 => ⟨S2x100000, .i32⟩
  | 125 => ⟨S2x100000, .i32⟩
  | 126 => ⟨S200000, .i32⟩
  | 127 => ⟨S200000x3, .f32⟩
  | _ => ⟨S2x100000x3, .f32⟩

abbrev hbmTy0_1 (i : Nat) : BufTy := match i % 128 with
  | 0 => ⟨S200000x64, .f32⟩
  | 1 => ⟨S1x64, .f32⟩
  | 2 => ⟨S200000x64, .f32⟩
  | 3 => ⟨S200000x64, .f32⟩
  | 4 => ⟨S_, .f32⟩
  | 5 => ⟨S200000x64, .f32⟩
  | 6 => ⟨S200000x64, .f32⟩
  | 7 => ⟨S_, .f32⟩
  | 8 => ⟨S200000x1, .f32⟩
  | 9 => ⟨S200000x65, .f32⟩
  | 10 => ⟨S_, .f32⟩
  | 11 => ⟨S524288x65, .f32⟩
  | 12 => ⟨S200000x1, .i32⟩
  | 13 => ⟨S524288x65, .f32⟩
  | 14 => ⟨S524288x64, .f32⟩
  | 15 => ⟨S524288x1, .f32⟩
  | 16 => ⟨S524288, .f32⟩
  | 17 => ⟨S_, .i32⟩
  | 18 => ⟨S_, .i1⟩
  | 19 => ⟨S_, .i32⟩
  | 20 => ⟨S_, .i32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S_, .i32⟩
  | 28 => ⟨S_, .i32⟩
  | 29 => ⟨S_, .i32⟩
  | 30 => ⟨S1x64, .f32⟩
  | 31 => ⟨S64, .f32⟩
  | 32 => ⟨S64, .f32⟩
  | 33 => ⟨S524288x1, .f32⟩
  | 34 => ⟨S524288x1, .f32⟩
  | 35 => ⟨S1x64, .f32⟩
  | 36 => ⟨S524288x64, .f32⟩
  | 37 => ⟨S2x512x512x64, .f32⟩
  | _ => ⟨S2x100000x3, .f32⟩

abbrev hbmTy (i : Nat) : BufTy := match i / 128 with
  | 0 => hbmTy0_0 i
  | 1 => hbmTy0_1 i
  | _ => ⟨S2x100000x3, .f32⟩

abbrev bufTy : (tb : Table) → Fin (tcTables nBuf tb) → BufTy
  | .hbm, ⟨i, _⟩ => hbmTy i
  | .local _ .vmem, ⟨0, _⟩ => ⟨S4096x64, .f32⟩
  | .local _ .vmem, ⟨1, _⟩ => ⟨S4096x64, .f32⟩
  | .local _ .vmem, ⟨2, _⟩ => ⟨S4096x64, .f32⟩
  | .local _ .vmem, ⟨3, _⟩ => ⟨S4096x64, .f32⟩
  | .local _ .vmem, ⟨4, _⟩ => ⟨S4096x1, .f32⟩
  | .local _ .vmem, ⟨5, _⟩ => ⟨S4096x1, .f32⟩
  | .local _ .vmem, ⟨6, _⟩ => ⟨S4096x1, .f32⟩
  | .local _ .vmem, ⟨7, _⟩ => ⟨S4096x1, .f32⟩
  | .local _ .vmem, ⟨8, _⟩ => ⟨S1x64, .f32⟩
  | .local _ .vmem, ⟨9, _⟩ => ⟨S4096x64, .f32⟩
  | .local _ .vmem, ⟨10, _⟩ => ⟨S4096x64, .f32⟩
  | _, _ => ⟨S2x100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_c_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_c_5 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_c_6 : Ref sig .tc := ⟨.hbm, 45, rfl⟩
abbrev main_v20 : Ref sig .tc := ⟨.hbm, 46, rfl⟩
abbrev main_v21 : Ref sig .tc := ⟨.hbm, 47, rfl⟩
abbrev main_c_7 : Ref sig .tc := ⟨.hbm, 48, rfl⟩
abbrev main_v22 : Ref sig .tc := ⟨.hbm, 49, rfl⟩
abbrev main_v23 : Ref sig .tc := ⟨.hbm, 50, rfl⟩
abbrev main_c_8 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_call2_cst : Ref sig .tc := ⟨.hbm, 63, rfl⟩
abbrev main_call2_v0 : Ref sig .tc := ⟨.hbm, 64, rfl⟩
abbrev main_v35 : Ref sig .tc := ⟨.hbm, 65, rfl⟩
abbrev main_cst_9 : Ref sig .tc := ⟨.hbm, 66, rfl⟩
abbrev main_v36 : Ref sig .tc := ⟨.hbm, 67, rfl⟩
abbrev main_v37 : Ref sig .tc := ⟨.hbm, 68, rfl⟩
abbrev main_cst_10 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_11 : Ref sig .tc := ⟨.hbm, 78, rfl⟩
abbrev main_v46 : Ref sig .tc := ⟨.hbm, 79, rfl⟩
abbrev main_v47 : Ref sig .tc := ⟨.hbm, 80, rfl⟩
abbrev main_cst_12 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_c_13 : Ref sig .tc := ⟨.hbm, 85, rfl⟩
abbrev main_c_14 : Ref sig .tc := ⟨.hbm, 86, rfl⟩
abbrev main_call3_v0 : Ref sig .tc := ⟨.hbm, 87, rfl⟩
abbrev main_call3_v1 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_cst_15 : Ref sig .tc := ⟨.hbm, 96, rfl⟩
abbrev main_v55 : Ref sig .tc := ⟨.hbm, 97, rfl⟩
abbrev main_v56 : Ref sig .tc := ⟨.hbm, 98, rfl⟩
abbrev main_cst_16 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_c_17 : Ref sig .tc := ⟨.hbm, 103, rfl⟩
abbrev main_c_18 : Ref sig .tc := ⟨.hbm, 104, rfl⟩
abbrev main_call4_v0 : Ref sig .tc := ⟨.hbm, 105, rfl⟩
abbrev main_call4_v1 : Ref sig .tc := ⟨.hbm, 106, rfl⟩
abbrev main_call4_v2 : Ref sig .tc := ⟨.hbm, 107, rfl⟩
abbrev main_call4_v3 : Ref sig .tc := ⟨.hbm, 108, rfl⟩
abbrev main_call4_v4 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_c_19 : Ref sig .tc := ⟨.hbm, 114, rfl⟩
abbrev main_v64 : Ref sig .tc := ⟨.hbm, 115, rfl⟩
abbrev main_v65 : Ref sig .tc := ⟨.hbm, 116, rfl⟩
abbrev main_c_20 : Ref sig .tc := ⟨.hbm, 117, rfl⟩
abbrev main_v66 : Ref sig .tc := ⟨.hbm, 118, rfl⟩
abbrev main_v67 : Ref sig .tc := ⟨.hbm, 119, rfl⟩
abbrev main_c_21 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_call5_cst : Ref sig .tc := ⟨.hbm, 132, rfl⟩
abbrev main_call5_v0 : Ref sig .tc := ⟨.hbm, 133, rfl⟩
abbrev main_v79 : Ref sig .tc := ⟨.hbm, 134, rfl⟩
abbrev main_cst_22 : Ref sig .tc := ⟨.hbm, 135, rfl⟩
abbrev main_v80 : Ref sig .tc := ⟨.hbm, 136, rfl⟩
abbrev main_v81 : Ref sig .tc := ⟨.hbm, 137, rfl⟩
abbrev main_cst_23 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_c_24 : Ref sig .tc := ⟨.hbm, 145, rfl⟩
abbrev main_v88 : Ref sig .tc := ⟨.hbm, 146, rfl⟩
abbrev main_c_25 : Ref sig .tc := ⟨.hbm, 147, rfl⟩
abbrev main_v89 : Ref sig .tc := ⟨.hbm, 148, rfl⟩
abbrev main_v90 : Ref sig .tc := ⟨.hbm, 149, rfl⟩
abbrev main_c_26 : Ref sig .tc := ⟨.hbm, 150, rfl⟩
abbrev main_c_27 : Ref sig .tc := ⟨.hbm, 151, rfl⟩
abbrev main_v91 : Ref sig .tc := ⟨.hbm, 152, rfl⟩
abbrev main_c_28 : Ref sig .tc := ⟨.hbm, 153, rfl⟩
abbrev main_c_29 : Ref sig .tc := ⟨.hbm, 154, rfl⟩
abbrev main_v92 : Ref sig .tc := ⟨.hbm, 155, rfl⟩
abbrev main_c_30 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x100000x3_S2x100000x1_0_0_0 : S2x100000x3.Slices ![0, 0, 0] S2x100000x1
  shapeCasts_S2x100000x1_S2x100000 : S2x100000x1.ShapeCasts S2x100000
  bcast_S_S2x100000 : S_.BroadcastsInDim S2x100000 (![] : Fin 0 → Fin S2x100000.rank)
  slices_S2x100000x3_S2x100000x1_0_0_1 : S2x100000x3.Slices ![0, 0, 1] S2x100000x1
  bcast_S2_S2x1_0 : S2.BroadcastsInDim S2x1 (![0] : Fin 1 → Fin S2x1.rank)
  bcast_S_S2x1 : S_.BroadcastsInDim S2x1 (![] : Fin 0 → Fin S2x1.rank)
  bcast_S2x1_S2x100000_0_1 : S2x1.BroadcastsInDim S2x100000 (![0, 1] : Fin 2 → Fin S2x100000.rank)
  shapeCasts_S2x100000_S200000 : S2x100000.ShapeCasts S200000
  shapeCasts_S2x100000x3_S200000x3 : S2x100000x3.ShapeCasts S200000x3
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S_S200000x64 : S_.BroadcastsInDim S200000x64 (![] : Fin 0 → Fin S200000x64.rank)
  bcast_S_S200000x1 : S_.BroadcastsInDim S200000x1 (![] : Fin 0 → Fin S200000x1.rank)
  concatenates_S200000x64_S200000x1_S200000x65_d1 : Shape.Concatenates [S200000x64, S200000x1] S200000x65 1
  bcast_S_S524288x65 : S_.BroadcastsInDim S524288x65 (![] : Fin 0 → Fin S524288x65.rank)
  bcast_S200000_S200000x1_0 : S200000.BroadcastsInDim S200000x1 (![0] : Fin 1 → Fin S200000x1.rank)
  slices_S524288x65_S524288x64_0_0 : S524288x65.Slices ![0, 0] S524288x64
  slices_S524288x65_S524288x1_0_64 : S524288x65.Slices ![0, 64] S524288x1
  shapeCasts_S524288x1_S524288 : S524288x1.ShapeCasts S524288
  sliceFits_S4x64_S1x64 : S4x64.Slices (fun _ => 0) S1x64
  h_S_ : 0 < S_.numel
  shapeCasts_S1x64_S64 : S1x64.ShapeCasts S64
  bcast_S524288_S524288x1_0 : S524288.BroadcastsInDim S524288x1 (![0] : Fin 1 → Fin S524288x1.rank)
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  natLt_1_32 : 1 < 32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  broadcasts_S4096x1_S4096x64 : S4096x1.Broadcasts S4096x64
  broadcasts_S1x64_S4096x64 : S1x64.Broadcasts S4096x64
  shapeCasts_S524288x64_S2x512x512x64 : S524288x64.ShapeCasts S2x512x512x64
  dot_S200000x3_S3x64_S200000x64_1_0_0_1_n_n_wf : DotDims.WF S200000x3 S3x64 S200000x64 [1] [0] [0] [1] [] []
  scatter_S524288x65_S200000x1_S200000x65_1_0_0_1_wf : ScatterDims.WF S524288x65 S200000x1 S200000x65 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S524288x64.size a
  hwx0_0 : ∀ i : grid0.Coords, EltTy.bits .f32 = 32 ∨ (Rect.block (s := S524288x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S524288x64.size a
  hwx0_1 : ∀ i : grid0.Coords, EltTy.bits .f32 = 32 ∨ (Rect.block (s := S524288x64) S4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S524288x1.size a
  hwx0_2 : ∀ i : grid0.Coords, EltTy.bits .f32 = 32 ∨ (Rect.block (s := S524288x1) S4096x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x1.size a ≤ S524288x1.size a
  hwx0_3 : ∀ i : grid0.Coords, EltTy.bits .f32 = 32 ∨ (Rect.block (s := S524288x1) S4096x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x64.size a ≤ S524288x64.size a
  hwx0_5 : ∀ i : grid0.Coords, EltTy.bits .f32 = 32 ∨ (Rect.block (s := S524288x64) S4096x64.size (cc0_transform_5 i) (hinb0_5 i)).WholeWords (EltTy.packing .f32)

variable [Facts₀]

def dot_S200000x3_S3x64_S200000x64_1_0_0_1_n_n : DotDims S200000x3 S3x64 S200000x64 where
  lhsContracting := [1]
  rhsContracting := [0]
  lhsNonContracting := [0]
  rhsNonContracting := [1]
  lhsBatch := []
  rhsBatch := []
  wf := dot_S200000x3_S3x64_S200000x64_1_0_0_1_n_n_wf
def scatter_S524288x65_S200000x1_S200000x65_1_0_0_1 : ScatterDims S524288x65 S200000x1 S200000x65 where
  updateWindowDims := [1]
  insertedWindowDims := [0]
  scatterDimsToOperandDims := [0]
  indexVectorDim := 1
  wf := scatter_S524288x65_S200000x1_S200000x65_1_0_0_1_wf

abbrev win0_0 : Pipeline.Window sig grid0 :=
  Pipeline.Window.ofSpec (Memref.whole main_v41) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v85) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v97) S4096x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v98) S4096x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v99) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v100) S4096x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x100000x3 : Shape := ⟨3, ![2, 100000, 3]⟩
abbrev S3x64 : Shape := ⟨2, ![3, 64]⟩
abbrev S64 : Shape := ⟨1, ![64]⟩
abbrev S4x64 : Shape := ⟨2, ![4, 64]⟩
abbrev S_ : Shape := ⟨0, ![]⟩
abbrev S2x100000x1 : Shape := ⟨3, ![2, 100000, 1]⟩
abbrev S2x100000 : Shape := ⟨2, ![2, 100000]⟩
abbrev S2 : Shape := ⟨1, ![2]⟩
abbrev S2x1 : Shape := ⟨2, ![2, 1]⟩
abbrev S200000 : Shape := ⟨1, ![200000]⟩
abbrev S200000x3 : Shape := ⟨2, ![200000, 3]⟩
abbrev S200000x64 : Shape := ⟨2, ![200000, 64]⟩
abbrev S1x64 : Shape := ⟨2, ![1, 64]⟩
abbrev S524288x64 : Shape := ⟨2, ![524288, 64]⟩
abbrev S200000x1 : Shape := ⟨2, ![200000, 1]⟩
abbrev S524288 : Shape := ⟨1, ![524288]⟩
abbrev S524288x1 : Shape := ⟨2, ![524288, 1]⟩
abbrev S2x4 : Shape := ⟨2, ![2, 4]⟩
abbrev S1 : Shape := ⟨1, ![1]⟩
abbrev S2x64 : Shape := ⟨2, ![2, 64]⟩
abbrev S2x262144x64 : Shape := ⟨3, ![2, 262144, 64]⟩
abbrev S2x512x512x64 : Shape := ⟨4, ![2, 512, 512, 64]⟩

abbrev nBuf : Space → Nat
  | .hbm => 185
  | .vmem => 0
  | .smem => 0
  | _ => 0

abbrev hbmTy0_0 (i : Nat) : BufTy := match i % 128 with
  | 0 => ⟨S2x100000x3, .f32⟩
  | 1 => ⟨S2x100000x3, .f32⟩
  | 2 => ⟨S3x64, .f32⟩
  | 3 => ⟨S64, .f32⟩
  | 4 => ⟨S4x64, .f32⟩
  | 5 => ⟨S64, .f32⟩
  | 6 => ⟨S_, .i32⟩
  | 7 => ⟨S2x100000x1, .f32⟩
  | 8 => ⟨S2x100000, .f32⟩
  | 9 => ⟨S_, .f32⟩
  | 10 => ⟨S2x100000, .f32⟩
  | 11 => ⟨S2x100000, .f32⟩
  | 12 => ⟨S_, .f32⟩
  | 13 => ⟨S2x100000, .f32⟩
  | 14 => ⟨S2x100000, .f32⟩
  | 15 => ⟨S2x100000, .f32⟩
  | 16 => ⟨S_, .i32⟩
  | 17 => ⟨S_, .i32⟩
  | 18 => ⟨S_, .f32⟩
  | 19 => ⟨S2x100000, .f32⟩
  | 20 => ⟨S2x100000, .f32⟩
  | 21 => ⟨S_, .f32⟩
  | 22 => ⟨S2x100000, .f32⟩
  | 23 => ⟨S2x100000, .f32⟩
  | 24 => ⟨S2x100000, .i32⟩
  | 25 => ⟨S2x100000x1, .f32⟩
  | 26 => ⟨S2x100000, .f32⟩
  | 27 => ⟨S_, .f32⟩
  | 28 => ⟨S2x100000, .f32⟩
  | 29 => ⟨S2x100000, .f32⟩
  | 30 => ⟨S_, .f32⟩
  | 31 => ⟨S2x100000, .f32⟩
  | 32 => ⟨S2x100000, .f32⟩
  | 33 => ⟨S2x100000, .f32⟩
  | 34 => ⟨S_, .i32⟩
  | 35 => ⟨S_, .i32⟩
  | 36 => ⟨S_, .f32⟩
  | 37 => ⟨S2x100000, .f32⟩
  | 38 => ⟨S2x100000, .f32⟩
  | 39 => ⟨S_, .f32⟩
  | 40 => ⟨S2x100000, .f32⟩
  | 41 => ⟨S2x100000, .f32⟩
  | 42 => ⟨S2x100000, .i32⟩
  | 43 => ⟨S2, .i32⟩
  | 44 => ⟨S2x1, .i32⟩
  | 45 => ⟨S_, .i32⟩
  | 46 => ⟨S2x1, .i32⟩
  | 47 => ⟨S2x1, .i32⟩
  | 48 => ⟨S_, .i32⟩
  | 49 => ⟨S2x1, .i32⟩
  | 50 => ⟨S2x1, .i32⟩
  | 51 => ⟨S_, .i32⟩
  | 52 => ⟨S2x100000, .i32⟩
  | 53 => ⟨S2x100000, .i32⟩
  | 54 => ⟨S2x100000, .i32⟩
  | 55 => ⟨S2x100000, .i32⟩
  | 56 => ⟨S2x100000, .i32⟩
  | 57 => ⟨S200000, .i32⟩
  | 58 => ⟨S200000x3, .f32⟩
  | 59 => ⟨S200000x64, .f32⟩
  | 60 => ⟨S1x64, .f32⟩
  | 61 => ⟨S200000x64, .f32⟩
  | 62 => ⟨S200000x64, .f32⟩
  | 63 => ⟨S_, .f32⟩
  | 64 => ⟨S200000x64, .f32⟩
  | 65 => ⟨S200000x64, .f32⟩
  | 66 => ⟨S_, .f32⟩
  | 67 => ⟨S524288x64, .f32⟩
  | 68 => ⟨S200000x1, .i32⟩
  | 69 => ⟨S524288x64, .f32⟩
  | 70 => ⟨S_, .f32⟩
  | 71 => ⟨S200000, .f32⟩
  | 72 => ⟨S_, .f32⟩
  | 73 => ⟨S524288, .f32⟩
  | 74 => ⟨S200000x1, .i32⟩
  | 75 => ⟨S524288, .f32⟩
  | 76 => ⟨S_, .f32⟩
  | 77 => ⟨S524288, .f32⟩
  | 78 => ⟨S524288, .f32⟩
  | 79 => ⟨S524288x1, .f32⟩
  | 80 => ⟨S524288x64, .f32⟩
  | 81 => ⟨S524288x64, .f32⟩
  | 82 => ⟨S2x100000x1, .f32⟩
  | 83 => ⟨S2x100000, .f32⟩
  | 84 => ⟨S_, .f32⟩
  | 85 => ⟨S2x100000, .f32⟩
  | 86 => ⟨S2x100000, .f32⟩
  | 87 => ⟨S_, .f32⟩
  | 88 => ⟨S2x100000, .f32⟩
  | 89 => ⟨S2x100000, .f32⟩
  | 90 => ⟨S2x100000, .f32⟩
  | 91 => ⟨S_, .i32⟩
  | 92 => ⟨S_, .i32⟩
  | 93 => ⟨S_, .f32⟩
  | 94 => ⟨S2x100000, .f32⟩
  | 95 => ⟨S2x100000, .f32⟩
  | 96 => ⟨S_, .f32⟩
  | 97 => ⟨S2x100000, .f32⟩
  | 98 => ⟨S2x100000, .f32⟩
  | 99 => ⟨S2x100000, .i32⟩
  | 100 => ⟨S2x100000x1, .f32⟩
  | 101 => ⟨S2x100000, .f32⟩
  | 102 => ⟨S_, .f32⟩
  | 103 => ⟨S2x100000, .f32⟩
  | 104 => ⟨S2x100000, .f32⟩
  | 105 => ⟨S_, .f32⟩
  | 106 => ⟨S2x100000, .f32⟩
  | 107 => ⟨S2x100000, .f32⟩
  | 108 => ⟨S2x100000, .f32⟩
  | 109 => ⟨S_, .i32⟩
  | 110 => ⟨S_, .i32⟩
  | 111 => ⟨S_, .f32⟩
  | 112 => ⟨S2x100000, .f32⟩
  | 113 => ⟨S2x100000, .f32⟩
  | 114 => ⟨S_, .f32⟩
  | 115 => ⟨S2x100000, .f32⟩
  | 116 => ⟨S2x100000, .f32⟩
  | 117 => ⟨S2x100000, .i32⟩
  | 118 => ⟨S2, .i32⟩
  | 119 => ⟨S2x1, .i32⟩
  | 120 => ⟨S_, .i32⟩
  | 121 => ⟨S2x1, .i32⟩
  | 122 => ⟨S2x1, .i32⟩
  | 123 => ⟨S_, .i32⟩
  | 124 => ⟨S2x1, .i32⟩
  | 125 => ⟨S2x1, .i32⟩
  | 126 => ⟨S_, .i32⟩
  | 127 => ⟨S2x100000, .i32⟩
  | _ => ⟨S2x100000x3, .f32⟩

abbrev hbmTy0_1 (i : Nat) : BufTy := match i % 128 with
  | 0 => ⟨S2x100000, .i32⟩
  | 1 => ⟨S2x100000, .i32⟩
  | 2 => ⟨S2x100000, .i32⟩
  | 3 => ⟨S2x100000, .i32⟩
  | 4 => ⟨S200000, .i32⟩
  | 5 => ⟨S200000x3, .f32⟩
  | 6 => ⟨S200000x64, .f32⟩
  | 7 => ⟨S1x64, .f32⟩
  | 8 => ⟨S200000x64, .f32⟩
  | 9 => ⟨S200000x64, .f32⟩
  | 10 => ⟨S_, .f32⟩
  | 11 => ⟨S200000x64, .f32⟩
  | 12 => ⟨S200000x64, .f32⟩
  | 13 => ⟨S_, .f32⟩
  | 14 => ⟨S524288x64, .f32⟩
  | 15 => ⟨S200000x1, .i32⟩
  | 16 => ⟨S524288x64, .f32⟩
  | 17 => ⟨S_, .f32⟩
  | 18 => ⟨S200000, .f32⟩
  | 19 => ⟨S_, .f32⟩
  | 20 => ⟨S524288, .f32⟩
  | 21 => ⟨S200000x1, .i32⟩
  | 22 => ⟨S524288, .f32⟩
  | 23 => ⟨S_, .f32⟩
  | 24 => ⟨S524288, .f32⟩
  | 25 => ⟨S524288, .f32⟩
  | 26 => ⟨S524288x1, .f32⟩
  | 27 => ⟨S524288x64, .f32⟩
  | 28 => ⟨S524288x64, .f32⟩
  | 29 => ⟨S524288x64, .f32⟩
  | 30 => ⟨S524288, .f32⟩
  | 31 => ⟨S_, .f32⟩
  | 32 => ⟨S524288, .f32⟩
  | 33 => ⟨S524288, .i1⟩
  | 34 => ⟨S524288, .f32⟩
  | 35 => ⟨S_, .f32⟩
  | 36 => ⟨S2x4, .f32⟩
  | 37 => ⟨S_, .i32⟩
  | 38 => ⟨S_, .i1⟩
  | 39 => ⟨S_, .i32⟩
  | 40 => ⟨S_, .i32⟩
  | 41 => ⟨S_, .i32⟩
  | 42 => ⟨S1, .i32⟩
  | 43 => ⟨S_, .f32⟩
  | 44 => ⟨S2, .f32⟩
  | 45 => ⟨S2x4, .f32⟩
  | 46 => ⟨S2x64, .f32⟩
  | 47 => ⟨S1x64, .f32⟩
  | 48 => ⟨S2x64, .f32⟩
  | 49 => ⟨S2x64, .f32⟩
  | 50 => ⟨S2x262144x64, .f32⟩
  | 51 => ⟨S524288x64, .f32⟩
  | 52 => ⟨S524288x64, .f32⟩
  | 53 => ⟨S524288x1, .f32⟩
  | 54 => ⟨S524288x64, .f32⟩
  | 55 => ⟨S524288x64, .f32⟩
  | 56 => ⟨S2x512x512x64, .f32⟩
  | _ => ⟨S2x100000x3, .f32⟩

abbrev hbmTy (i : Nat) : BufTy := match i / 128 with
  | 0 => hbmTy0_0 i
  | 1 => hbmTy0_1 i
  | _ => ⟨S2x100000x3, .f32⟩

abbrev bufTy : (tb : Table) → Fin (tcTables nBuf tb) → BufTy
  | .hbm, ⟨i, _⟩ => hbmTy i
  | _, _ => ⟨S2x100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_c_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_c_5 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_c_6 : Ref sig .tc := ⟨.hbm, 45, rfl⟩
abbrev main_v20 : Ref sig .tc := ⟨.hbm, 46, rfl⟩
abbrev main_v21 : Ref sig .tc := ⟨.hbm, 47, rfl⟩
abbrev main_c_7 : Ref sig .tc := ⟨.hbm, 48, rfl⟩
abbrev main_v22 : Ref sig .tc := ⟨.hbm, 49, rfl⟩
abbrev main_v23 : Ref sig .tc := ⟨.hbm, 50, rfl⟩
abbrev main_c_8 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_call2_cst : Ref sig .tc := ⟨.hbm, 63, rfl⟩
abbrev main_call2_v0 : Ref sig .tc := ⟨.hbm, 64, rfl⟩
abbrev main_v35 : Ref sig .tc := ⟨.hbm, 65, rfl⟩
abbrev main_cst_9 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_10 : Ref sig .tc := ⟨.hbm, 70, rfl⟩
abbrev main_v39 : Ref sig .tc := ⟨.hbm, 71, rfl⟩
abbrev main_cst_11 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_cst_12 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_cst_13 : Ref sig .tc := ⟨.hbm, 84, rfl⟩
abbrev main_v50 : Ref sig .tc := ⟨.hbm, 85, rfl⟩
abbrev main_v51 : Ref sig .tc := ⟨.hbm, 86, rfl⟩
abbrev main_cst_14 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_c_15 : Ref sig .tc := ⟨.hbm, 91, rfl⟩
abbrev main_c_16 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_call3_v3 : Ref sig .tc := ⟨.hbm, 96, rfl⟩
abbrev main_call3_v4 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_cst_17 : Ref sig .tc := ⟨.hbm, 102, rfl⟩
abbrev main_v59 : Ref sig .tc := ⟨.hbm, 103, rfl⟩
abbrev main_v60 : Ref sig .tc := ⟨.hbm, 104, rfl⟩
abbrev main_cst_18 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_c_19 : Ref sig .tc := ⟨.hbm, 109, rfl⟩
abbrev main_c_20 : Ref sig .tc := ⟨.hbm, 110, rfl⟩
abbrev main_call4_v0 : Ref sig .tc := ⟨.hbm, 111, rfl⟩
abbrev main_call4_v1 : Ref sig .tc := ⟨.hbm, 112, rfl⟩
abbrev main_call4_v2 : Ref sig .tc := ⟨.hbm, 113, rfl⟩
abbrev main_call4_v3 : Ref sig .tc := ⟨.hbm, 114, rfl⟩
abbrev main_call4_v4 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_c_21 : Ref sig .tc := ⟨.hbm, 120, rfl⟩
abbrev main_v68 : Ref sig .tc := ⟨.hbm, 121, rfl⟩
abbrev main_v69 : Ref sig .tc := ⟨.hbm, 122, rfl⟩
abbrev main_c_22 : Ref sig .tc := ⟨.hbm, 123, rfl⟩
abbrev main_v70 : Ref sig .tc := ⟨.hbm, 124, rfl⟩
abbrev main_v71 : Ref sig .tc := ⟨.hbm, 125, rfl⟩
abbrev main_c_23 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_call5_cst : Ref sig .tc := ⟨.hbm, 138, rfl⟩
abbrev main_call5_v0 : Ref sig .tc := ⟨.hbm, 139, rfl⟩
abbrev main_v83 : Ref sig .tc := ⟨.hbm, 140, rfl⟩
abbrev main_cst_24 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_cst_25 : Ref sig .tc := ⟨.hbm, 145, rfl⟩
abbrev main_v87 : Ref sig .tc := ⟨.hbm, 146, rfl⟩
abbrev main_cst_26 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_cst_27 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_cst_28 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_cst_29 : Ref sig .tc := ⟨.hbm, 163, rfl⟩
abbrev main_v101 : Ref sig .tc := ⟨.hbm, 164, rfl⟩
abbrev main_c_30 : Ref sig .tc := ⟨.hbm, 165, rfl⟩
abbrev main_v102 : Ref sig .tc := ⟨.hbm, 166, rfl⟩
abbrev main_c_31 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_cst_32 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩

abbrev nD : Nat := 1
abbrev τ : Topo := Topo.v7x

variable {F : FTy → Type} [FloatOps F]

class Facts₀ : Prop where
  slices_S2x100000x3_S2x100000x1_0_0_0 : S2x100000x3.Slices ![0, 0, 0] S2x100000x1
  shapeCasts_S2x100000x1_S2x100000 : S2x100000x1.ShapeCasts S2x100000
  bcast_S_S2x100000 : S_.BroadcastsInDim S2x100000 (![] : Fin 0 → Fin S2x100000.rank)
  slices_S2x100000x3_S2x100000x1_0_0_1 : S2x100000x3.Slices ![0, 0, 1] S2x100000x1
  bcast_S2_S2x1_0 : S2.BroadcastsInDim S2x1 (![0] : Fin 1 → Fin S2x1.rank)
  bcast_S_S2x1 : S_.BroadcastsInDim S2x1 (![] : Fin 0 → Fin S2x1.rank)
  bcast_S2x1_S2x100000_0_1 : S2x1.BroadcastsInDim S2x100000 (![0, 1] : Fin 2 → Fin S2x100000.rank)
  shapeCasts_S2x100000_S200000 : S2x100000.ShapeCasts S200000
  shapeCasts_S2x100000x3_S200000x3 : S2x100000x3.ShapeCasts S200000x3
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S_S200000x64 : S_.BroadcastsInDim S200000x64 (![] : Fin 0 → Fin S200000x64.rank)
  bcast_S_S524288x64 : S_.BroadcastsInDim S524288x64 (![] : Fin 0 → Fin S524288x64.rank)
  bcast_S200000_S200000x1_0 : S200000.BroadcastsInDim S200000x1 (![0] : Fin 1 → Fin S200000x1.rank)
  bcast_S_S200000 : S_.BroadcastsInDim S200000 (![] : Fin 0 → Fin S200000.rank)
  bcast_S_S524288 : S_.BroadcastsInDim S524288 (![] : Fin 0 → Fin S524288.rank)
  bcast_S524288_S524288x1_0 : S524288.BroadcastsInDim S524288x1 (![0] : Fin 1 → Fin S524288x1.rank)
  bcast_S524288x1_S524288x64_0_1 : S524288x1.BroadcastsInDim S524288x64 (![0, 1] : Fin 2 → Fin S524288x64.rank)
  bcast_S_S2x4 : S_.BroadcastsInDim S2x4 (![] : Fin 0 → Fin S2x4.rank)
  bcast_S_S1 : S_.BroadcastsInDim S1 (![] : Fin 0 → Fin S1.rank)
  bcast_S_S2 : S_.BroadcastsInDim S2 (![] : Fin 0 → Fin S2.rank)
  bcast_S1x64_S2x64_0_1 : S1x64.BroadcastsInDim S2x64 (![0, 1] : Fin 2 → Fin S2x64.rank)
  bcast_S2x64_S2x262144x64_0_2 : S2x64.BroadcastsInDim S2x262144x64 (![0, 2] : Fin 2 → Fin S2x262144x64.rank)
  shapeCasts_S2x262144x64_S524288x64 : S2x262144x64.ShapeCasts S524288x64
  shapeCasts_S524288x64_S2x512x512x64 : S524288x64.ShapeCasts S2x512x512x64
  dot_S200000x3_S3x64_S200000x64_1_0_0_1_n_n_wf : DotDims.WF S200000x3 S3x64 S200000x64 [1] [0] [0] [1] [] []
  scatter_S524288x64_S200000x1_S200000x64_1_0_0_1_wf : ScatterDims.WF S524288x64 S200000x1 S200000x64 [1] [0] [0] 1
  scatter_S524288_S200000x1_S200000_n_0_0_1_wf : ScatterDims.WF S524288 S200000x1 S200000 [] [0] [0] 1
  scatter_S2x4_S1_S2_0_1_1_0_wf : ScatterDims.WF S2x4 S1 S2 [0] [1] [1] 0
  dot_S2x4_S4x64_S2x64_1_0_0_1_n_n_wf : DotDims.WF S2x4 S4x64 S2x64 [1] [0] [0] [1] [] []

variable [Facts₀]

def dot_S200000x3_S3x64_S200000x64_1_0_0_1_n_n : DotDims S200000x3 S3x64 S200000x64 where
  lhsContracting := [1]
  rhsContracting := [0]
  lhsNonContracting := [0]
  rhsNonContracting := [1]
  lhsBatch := []
  rhsBatch := []
  wf := dot_S200000x3_S3x64_S200000x64_1_0_0_1_n_n_wf
def scatter_S524288x64_S200000x1_S200000x64_1_0_0_1 : ScatterDims S524288x64 S200000x1 S200000x64 where
  updateWindowDims := [1]
  insertedWindowDims := [0]
  scatterDimsToOperandDims := [0]
  indexVectorDim := 1
  wf := scatter_S524288x64_S200000x1_S200000x64_1_0_0_1_wf
def scatter_S524288_S200000x1_S200000_n_0_0_1 : ScatterDims S524288 S200000x1 S200000 where
  updateWindowDims := []
  insertedWindowDims := [0]
  scatterDimsToOperandDims := [0]
  indexVectorDim := 1
  wf := scatter_S524288_S200000x1_S200000_n_0_0_1_wf
def scatter_S2x4_S1_S2_0_1_1_0 : ScatterDims S2x4 S1 S2 where
  updateWindowDims := [0]
  insertedWindowDims := [1]
  scatterDimsToOperandDims := [1]
  indexVectorDim := 0
  wf := scatter_S2x4_S1_S2_0_1_1_0_wf
def dot_S2x4_S4x64_S2x64_1_0_0_1_n_n : DotDims S2x4 S4x64 S2x64 where
  lhsContracting := [1]
  rhsContracting := [0]
  lhsNonContracting := [0]
  rhsNonContracting := [1]
  lhsBatch := []
  rhsBatch := []
  wf := dot_S2x4_S4x64_S2x64_1_0_0_1_n_n_wf

class Facts : Prop extends Facts₀ where

variable [Facts]
-- ==== Proof.KFrame.lean ====
/- The frame of `Kernel`: @main is thirteen stretches of host operations, one pipelined region over a grid of
   128 points, and one host operation after it. The region's body loads the five input windows' blocks whole,
   loads the output window's buffer (the value is not used) and stores one payload over the whole output block.
   This module states the contents the region finds (`V`), each window's block at a point (`iblk`), what the
   body leaves in the output buffer (`out0_5`), the body's triple, the proof data, the run of @main and the
   frame claim: every argument array ends as launched. Generic in the float instance `F`. -/
import proofs.«171866_g16836271800623_cont_week2b_1426_95_alg».proof.Proof.Gen.Kernel.Launch
import proofs.«171866_g16836271800623_cont_week2b_1426_95_alg».proof.Proof.Gen.Kernel.Skeleton
import proofs.«171866_g16836271800623_cont_week2b_1426_95_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: the launch contents after the
    thirteen stretches of host operations before the region, in order. -/
abbrev V0 (c : Dev nD) : Valuation τ sig (Elt F) := StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host stretches before the region, the region, and the host operation after it: it reduces to the
    region continued by the later operation, at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh⟩) main_chain

/-- The operation after the region touches the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: it writes its own result buffer, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The host operation after the region does not write `main_arg0` either: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The host operation after the region does not write `main_arg1` either: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The host operation after the region does not write `main_arg2` either: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The host operation after the region does not write `main_arg3` either: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The host operation after the region does not write `main_arg4` either: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The host operation after the region does not write `main_arg5` either: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The host operation after the region does not write `main_arg6` either: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is `V`'s and whose body leaves the block in place: unfetched, the block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is `V`'s and whose body leaves the block in place: unfetched, the block index has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is `V`'s and whose body leaves the block in place: unfetched, the block index has not moved. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is `V`'s and whose body leaves the block in place: unfetched, the block index has not moved. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof data
    whose array is `V`'s and whose body leaves the block in place: unfetched, the block index has not moved. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the frame post read at the seven argument
    arrays — none is a window's array, so each is an unscoped buffer the region bypasses, left as the operation after
    the region leaves it, which is as launched — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(((h c).2 main_arg0 (Pipeline.mem_restRefs_of main_arg0 (by decide) (by decide))).trans (W_main_arg0 m dats c)),
    (((h c).2 main_arg1 (Pipeline.mem_restRefs_of main_arg1 (by decide) (by decide))).trans (W_main_arg1 m dats c)),
    (((h c).2 main_arg2 (Pipeline.mem_restRefs_of main_arg2 (by decide) (by decide))).trans (W_main_arg2 m dats c)),
    (((h c).2 main_arg3 (Pipeline.mem_restRefs_of main_arg3 (by decide) (by decide))).trans (W_main_arg3 m dats c)),
    (((h c).2 main_arg4 (Pipeline.mem_restRefs_of main_arg4 (by decide) (by decide))).trans (W_main_arg4 m dats c)),
    (((h c).2 main_arg5 (Pipeline.mem_restRefs_of main_arg5 (by decide) (by decide))).trans (W_main_arg5 m dats c)),
    (((h c).2 main_arg6 (Pipeline.mem_restRefs_of main_arg6 (by decide) (by decide))).trans (W_main_arg6 m dats c))⟩) h

/-! ## The body's accesses -/

/-- The whole 4096x64 block. -/
abbrev rA : Rect S4096x64 := Rect.unit (s := S4096x64) ![0, 0] S4096x64.size inb_S4096x64_S4096x64_0_0
/-- The whole 4096x1 block. -/
abbrev rB : Rect S4096x1 := Rect.unit (s := S4096x1) ![0, 0] S4096x1.size inb_S4096x1_S4096x1_0_0
/-- The whole 1x64 block. -/
abbrev rC : Rect S1x64 := Rect.unit (s := S1x64) ![0, 0] S1x64.size inb_S1x64_S1x64_0_0

/-! ## What the body leaves in the output window's buffer -/

/-- Window 5's staging buffer after the body, from the input windows' blocks: its one store, over the whole block, of
    the payload computed from the five loaded blocks. -/
def out0_5 (x0 x1 : Vec F S4096x64 .f32) (x2 x3 : Vec F S4096x1 .f32) (x4 : Vec F S1x64 .f32) : Vec F S4096x64 .f32 :=
  View.canon [⟨rA, k0_pay1 (View.ld x2 rB) (View.ld x3 rB) (View.ld x4 rC) (View.ld x1 rA) (View.ld x0 rA)⟩]

/-- The one store tiles the buffer, so it covers it. -/
theorem cover0_5 (p0 : Vec F S4096x64 .f32) (y : S4096x64.Idx) :
    ∃ pc ∈ ([⟨rA, p0⟩] : List (View.Piece (Elt F) S4096x64 .f32)), y ∈ pc.1.set :=
  View.cover_of_tiled [⟨rA, p0⟩] S4096x64.size (by rfl) y

/-! ## The body's triple -/

set_option maxHeartbeats 1000000 in
/-- The kernel body on whole staging memrefs, the inputs' at read contents `xW` and the output's at anything, runs to
    the continuation holding the inputs' as they were and the output's at `out0_5` of the inputs'. The load of the
    output buffer reads whatever is there; its value reaches no store. -/
theorem sound_kernel (c : Dev nD) (E : Set ℕ) (i : grid0.Coords)
    (arg1 : Memref sig .tc .vmem S4096x64 .f32) (harg1 : arg1.IsWhole) (arg2 : Memref sig .tc .vmem S4096x64 .f32) (harg2 : arg2.IsWhole)
    (arg3 : Memref sig .tc .vmem S4096x1 .f32) (harg3 : arg3.IsWhole) (arg4 : Memref sig .tc .vmem S4096x1 .f32) (harg4 : arg4.IsWhole)
    (arg5 : Memref sig .tc .vmem S1x64 .f32) (harg5 : arg5.IsWhole) (arg6 : Memref sig .tc .vmem S4096x64 .f32) (harg6 : arg6.IsWhole)
    (x0 x1 : Vec F S4096x64 .f32) (x2 x3 : Vec F S4096x1 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__finalize_body i arg1 harg1 arg2 harg2 arg3 harg3 arg4 harg4 arg5 harg5 arg6 harg6) K := by
  simp only [cc0__finalize_body_eq_skeleton]; unfold cc0__finalize_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of the one pipeline on core `c`: the arrays as the region finds them (`V`); after the body at point
    `t` each input's buffer at its block and the output's at `out0_5` of the input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

/-- The proof data's arrays are the region-entry contents (the definition projected; `V` is never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 1000000 in
/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the proof data computes and
    every other unscoped buffer as the operation after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the program runs (terminates, nothing faulting) and its seven argument arrays end as launched, at any
    float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Hand

end
-- ==== Proof.KIFrame.lean ====
/- The frame of `KernelIdeal`: @main is thirteen stretches of host operations, one pipelined region over a grid of
   128 points, and one host operation after it. The region's body loads the five input windows' blocks whole,
   loads the output window's buffer (the value is not used) and stores one payload over the whole output block.
   This module states the contents the region finds (`V`), each window's block at a point (`iblk`), what the
   body leaves in the output buffer (`out0_5`), the body's triple, the proof data, the run of @main and the
   frame claim: every argument array ends as launched. Generic in the float instance `F`. -/
import proofs.«171866_g16836271800623_cont_week2b_1426_95_alg».proof.Proof.Gen.KernelIdeal.Launch
import proofs.«171866_g16836271800623_cont_week2b_1426_95_alg».proof.Proof.Gen.KernelIdeal.Skeleton
import proofs.«171866_g16836271800623_cont_week2b_1426_95_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: the launch contents after the
    thirteen stretches of host operations before the region, in order. -/
abbrev V0 (c : Dev nD) : Valuation τ sig (Elt F) := StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host stretches before the region, the region, and the host operation after it: it reduces to the
    region continued by the later operation, at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh⟩) main_chain

/-- The operation after the region touches the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: it writes its own result buffer, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The host operation after the region does not write `main_arg0` either: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The host operation after the region does not write `main_arg1` either: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The host operation after the region does not write `main_arg2` either: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The host operation after the region does not write `main_arg3` either: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The host operation after the region does not write `main_arg4` either: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The host operation after the region does not write `main_arg5` either: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The host operation after the region does not write `main_arg6` either: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is `V`'s and whose body leaves the block in place: unfetched, the block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is `V`'s and whose body leaves the block in place: unfetched, the block index has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is `V`'s and whose body leaves the block in place: unfetched, the block index has not moved. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is `V`'s and whose body leaves the block in place: unfetched, the block index has not moved. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof data
    whose array is `V`'s and whose body leaves the block in place: unfetched, the block index has not moved. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the frame post read at the seven argument
    arrays — none is a window's array, so each is an unscoped buffer the region bypasses, left as the operation after
    the region leaves it, which is as launched — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(((h c).2 main_arg0 (Pipeline.mem_restRefs_of main_arg0 (by decide) (by decide))).trans (W_main_arg0 m dats c)),
    (((h c).2 main_arg1 (Pipeline.mem_restRefs_of main_arg1 (by decide) (by decide))).trans (W_main_arg1 m dats c)),
    (((h c).2 main_arg2 (Pipeline.mem_restRefs_of main_arg2 (by decide) (by decide))).trans (W_main_arg2 m dats c)),
    (((h c).2 main_arg3 (Pipeline.mem_restRefs_of main_arg3 (by decide) (by decide))).trans (W_main_arg3 m dats c)),
    (((h c).2 main_arg4 (Pipeline.mem_restRefs_of main_arg4 (by decide) (by decide))).trans (W_main_arg4 m dats c)),
    (((h c).2 main_arg5 (Pipeline.mem_restRefs_of main_arg5 (by decide) (by decide))).trans (W_main_arg5 m dats c)),
    (((h c).2 main_arg6 (Pipeline.mem_restRefs_of main_arg6 (by decide) (by decide))).trans (W_main_arg6 m dats c))⟩) h

/-! ## The body's accesses -/

/-- The whole 4096x64 block. -/
abbrev rA : Rect S4096x64 := Rect.unit (s := S4096x64) ![0, 0] S4096x64.size inb_S4096x64_S4096x64_0_0
/-- The whole 4096x1 block. -/
abbrev rB : Rect S4096x1 := Rect.unit (s := S4096x1) ![0, 0] S4096x1.size inb_S4096x1_S4096x1_0_0
/-- The whole 1x64 block. -/
abbrev rC : Rect S1x64 := Rect.unit (s := S1x64) ![0, 0] S1x64.size inb_S1x64_S1x64_0_0

/-! ## What the body leaves in the output window's buffer -/

/-- Window 5's staging buffer after the body, from the input windows' blocks: its one store, over the whole block, of
    the payload computed from the five loaded blocks. -/
def out0_5 (x0 x1 : Vec F S4096x64 .f32) (x2 x3 : Vec F S4096x1 .f32) (x4 : Vec F S1x64 .f32) : Vec F S4096x64 .f32 :=
  View.canon [⟨rA, k0_pay1 (View.ld x2 rB) (View.ld x3 rB) (View.ld x4 rC) (View.ld x1 rA) (View.ld x0 rA)⟩]

/-- The one store tiles the buffer, so it covers it. -/
theorem cover0_5 (p0 : Vec F S4096x64 .f32) (y : S4096x64.Idx) :
    ∃ pc ∈ ([⟨rA, p0⟩] : List (View.Piece (Elt F) S4096x64 .f32)), y ∈ pc.1.set :=
  View.cover_of_tiled [⟨rA, p0⟩] S4096x64.size (by rfl) y

/-! ## The body's triple -/

set_option maxHeartbeats 1000000 in
/-- The kernel body on whole staging memrefs, the inputs' at read contents `xW` and the output's at anything, runs to
    the continuation holding the inputs' as they were and the output's at `out0_5` of the inputs'. The load of the
    output buffer reads whatever is there; its value reaches no store. -/
theorem sound_kernel (c : Dev nD) (E : Set ℕ) (i : grid0.Coords)
    (arg1 : Memref sig .tc .vmem S4096x64 .f32) (harg1 : arg1.IsWhole) (arg2 : Memref sig .tc .vmem S4096x64 .f32) (harg2 : arg2.IsWhole)
    (arg3 : Memref sig .tc .vmem S4096x1 .f32) (harg3 : arg3.IsWhole) (arg4 : Memref sig .tc .vmem S4096x1 .f32) (harg4 : arg4.IsWhole)
    (arg5 : Memref sig .tc .vmem S1x64 .f32) (harg5 : arg5.IsWhole) (arg6 : Memref sig .tc .vmem S4096x64 .f32) (harg6 : arg6.IsWhole)
    (x0 x1 : Vec F S4096x64 .f32) (x2 x3 : Vec F S4096x1 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__finalize_body i arg1 harg1 arg2 harg2 arg3 harg3 arg4 harg4 arg5 harg5 arg6 harg6) K := by
  simp only [cc0__finalize_body_eq_skeleton]; unfold cc0__finalize_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of the one pipeline on core `c`: the arrays as the region finds them (`V`); after the body at point
    `t` each input's buffer at its block and the output's at `out0_5` of the input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

/-- The proof data's arrays are the region-entry contents (the definition projected; `V` is never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 1000000 in
/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the proof data computes and
    every other unscoped buffer as the operation after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the program runs (terminates, nothing faulting) and its seven argument arrays end as launched, at any
    float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Hand

end
-- ==== Proof.KBody.lean ====
/- The body's arithmetic, one element at a time. At every point of the grid the body holds a block of 4096 voxel rows: the two
   blocks of feature sums (source S, target T : 4096×64), the two columns of point counts (cs, ct : 4096×1) and the time
   row (tf : 1×64), and it stores, at row r and feature f,

       ( T[r,f] · (1 / max(ct[r], 1))  −  S[r,f] · (1 / max(cs[r], 1))  +  tf[f] ) · [cs[r] + ct[r] > 0].

   The count columns and the time row are broadcast along the other axis; nothing else in the body moves data. So the
   stored block, read at (r, f), is `cellVal` of the five loaded blocks read at (r, f), (r, 0) and (0, f). -/
import proofs.«171866_g16836271800623_cont_week2b_1426_95_alg».proof.Proof.Gen.KernelIdeal.Skeleton
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen
open Idealize.ShloMosaic Idealize.ShloMosaic.ValueIdx

/-- A column `[a, 1]` broadcast to `[a, b]` reads, at `(p, c)`, the column's entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The occupancy factor as the body computes it: the comparison's bit, widened to a word, read as a signed integer
    and converted to a float. -/
def occK (x : EReal) : EReal :=
  FloatOps.sitofp (F := Ideal) .f32 ((FloatOps.cmpf (F := Ideal) .ogt x (Scalar.ofBits (F := Ideal) .f32 0x00000000#32)).setWidth 32)

/-- The reciprocal of a count floored at one, as the body computes it: 1 / max(c, 1). -/
def invK (c : EReal) : EReal :=
  Ideal.div (Scalar.ofBits (F := Ideal) .f32 0x3F800000#32) (max c (Scalar.ofBits (F := Ideal) .f32 0x3F800000#32))

/-- The body's arithmetic on one element: source sum `s`, target sum `t`, source count `cs`, target count `ct`, time
    feature `tf`. -/
def cellVal (s t cs ct tf : EReal) : EReal :=
  (t * invK ct - s * invK cs + tf) * occK (cs + ct)

/-- THE PAYLOAD AT AN ELEMENT: the stored block at `(r, f)` is the body's arithmetic on the five loaded blocks read at
    `(r, f)`, `(r, 0)` and `(0, f)`. -/
theorem pay_apply (v0 v2 : Vec Ideal S4096x1 .f32) (v17 : Vec Ideal S1x64 .f32) (v19 v23 : Vec Ideal S4096x64 .f32)
    (r : Fin 4096) (f : Fin 64) :
    k0_pay1 v0 v2 v17 v19 v23 (ix2 r f)
      = cellVal (v23 (ix2 r f)) (v19 (ix2 r f)) (v0 (ix2 r (0 : Fin 1))) (v2 (ix2 r (0 : Fin 1))) (v17 (ix2 (0 : Fin 1) f)) := by
  unfold k0_pay1
  simp only [shapeCast_self]
  rw [mulf_apply, addf_apply, subf_apply, mulf_apply, mulf_apply,
    broadcastTo_a1_ab_apply, broadcastTo_a1_ab_apply, broadcastTo_a1_ab_apply, broadcastTo_1b_ab_apply]
  rfl

end Cert.KernelIdeal.Body

end
-- ==== Proof.KFinal.lean ====
/- From blocks to the array, and the kernel's run with its result named. Point t of the 128-point grid holds rows
   4096·t … 4096·t + 4095 of every row-blocked window (the two 524288×64 arrays of feature sums, the two 524288×1 columns
   of counts, the output) and the one block of the 1×64 time row. So what point t writes back is block t of ONE function
   of the five arrays the region finds, `Gk`: at (row, f) the body's arithmetic on the sums at (row, f), the counts at
   (row, 0) and the time row at (0, f). The 128 blocks cover the output array (row r lies in block r / 4096), hence the
   array ends holding `Gk`; the one host operation after the region re-lays it as [2, 512, 512, 64]. -/
import proofs.«171866_g16836271800623_cont_week2b_1426_95_alg».proof.Proof.KIFrame
import proofs.«171866_g16836271800623_cont_week2b_1426_95_alg».proof.Proof.KBody

set_option maxRecDepth 16384

noncomputable section

namespace Cert.KernelIdeal.Final

open Cert.KernelIdeal Cert.KernelIdeal.Gen Cert.KernelIdeal.Hand Cert.KernelIdeal.Body
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The output array as one function of the five arrays the windows stage: at `(row, f)` the body's arithmetic on the
    feature sums at `(row, f)`, the counts at `(row, 0)` and the time row at `(0, f)`. -/
def Gk (A0 A1 : S524288x64.Idx → EReal) (A2 A3 : S524288x1.Idx → EReal) (A4 : S1x64.Idx → EReal) : S524288x64.Idx → EReal :=
  fun i => cellVal (A0 i) (A1 i) (A2 (ix2 (⟨(i 0).val, idx2_lt0 i⟩ : Fin 524288) (0 : Fin 1)))
    (A3 (ix2 (⟨(i 0).val, idx2_lt0 i⟩ : Fin 524288) (0 : Fin 1))) (A4 (ix2 (0 : Fin 1) (⟨(i 1).val, idx2_lt1 i⟩ : Fin 64)))

/-- The printed index maps, decided over the grid: the row-blocked windows are at block `t`, the time row at its one
    block. -/
theorem idx_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx_2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx_3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem idx_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx_5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

/-- BLOCK BY BLOCK, for any five arrays: the body's payload of their blocks at point `t` is block `t` of `Gk` of the
    arrays. The row-blocked windows and the output are all at block `t` (rows 4096·t …), the count columns at column 0,
    the time row at its one block. -/
theorem blk_eq (A0 A1 : S524288x64.Idx → EReal) (A2 A3 : S524288x1.Idx → EReal) (A4 : S1x64.Idx → EReal) (t : Fin cfg0.N) :
    k0_pay1 (((cfg0.win 2).blk t).view.read (Elt Ideal) A2) (((cfg0.win 3).blk t).view.read (Elt Ideal) A3)
        (((cfg0.win 4).blk t).view.read (Elt Ideal) A4) (((cfg0.win 1).blk t).view.read (Elt Ideal) A1)
        (((cfg0.win 0).blk t).view.read (Elt Ideal) A0)
      = ((cfg0.win 5).blk t).view.read (Elt Ideal) (Gk A0 A1 A2 A3 A4) := by
  obtain ⟨e00, e01⟩ := idx_0 t; obtain ⟨e10, e11⟩ := idx_1 t; obtain ⟨e20, e21⟩ := idx_2 t
  obtain ⟨e30, e31⟩ := idx_3 t; obtain ⟨e40, e41⟩ := idx_4 t; obtain ⟨e50, e51⟩ := idx_5 t
  funext j
  obtain ⟨r, f, rfl⟩ : ∃ (r : Fin 4096) (f : Fin 64), j = ix2 r f := ⟨j 0, j 1, eq_ix2 j⟩
  refine (pay_apply _ _ _ _ _ r f).trans ?_
  show cellVal (A0 (((cfg0.win 0).blk t).view.emb (ix2 r f))) (A1 (((cfg0.win 1).blk t).view.emb (ix2 r f)))
      (A2 (((cfg0.win 2).blk t).view.emb (ix2 r (0 : Fin 1)))) (A3 (((cfg0.win 3).blk t).view.emb (ix2 r (0 : Fin 1))))
      (A4 (((cfg0.win 4).blk t).view.emb (ix2 (0 : Fin 1) f)))
    = Gk A0 A1 A2 A3 A4 (((cfg0.win 5).blk t).view.emb (ix2 r f))
  have hr : r.val < 4096 := r.isLt
  have hf : f.val < 64 := f.isLt
  have h0 : ((cfg0.win 0).blk t).view.emb (ix2 r f) = ((cfg0.win 5).blk t).view.emb (ix2 r f) := by
    funext a; apply Fin.ext
    match a with
    | ⟨0, _⟩ => show win0_0.index t (0 : Fin 2) * 4096 + 1 * r.val = win0_5.index t (0 : Fin 2) * 4096 + 1 * r.val; omega
    | ⟨1, _⟩ => show win0_0.index t (1 : Fin 2) * 64 + 1 * f.val = win0_5.index t (1 : Fin 2) * 64 + 1 * f.val; omega
  have h1 : ((cfg0.win 1).blk t).view.emb (ix2 r f) = ((cfg0.win 5).blk t).view.emb (ix2 r f) := by
    funext a; apply Fin.ext
    match a with
    | ⟨0, _⟩ => show win0_1.index t (0 : Fin 2) * 4096 + 1 * r.val = win0_5.index t (0 : Fin 2) * 4096 + 1 * r.val; omega
    | ⟨1, _⟩ => show win0_1.index t (1 : Fin 2) * 64 + 1 * f.val = win0_5.index t (1 : Fin 2) * 64 + 1 * f.val; omega
  have h2 : ((cfg0.win 2).blk t).view.emb (ix2 r (0 : Fin 1))
      = ix2 (⟨((((cfg0.win 5).blk t).view.emb (ix2 r f)) 0).val, idx2_lt0 _⟩ : Fin 524288) (0 : Fin 1) := by
    funext a; apply Fin.ext
    match a with
    | ⟨0, _⟩ => show win0_2.index t (0 : Fin 2) * 4096 + 1 * r.val = win0_5.index t (0 : Fin 2) * 4096 + 1 * r.val; omega
    | ⟨1, _⟩ => show win0_2.index t (1 : Fin 2) * 1 + 1 * 0 = 0; omega
  have h3 : ((cfg0.win 3).blk t).view.emb (ix2 r (0 : Fin 1))
      = ix2 (⟨((((cfg0.win 5).blk t).view.emb (ix2 r f)) 0).val, idx2_lt0 _⟩ : Fin 524288) (0 : Fin 1) := by
    funext a; apply Fin.ext
    match a with
    | ⟨0, _⟩ => show win0_3.index t (0 : Fin 2) * 4096 + 1 * r.val = win0_5.index t (0 : Fin 2) * 4096 + 1 * r.val; omega
    | ⟨1, _⟩ => show win0_3.index t (1 : Fin 2) * 1 + 1 * 0 = 0; omega
  have h4 : ((cfg0.win 4).blk t).view.emb (ix2 (0 : Fin 1) f)
      = ix2 (0 : Fin 1) (⟨((((cfg0.win 5).blk t).view.emb (ix2 r f)) 1).val, idx2_lt1 _⟩ : Fin 64) := by
    funext a; apply Fin.ext
    match a with
    | ⟨0, _⟩ => show win0_4.index t (0 : Fin 2) * 1 + 1 * 0 = 0; omega
    | ⟨1, _⟩ => show win0_4.index t (1 : Fin 2) * 64 + 1 * f.val = win0_5.index t (1 : Fin 2) * 64 + 1 * f.val; omega
  unfold Gk
  rw [h0, h1, h2, h3, h4]

/-- WHAT POINT `t` WRITES BACK is block `t` of `Gk` of the arrays as the region finds them. -/
theorem flushed_eq (c : Dev nD) (t : Fin cfg0.N) :
    (dats m 0 c).flushed 5 t = ((cfg0.win 5).blk t).view.read (Elt Ideal)
      (Gk (V m c main_v41) (V m c main_v85) (V m c main_v97) (V m c main_v98) (V m c main_v99)) := by
  show (cfg0.win 5).cut (grid0.coords t) ((dats m 0 c).after 5 t) = _
  rw [after0_5]
  unfold out0_5 iblk
  rw [View.canon_unit_zero hz]
  simp only [View.ld_unit_zero (S := S4096x64) hz, View.ld_unit_zero (S := S4096x1) hz, View.ld_unit_zero (S := S1x64) hz]
  exact blk_eq (V m c main_v41) (V m c main_v85) (V m c main_v97) (V m c main_v98) (V m c main_v99) t

/-- An index of the array is in point `t`'s block iff each coordinate is in the block's range on its axis. -/
theorem mem_blk (t : Fin cfg0.N) (i : S524288x64.Idx) :
    i ∈ ((cfg0.win 5).blk t).view.set ↔ ∀ a : Fin 2, win0_5.index t a * S4096x64.size a ≤ (i a).val ∧ (i a).val < win0_5.index t a * S4096x64.size a + S4096x64.size a := by
  show i ∈ ((View.whole main_v100).slice (win0_5.rect t)).set ↔ _
  rw [View.set_slice_whole, Rect.mem_set_unit]
  exact Iff.rfl

/-- THE BLOCKS COVER THE ARRAY: row `r` lies in the block of point `r / 4096`. -/
theorem cover (i : S524288x64.Idx) :
    ∃ t : Fin cfg0.N, (cfg0.win 5).flush t = true ∧ i ∈ ((cfg0.win 5).blk t).view.set := by
  have hi0 : (i 0).val < 524288 := idx2_lt0 i
  have hi1 : (i 1).val < 64 := idx2_lt1 i
  have hN : grid0.N = 128 := N_0
  let t : Fin cfg0.N := ⟨(i 0).val / 4096, by show (i 0).val / 4096 < grid0.N; rw [hN]; omega⟩
  obtain ⟨e00, e01⟩ := idx_0 t; obtain ⟨e10, e11⟩ := idx_1 t; obtain ⟨e20, e21⟩ := idx_2 t; obtain ⟨e30, e31⟩ := idx_3 t; obtain ⟨e40, e41⟩ := idx_4 t; obtain ⟨e50, e51⟩ := idx_5 t
  have ht : t.val = (i 0).val / 4096 := rfl
  refine ⟨t, flush0_5 t, ?_⟩
  rw [mem_blk]
  intro a
  match a with
  | ⟨0, _⟩ => show win0_5.index t (0 : Fin 2) * 4096 ≤ (i 0).val ∧ (i 0).val < win0_5.index t (0 : Fin 2) * 4096 + 4096; omega
  | ⟨1, _⟩ => show win0_5.index t (1 : Fin 2) * 64 ≤ (i 1).val ∧ (i 1).val < win0_5.index t (1 : Fin 2) * 64 + 64; omega

/-- THE ARRAY after the region: `Gk` of the five arrays the region finds. -/
theorem final (c : Dev nD) : (dats m 0 c).arrAt 5 cfg0.N
    = Gk (V m c main_v41) (V m c main_v85) (V m c main_v97) (V m c main_v98) (V m c main_v99) :=
  (dats m 0 c).arrAt_eq_of_cover 5 _ (fun t _ => flushed_eq m c t) cover

/-- THE RESULT after the host operation that follows the region: the array re-laid as [2, 512, 512, 64]. -/
theorem result_eq (c : Dev nD) :
    Pipeline.afterTail₀ cfgs (dats m) 0 (V0 m) [hostOps1] c main_v101
      = shapeCast S2x512x512x64 (Gk (V m c main_v41) (V m c main_v85) (V m c main_v97) (V m c main_v98) (V m c main_v99))
          shapeCasts_S524288x64_S2x512x512x64 := by
  unfold Pipeline.afterTail₀
  show StableHlo.after hostOps1 _ (Proc.devRef .tc main_v101) = _
  after_results
  exact congrArg (fun x => shapeCast S2x512x512x64 x shapeCasts_S524288x64_S2x512x512x64)
    ((Pipeline.withArrays_arr spec0 launch0.win.arr_inj c _ _ 5).trans (final m c))

/-- THE KERNEL'S RUN, READ: every weakly fair execution terminates, nothing faulting, with the result holding the
    re-laid `Gk` of the arrays the region found, and the seven argument arrays as launched. -/
theorem run : θ_run defs (onTc (τ := τ) (main (F := Ideal))) ⟨m, fun _ => 0, ρ⟩ fun r => ∀ c : Dev nD,
      r.2.mem ((c.tc : Thread nD τ).loc main_v101)
        = shapeCast S2x512x512x64 (Gk (V m c main_v41) (V m c main_v85) (V m c main_v97) (V m c main_v98) (V m c main_v99))
            shapeCasts_S524288x64_S2x512x512x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v101 (Pipeline.mem_restRefs_of main_v101 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c),
     ((h c).2 main_arg6 (Pipeline.mem_restRefs_of main_arg6 (by decide) (by decide))).trans (W_main_arg6 m (dats m) c)⟩)
    (run_main m ρ)

end Cert.KernelIdeal.Final

end
-- ==== Proof.KHostDefs.lean ====
/- What the kernel's host program hands the region. Before the pallas_call the host program computes, from each of the two
   point clouds x (f32[2,100000,3]) and the weights: the voxel id of every point (`segOf`: clip(floor((x − xmin)/vs), 0, 511)
   on the two horizontal coordinates, combined with the batch number into one id in [0, 2·512·512)), the per-point features
   relu(x·W + b) (`featsOf`), and ONE accumulating scatter of the 65-column rows (features, 1) into 524288 voxel rows
   (`sums65`): columns 0–63 are the per-voxel feature sums and column 64 is the per-voxel point count. It also reads the
   row of the time table named by the (normalised, clamped) integer input and adds the bias (`timeRow`). The five arrays
   the region's windows stage are these, sliced and re-laid. This module names those terms; the next reads each array off
   the host operations as such a term of the argument arrays. -/
import proofs.«171866_g16836271800623_cont_week2b_1426_95_alg».proof.Proof.Gen.KernelIdeal
import Idealize.ShloMosaic.PureOps.Ideal

set_option maxRecDepth 16384

noncomputable section

namespace Cert.KernelIdeal.HostVal

open Cert.KernelIdeal Cert.KernelIdeal.Gen
open Idealize.ShloMosaic

variable {F : FTy → Type} [FloatOps F]

/-- clip(·, 0, 511) on floats: min(511, max(0, ·)). -/
def clip511 (y : FVec F S2x100000 .f32) : FVec F S2x100000 .f32 :=
  minimumf (broadcastInDim S2x100000 ![] bcast_S_S2x100000 (sitofp .f32 (constantI S_ 32 511#32)))
    (maximumf (broadcastInDim S2x100000 ![] bcast_S_S2x100000 (sitofp .f32 (constantI S_ 32 0#32))) y)

/-- floor((x[..., 0] − xmin) / vs) for every point. -/
def cell0 (x : FVec F S2x100000x3 .f32) : FVec F S2x100000 .f32 :=
  Host.floor (Host.divf (subf (shapeCast _ (extractStridedSlice S2x100000x1 ![0, 0, 0] x slices_S2x100000x3_S2x100000x1_0_0_0) shapeCasts_S2x100000x1_S2x100000)
    (broadcastInDim S2x100000 ![] bcast_S_S2x100000 (constant S_ .f32 0xC24CCCCD#32)))
    (broadcastInDim S2x100000 ![] bcast_S_S2x100000 (constant S_ .f32 0x3E4CCCCD#32)))

/-- floor((x[..., 1] − xmin) / vs) for every point. -/
def cell1 (x : FVec F S2x100000x3 .f32) : FVec F S2x100000 .f32 :=
  Host.floor (Host.divf (subf (shapeCast _ (extractStridedSlice S2x100000x1 ![0, 0, 1] x slices_S2x100000x3_S2x100000x1_0_0_1) shapeCasts_S2x100000x1_S2x100000)
    (broadcastInDim S2x100000 ![] bcast_S_S2x100000 (constant S_ .f32 0xC24CCCCD#32)))
    (broadcastInDim S2x100000 ![] bcast_S_S2x100000 (constant S_ .f32 0x3E4CCCCD#32)))

/-- The voxel id of every point: batch·512·512 + vx·512 + vy, as 32-bit words, one per point of the flattened cloud. -/
def segOf (x : FVec F S2x100000x3 .f32) : IVec S200000 32 :=
  shapeCast _ (addi (addi (broadcastInDim S2x100000 ![0, 1] bcast_S2x1_S2x100000_0_1
      (muli (muli (broadcastInDim S2x1 ![0] bcast_S2_S2x1_0 (iotaInDim S2 32 0)) (broadcastInDim S2x1 ![] bcast_S_S2x1 (constantI S_ 32 512#32)))
        (broadcastInDim S2x1 ![] bcast_S_S2x1 (constantI S_ 32 512#32))))
      (muli (fptosi 32 (clip511 (cell0 x))) (broadcastInDim S2x100000 ![] bcast_S_S2x100000 (constantI S_ 32 512#32))))
    (fptosi 32 (clip511 (cell1 x)))) shapeCasts_S2x100000_S200000

/-- The per-point features relu(x·W + b), one row of 64 per point of the flattened cloud. -/
def featsOf (x : FVec F S2x100000x3 .f32) (w : FVec F S3x64 .f32) (b : FVec F S64 .f32) : FVec F S200000x64 .f32 :=
  maximumf (addf (Host.dotGeneral dot_S200000x3_S3x64_S200000x64_1_0_0_1_n_n none (shapeCast _ x shapeCasts_S2x100000x3_S200000x3) w)
      (broadcastInDim S200000x64 ![0, 1] bcast_S1x64_S200000x64_0_1 (broadcastInDim S1x64 ![1] bcast_S64_S1x64_1 b)))
    (broadcastInDim S200000x64 ![] bcast_S_S200000x64 (constant S_ .f32 0x00000000#32))

/-- The accumulating scatter of the rows (features, 1) into the voxel rows: 64 feature sums and the point count. -/
def sums65 (x : FVec F S2x100000x3 .f32) (w : FVec F S3x64 .f32) (b : FVec F S64 .f32) : FVec F S524288x65 .f32 :=
  Host.scatterAdd scatter_S524288x65_S200000x1_S200000x65_1_0_0_1
    (broadcastInDim S524288x65 ![] bcast_S_S524288x65 (constant S_ .f32 0x00000000#32))
    (broadcastInDim S200000x1 ![0] bcast_S200000_S200000x1_0 (segOf x))
    (concatenate S200000x65 1 [⟨S200000x64, featsOf x w b⟩, ⟨S200000x1, broadcastInDim S200000x1 ![] bcast_S_S200000x1 (constant S_ .f32 0x3F800000#32)⟩]
      concatenates_S200000x64_S200000x1_S200000x65_d1)

/-- The per-voxel feature sums: columns 0–63. -/
def sumsOf (x : FVec F S2x100000x3 .f32) (w : FVec F S3x64 .f32) (b : FVec F S64 .f32) : FVec F S524288x64 .f32 :=
  extractStridedSlice S524288x64 ![0, 0] (sums65 x w b) slices_S524288x65_S524288x64_0_0

/-- The per-voxel point counts: column 64, as a column [524288, 1]. -/
def countsOf (x : FVec F S2x100000x3 .f32) (w : FVec F S3x64 .f32) (b : FVec F S64 .f32) : FVec F S524288x1 .f32 :=
  broadcastInDim S524288x1 ![0] bcast_S524288_S524288x1_0
    (shapeCast _ (extractStridedSlice S524288x1 ![0, 64] (sums65 x w b) slices_S524288x65_S524288x1_0_64) shapeCasts_S524288x1_S524288)

/-- The index the host normalises: a negative word counts from the end (+4). -/
def normIdx (i : IVec S_ 32) : IVec S_ 32 :=
  select (cmpi .slt i (constantI S_ 32 0#32)) (addi i (constantI S_ 32 4#32)) i

/-- The column start of the dynamic slice: the literal 0, normalised the same way. -/
def zeroIdx : IVec S_ 32 :=
  select (cmpi .slt (constantI S_ 32 0#32) (constantI S_ 32 0#32)) (addi (constantI S_ 32 0#32) (constantI S_ 32 64#32)) (constantI S_ 32 0#32)

/-- The time row: row `normIdx i` (clamped into the table) of the time table, plus the bias. -/
def timeRow (w4 : FVec F S4x64 .f32) (b5 : FVec F S64 .f32) (i : IVec S_ 32) : FVec F S64 .f32 :=
  addf (shapeCast _ (Host.dynamicSlice S1x64 w4 (fun k => ((![normIdx i, zeroIdx] : Fin 2 → IVec S_ 32) k (Shape.Idx.first h_S_)).toInt) sliceFits_S4x64_S1x64) shapeCasts_S1x64_S64) b5

end Cert.KernelIdeal.HostVal

end
-- ==== Proof.LibAfter.lean ====
/-
  Two facts about a straight line of host operations, for running a long line in segments.

  The contents of the buffers after a line of operations is a fold over the line (each operation rewrites the buffers
  it writes and leaves the rest), so the contents after a concatenation of two lines are the contents after the second
  line, started from the contents after the first (`after_append`). And the side condition "no operation of the line
  allocates a buffer", which a run of the line asks for every member of the list, follows from the same condition
  stated as one conjunction over the list (`fresh_of_forall`), which splits along a concatenation (`forall_append`)
  and which, for a list written out operation by operation, holds by computation (`all_fresh`).
-/
import Idealize.ShloMosaic.Lib.StableHlo.Run

namespace Cert.LibAfter

open Idealize.ShloMosaic Idealize.ShloMosaic.StableHlo

variable {τ : Topo} {sig : RefSig} {Val : EltTy → Type}

/-- The buffer contents after a concatenation of two lines of operations are the contents after the second line,
    started from the contents after the first. -/
theorem after_append (a b : List (HloOp τ sig Val)) (V : Valuation τ sig Val) :
    after (a ++ b) V = after b (after a V) := by
  induction a generalizing V with
  | nil => rfl
  | cons op a ih => rw [List.cons_append, after_cons, after_cons, ih]

/-- A property of every operation of a concatenation is the property of every operation of each part. -/
theorem forall_append {α : Type} (p : α → Prop) (a b : List α) :
    (a ++ b).Forall p ↔ a.Forall p ∧ b.Forall p :=
  List.forall_append

/-- The property of each part gives the property of the concatenation. -/
theorem Forall.append {α : Type} {p : α → Prop} {a b : List α} (ha : a.Forall p) (hb : b.Forall p) :
    (a ++ b).Forall p :=
  (forall_append p a b).mpr ⟨ha, hb⟩

/-- "No operation allocates a buffer", stated as one conjunction over the list, gives it for every member. -/
theorem fresh_of_forall {ops : List (HloOp τ sig Val)} (h : ops.Forall fun op => op.fresh = ∅) :
    ∀ op ∈ ops, op.fresh = ∅ :=
  List.forall_iff_forall_mem.mp h

/-- The same for a family of lines, one per device: the form a run of the line asks for. -/
theorem fresh_of_forall_dev {ι : Type} {ops : ι → List (HloOp τ sig Val)}
    (h : ∀ d, (ops d).Forall fun op => op.fresh = ∅) : ∀ d, ∀ op ∈ ops d, op.fresh = ∅ :=
  fun d => fresh_of_forall (h d)

/-- `all_fresh ops` proves `ops.Forall fun op => op.fresh = ∅` for a list `ops` written out operation by operation
    (under a name, which is unfolded first): the conjunction over the list is split, and each operation built by a
    non-allocating builder has the empty set of fresh buffers by computation. -/
macro "all_fresh " ops:ident : tactic =>
  `(tactic| (first | simp only [$ops:ident, List.Forall] | simp only [List.Forall]
             repeat' constructor))

end Cert.LibAfter
-- ==== Proof.KStage.lean ====
/- The second cloud's voxel ids and features, read off the host operations stage by stage. The host program is a straight
   line; what a buffer holds at the end is a fold over the line, and the contents after a concatenation of two stretches are
   the contents after the second, started from the contents after the first. So the line is cut at the boundaries of its
   stretches, each cut read from ANY starting contents `W`: the clip of the first cell coordinate, the clip of the second
   and the integer cast of the first, the assembly of the voxel id and the features — each of the argument arrays, which
   no host operation writes, or of a buffer the stretch before left. -/
import proofs.«171866_g16836271800623_cont_week2b_1426_95_alg».proof.Proof.KIFrame
import proofs.«171866_g16836271800623_cont_week2b_1426_95_alg».proof.Proof.KHostDefs
import proofs.«171866_g16836271800623_cont_week2b_1426_95_alg».proof.Proof.LibAfter
import Idealize.ShloMosaic.Lib.StableHlo.Run

set_option maxRecDepth 16384

noncomputable section

namespace Cert.KernelIdeal.HostVal

open Cert.KernelIdeal Cert.KernelIdeal.Gen Cert.KernelIdeal.Hand
open Idealize.ShloMosaic Idealize.ShloMosaic.TcCoe Idealize.SL.Sem Idealize.ShloMosaic.StableHlo

/-- A buffer no operation of a line writes holds after the line what it held before. -/
theorem kept_of (ops : List (HloOp τ sig (Elt Ideal))) (W : Valuation τ sig (Elt Ideal)) (b : Ref sig .tc)
    (h : ops.Forall fun op => Proc.devRef .tc b ∉ op.writes) :
    after ops W (Proc.devRef .tc b) = W (Proc.devRef .tc b) :=
  StableHlo.after_of_forall_not_mem (b := Proc.devRef .tc b) _ _ (List.forall_iff_forall_mem.mp h)

variable (W : Valuation τ sig (Elt Ideal))

set_option maxHeartbeats 2000000 in
/-- Stretches 6–7: the clipped first cell coordinate of the second cloud. -/
theorem st67 : (after (hostOps0_6 ++ hostOps0_7) W (Proc.devRef .tc main_v51) : S2x100000.Idx → EReal)
    = clip511 (cell0 (F := Ideal) (W (Proc.devRef .tc main_arg1))) := by
  simp only [hostOps0_6, hostOps0_7, List.cons_append, List.nil_append]
  after_results
  rfl

set_option maxHeartbeats 2000000 in
/-- Stretches 8–9: the first cell coordinate as an integer. -/
theorem st89a : (after (hostOps0_8 ++ hostOps0_9) W (Proc.devRef .tc main_v52) : S2x100000.Idx → BitVec 32)
    = fptosi (F := Ideal) (s := S2x100000) (φ := .f32) 32 (W (Proc.devRef .tc main_v51)) := by
  simp only [hostOps0_8, hostOps0_9, List.cons_append, List.nil_append]
  after_results

set_option maxHeartbeats 2000000 in
/-- Stretches 8–9: the clipped second cell coordinate of the second cloud. -/
theorem st89b : (after (hostOps0_8 ++ hostOps0_9) W (Proc.devRef .tc main_v60) : S2x100000.Idx → EReal)
    = clip511 (cell1 (F := Ideal) (W (Proc.devRef .tc main_arg1))) := by
  simp only [hostOps0_8, hostOps0_9, List.cons_append, List.nil_append]
  after_results
  rfl

/-- The voxel id from the integer first coordinate `p` and the clipped second coordinate `q`. -/
def segAsm (p : IVec S2x100000 32) (q : FVec Ideal S2x100000 .f32) : IVec S200000 32 :=
  shapeCast _ (addi (addi (broadcastInDim S2x100000 ![0, 1] bcast_S2x1_S2x100000_0_1
      (muli (muli (broadcastInDim S2x1 ![0] bcast_S2_S2x1_0 (iotaInDim S2 32 0)) (broadcastInDim S2x1 ![] bcast_S_S2x1 (constantI S_ 32 512#32)))
        (broadcastInDim S2x1 ![] bcast_S_S2x1 (constantI S_ 32 512#32))))
      (muli p (broadcastInDim S2x100000 ![] bcast_S_S2x100000 (constantI S_ 32 512#32))))
    (fptosi 32 q)) shapeCasts_S2x100000_S200000

/-- The voxel ids are that assembly of the two clipped coordinates. -/
theorem segOf_eq (x : FVec Ideal S2x100000x3 .f32) :
    segOf (F := Ideal) x = segAsm (fptosi 32 (clip511 (cell0 (F := Ideal) x))) (clip511 (cell1 (F := Ideal) x)) := rfl

set_option maxHeartbeats 2000000 in
/-- Stretches 10–11: the voxel ids of the second cloud. -/
theorem st1011a : (after (hostOps0_10 ++ hostOps0_11) W (Proc.devRef .tc main_v73) : S200000.Idx → BitVec 32)
    = segAsm (W (Proc.devRef .tc main_v52)) (W (Proc.devRef .tc main_v60)) := by
  simp only [hostOps0_10, hostOps0_11, List.cons_append, List.nil_append]
  after_results
  rfl

set_option maxHeartbeats 2000000 in
/-- Stretches 10–11: the features of the second cloud. -/
theorem st1011b : (after (hostOps0_10 ++ hostOps0_11) W (Proc.devRef .tc main_v79) : S200000x64.Idx → EReal)
    = featsOf (F := Ideal) (W (Proc.devRef .tc main_arg1)) (W (Proc.devRef .tc main_arg2)) (W (Proc.devRef .tc main_arg3)) := by
  simp only [hostOps0_10, hostOps0_11, List.cons_append, List.nil_append]
  after_results
  rfl

/-- The 65-column scatter of given voxel ids and features. -/
def sums65Of (sg : IVec S200000 32) (ft : FVec Ideal S200000x64 .f32) : FVec Ideal S524288x65 .f32 :=
  Host.scatterAdd scatter_S524288x65_S200000x1_S200000x65_1_0_0_1
    (broadcastInDim S524288x65 ![] bcast_S_S524288x65 (constant S_ .f32 0x00000000#32))
    (broadcastInDim S200000x1 ![0] bcast_S200000_S200000x1_0 sg)
    (concatenate S200000x65 1 [⟨S200000x64, ft⟩, ⟨S200000x1, broadcastInDim S200000x1 ![] bcast_S_S200000x1 (constant S_ .f32 0x3F800000#32)⟩]
      concatenates_S200000x64_S200000x1_S200000x65_d1)

theorem sums65_eq (x : FVec Ideal S2x100000x3 .f32) (w : FVec Ideal S3x64 .f32) (b : FVec Ideal S64 .f32) :
    sums65 (F := Ideal) x w b = sums65Of (segOf (F := Ideal) x) (featsOf (F := Ideal) x w b) := rfl

set_option maxHeartbeats 2000000 in
/-- Stretch 12: the second cloud's feature sums. -/
theorem st12a : (after hostOps0_12 W (Proc.devRef .tc main_v85) : S524288x64.Idx → EReal)
    = extractStridedSlice S524288x64 ![0, 0] (sums65Of (W (Proc.devRef .tc main_v73)) (W (Proc.devRef .tc main_v79))) slices_S524288x65_S524288x64_0_0 := by
  simp only [hostOps0_12]
  after_results
  rfl

set_option maxHeartbeats 2000000 in
/-- Stretch 12: the second cloud's point counts, as a column. -/
theorem st12b : (after hostOps0_12 W (Proc.devRef .tc main_v98) : S524288x1.Idx → EReal)
    = broadcastInDim S524288x1 ![0] bcast_S524288_S524288x1_0
        (shapeCast _ (extractStridedSlice S524288x1 ![0, 64] (sums65Of (W (Proc.devRef .tc main_v73)) (W (Proc.devRef .tc main_v79))) slices_S524288x65_S524288x1_0_64) shapeCasts_S524288x1_S524288) := by
  simp only [hostOps0_12]
  after_results
  rfl

variable (m : (ℓ : Loc nD τ sig) → Buf (Elt Ideal) ℓ)

/-- The contents after the first six stretches. -/
abbrev W5 (c : Dev nD) : Valuation τ sig (Elt Ideal) :=
  after (hostOps0 ++ hostOps0_1 ++ hostOps0_2 ++ hostOps0_3 ++ hostOps0_4 ++ hostOps0_5) (fun b => m (c, b))

/-- The host operations before the region, cut at stretch boundaries. -/
theorem V0_cut (c : Dev nD) : V0 (F := Ideal) m c
    = after hostOps0_12 (after (hostOps0_10 ++ hostOps0_11) (after (hostOps0_8 ++ hostOps0_9) (after (hostOps0_6 ++ hostOps0_7) (W5 m c)))) := by
  dsimp only [V0, W5]
  simp only [← Cert.LibAfter.after_append]
  simp only [List.flatten_cons, List.flatten_nil, List.append_nil, List.append_assoc]

set_option maxHeartbeats 2000000 in
/-- The first six stretches write no argument array. -/
theorem W5_arg1 (c : Dev nD) : W5 m c (Proc.devRef .tc main_arg1) = m ((c : Thread nD τ).loc main_arg1) :=
  kept_of _ _ main_arg1 (by
      simp only [hostOps0, hostOps0_1, hostOps0_2, hostOps0_3, hostOps0_4, hostOps0_5, hostOps0_6, hostOps0_7, hostOps0_8, hostOps0_9, hostOps0_10, hostOps0_11, List.append_assoc, List.cons_append, List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))
set_option maxHeartbeats 2000000 in
theorem W5_arg2 (c : Dev nD) : W5 m c (Proc.devRef .tc main_arg2) = m ((c : Thread nD τ).loc main_arg2) :=
  kept_of _ _ main_arg2 (by
      simp only [hostOps0, hostOps0_1, hostOps0_2, hostOps0_3, hostOps0_4, hostOps0_5, hostOps0_6, hostOps0_7, hostOps0_8, hostOps0_9, hostOps0_10, hostOps0_11, List.append_assoc, List.cons_append, List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))
set_option maxHeartbeats 2000000 in
theorem W5_arg3 (c : Dev nD) : W5 m c (Proc.devRef .tc main_arg3) = m ((c : Thread nD τ).loc main_arg3) :=
  kept_of _ _ main_arg3 (by
      simp only [hostOps0, hostOps0_1, hostOps0_2, hostOps0_3, hostOps0_4, hostOps0_5, hostOps0_6, hostOps0_7, hostOps0_8, hostOps0_9, hostOps0_10, hostOps0_11, List.append_assoc, List.cons_append, List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))

/-- Stretches 6–7 and 8–9 write no argument array, and stretch 9 does not write the integer first coordinate. -/
theorem k67 (b : Ref sig .tc) (hb : (hostOps0_6 ++ hostOps0_7 : List (HloOp τ sig (Elt Ideal))).Forall fun op => Proc.devRef .tc b ∉ op.writes) :
    after (hostOps0_6 ++ hostOps0_7) W (Proc.devRef .tc b) = W (Proc.devRef .tc b) := kept_of _ _ b hb
theorem k89 (b : Ref sig .tc) (hb : (hostOps0_8 ++ hostOps0_9 : List (HloOp τ sig (Elt Ideal))).Forall fun op => Proc.devRef .tc b ∉ op.writes) :
    after (hostOps0_8 ++ hostOps0_9) W (Proc.devRef .tc b) = W (Proc.devRef .tc b) := kept_of _ _ b hb

set_option maxHeartbeats 4000000 in
/-- Before the last stretch the second cloud's voxel ids are in place. -/
theorem pre12_seg (c : Dev nD) :
    (after (hostOps0_10 ++ hostOps0_11) (after (hostOps0_8 ++ hostOps0_9) (after (hostOps0_6 ++ hostOps0_7) (W5 m c))) (Proc.devRef .tc main_v73) : S200000.Idx → BitVec 32)
      = segOf (F := Ideal) (m ((c : Thread nD τ).loc main_arg1)) := by
  rw [st1011a, st89a, st89b, st67]
  rw [k67 _ main_arg1 (by
      simp only [hostOps0, hostOps0_1, hostOps0_2, hostOps0_3, hostOps0_4, hostOps0_5, hostOps0_6, hostOps0_7, hostOps0_8, hostOps0_9, hostOps0_10, hostOps0_11, List.append_assoc, List.cons_append, List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))]
  rw [W5_arg1, segOf_eq]

set_option maxHeartbeats 4000000 in
/-- Before the last stretch the second cloud's features are in place. -/
theorem pre12_feats (c : Dev nD) :
    (after (hostOps0_10 ++ hostOps0_11) (after (hostOps0_8 ++ hostOps0_9) (after (hostOps0_6 ++ hostOps0_7) (W5 m c))) (Proc.devRef .tc main_v79) : S200000x64.Idx → EReal)
      = featsOf (F := Ideal) (m ((c : Thread nD τ).loc main_arg1)) (m ((c : Thread nD τ).loc main_arg2)) (m ((c : Thread nD τ).loc main_arg3)) := by
  rw [st1011b]
  rw [k89 _ main_arg1 (by
      simp only [hostOps0, hostOps0_1, hostOps0_2, hostOps0_3, hostOps0_4, hostOps0_5, hostOps0_6, hostOps0_7, hostOps0_8, hostOps0_9, hostOps0_10, hostOps0_11, List.append_assoc, List.cons_append, List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide)), k89 _ main_arg2 (by
      simp only [hostOps0, hostOps0_1, hostOps0_2, hostOps0_3, hostOps0_4, hostOps0_5, hostOps0_6, hostOps0_7, hostOps0_8, hostOps0_9, hostOps0_10, hostOps0_11, List.append_assoc, List.cons_append, List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide)), k89 _ main_arg3 (by
      simp only [hostOps0, hostOps0_1, hostOps0_2, hostOps0_3, hostOps0_4, hostOps0_5, hostOps0_6, hostOps0_7, hostOps0_8, hostOps0_9, hostOps0_10, hostOps0_11, List.append_assoc, List.cons_append, List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))]
  rw [k67 _ main_arg1 (by
      simp only [hostOps0, hostOps0_1, hostOps0_2, hostOps0_3, hostOps0_4, hostOps0_5, hostOps0_6, hostOps0_7, hostOps0_8, hostOps0_9, hostOps0_10, hostOps0_11, List.append_assoc, List.cons_append, List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide)), k67 _ main_arg2 (by
      simp only [hostOps0, hostOps0_1, hostOps0_2, hostOps0_3, hostOps0_4, hostOps0_5, hostOps0_6, hostOps0_7, hostOps0_8, hostOps0_9, hostOps0_10, hostOps0_11, List.append_assoc, List.cons_append, List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide)), k67 _ main_arg3 (by
      simp only [hostOps0, hostOps0_1, hostOps0_2, hostOps0_3, hostOps0_4, hostOps0_5, hostOps0_6, hostOps0_7, hostOps0_8, hostOps0_9, hostOps0_10, hostOps0_11, List.append_assoc, List.cons_append, List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))]
  rw [W5_arg1, W5_arg2, W5_arg3]

/-- Window 1's array is the per-voxel feature sums of the second cloud. -/
theorem V_v85 (c : Dev nD) : (V m c main_v85 : S524288x64.Idx → EReal)
    = sumsOf (F := Ideal) (m ((c : Thread nD τ).loc main_arg1)) (m ((c : Thread nD τ).loc main_arg2)) (m ((c : Thread nD τ).loc main_arg3)) := by
  show V0 m c (Proc.devRef .tc main_v85) = _
  rw [V0_cut, st12a, pre12_seg, pre12_feats]
  rfl

/-- Window 3's array is the per-voxel point counts of the second cloud, as a column. -/
theorem V_v98 (c : Dev nD) : (V m c main_v98 : S524288x1.Idx → EReal)
    = countsOf (F := Ideal) (m ((c : Thread nD τ).loc main_arg1)) (m ((c : Thread nD τ).loc main_arg2)) (m ((c : Thread nD τ).loc main_arg3)) := by
  show V0 m c (Proc.devRef .tc main_v98) = _
  rw [V0_cut, st12b, pre12_seg, pre12_feats]
  rfl

end Cert.KernelIdeal.HostVal

end
-- ==== Proof.KStage1.lean ====
/- The first cloud's voxel ids, features, feature sums and point counts, read off the host operations stage by stage, as for
   the second cloud: the straight line of host operations is cut at the boundaries of its stretches and each cut is read
   from any starting contents. The first cloud's sums are complete after the seventh stretch; the later stretches write
   other buffers, and the last lays the count column. -/
import proofs.«171866_g16836271800623_cont_week2b_1426_95_alg».proof.Proof.KStage

set_option maxRecDepth 16384

noncomputable section

namespace Cert.KernelIdeal.HostVal

open Cert.KernelIdeal Cert.KernelIdeal.Gen Cert.KernelIdeal.Hand
open Idealize.ShloMosaic Idealize.ShloMosaic.TcCoe Idealize.SL.Sem Idealize.ShloMosaic.StableHlo

variable (W : Valuation τ sig (Elt Ideal))

set_option maxHeartbeats 2000000 in
/-- Stretches 0–1: the clipped first cell coordinate of the first cloud. -/
theorem st01 : (after (hostOps0 ++ hostOps0_1) W (Proc.devRef .tc main_v7) : S2x100000.Idx → EReal)
    = clip511 (cell0 (F := Ideal) (W (Proc.devRef .tc main_arg0))) := by
  simp only [hostOps0, hostOps0_1, List.cons_append, List.nil_append]
  after_results
  rfl

set_option maxHeartbeats 2000000 in
/-- Stretches 2–3: the first cell coordinate as an integer. -/
theorem st23a : (after (hostOps0_2 ++ hostOps0_3) W (Proc.devRef .tc main_v8) : S2x100000.Idx → BitVec 32)
    = fptosi (F := Ideal) (s := S2x100000) (φ := .f32) 32 (W (Proc.devRef .tc main_v7)) := by
  simp only [hostOps0_2, hostOps0_3, List.cons_append, List.nil_append]
  after_results

set_option maxHeartbeats 2000000 in
/-- Stretches 2–3: the clipped second cell coordinate of the first cloud. -/
theorem st23b : (after (hostOps0_2 ++ hostOps0_3) W (Proc.devRef .tc main_v16) : S2x100000.Idx → EReal)
    = clip511 (cell1 (F := Ideal) (W (Proc.devRef .tc main_arg0))) := by
  simp only [hostOps0_2, hostOps0_3, List.cons_append, List.nil_append]
  after_results
  rfl

set_option maxHeartbeats 2000000 in
/-- Stretches 4–5: the voxel ids of the first cloud. -/
theorem st45a : (after (hostOps0_4 ++ hostOps0_5) W (Proc.devRef .tc main_v29) : S200000.Idx → BitVec 32)
    = segAsm (W (Proc.devRef .tc main_v8)) (W (Proc.devRef .tc main_v16)) := by
  simp only [hostOps0_4, hostOps0_5, List.cons_append, List.nil_append]
  after_results
  rfl

set_option maxHeartbeats 2000000 in
/-- Stretches 4–5: the features of the first cloud. -/
theorem st45b : (after (hostOps0_4 ++ hostOps0_5) W (Proc.devRef .tc main_v35) : S200000x64.Idx → EReal)
    = featsOf (F := Ideal) (W (Proc.devRef .tc main_arg0)) (W (Proc.devRef .tc main_arg2)) (W (Proc.devRef .tc main_arg3)) := by
  simp only [hostOps0_4, hostOps0_5, List.cons_append, List.nil_append]
  after_results
  rfl

set_option maxHeartbeats 2000000 in
/-- Stretch 6: the first cloud's feature sums. -/
theorem st6a : (after hostOps0_6 W (Proc.devRef .tc main_v41) : S524288x64.Idx → EReal)
    = extractStridedSlice S524288x64 ![0, 0] (sums65Of (W (Proc.devRef .tc main_v29)) (W (Proc.devRef .tc main_v35))) slices_S524288x65_S524288x64_0_0 := by
  simp only [hostOps0_6]
  after_results
  rfl

set_option maxHeartbeats 2000000 in
/-- Stretch 6: the first cloud's point counts, as a vector. -/
theorem st6b : (after hostOps0_6 W (Proc.devRef .tc main_v43) : S524288.Idx → EReal)
    = shapeCast _ (extractStridedSlice S524288x1 ![0, 64] (sums65Of (W (Proc.devRef .tc main_v29)) (W (Proc.devRef .tc main_v35))) slices_S524288x65_S524288x1_0_64) shapeCasts_S524288x1_S524288 := by
  simp only [hostOps0_6]
  after_results
  rfl

set_option maxHeartbeats 2000000 in
/-- Stretch 12: the first cloud's point counts laid as a column. -/
theorem st12c : (after hostOps0_12 W (Proc.devRef .tc main_v97) : S524288x1.Idx → EReal)
    = broadcastInDim S524288x1 ![0] bcast_S524288_S524288x1_0 (W (Proc.devRef .tc main_v43) : FVec Ideal S524288 .f32) := by
  simp only [hostOps0_12]
  after_results

variable (m : (ℓ : Loc nD τ sig) → Buf (Elt Ideal) ℓ)

/-- The host operations before the region, cut at stretch boundaries (another cut of the same line). -/
theorem V0_cut1 (c : Dev nD) : V0 (F := Ideal) m c
    = after hostOps0_12 (after (hostOps0_7 ++ hostOps0_8 ++ hostOps0_9 ++ hostOps0_10 ++ hostOps0_11) (after hostOps0_6 (after (hostOps0_4 ++ hostOps0_5)
        (after (hostOps0_2 ++ hostOps0_3) (after (hostOps0 ++ hostOps0_1) (fun b => m (c, b))))))) := by
  dsimp only [V0]
  simp only [← Cert.LibAfter.after_append]
  simp only [List.flatten_cons, List.flatten_nil, List.append_nil, List.append_assoc]

set_option maxHeartbeats 4000000 in
/-- After the seventh stretch the first cloud's voxel ids are in place. -/
theorem pre6_seg (c : Dev nD) :
    (after (hostOps0_4 ++ hostOps0_5) (after (hostOps0_2 ++ hostOps0_3) (after (hostOps0 ++ hostOps0_1) (fun b => m (c, b)))) (Proc.devRef .tc main_v29) : S200000.Idx → BitVec 32)
      = segOf (F := Ideal) (m ((c : Thread nD τ).loc main_arg0)) := by
  rw [st45a, st23a, st23b, st01]
  rw [kept_of (hostOps0 ++ hostOps0_1) _ main_arg0 (by
      simp only [hostOps0, hostOps0_1, hostOps0_2, hostOps0_3, hostOps0_4, hostOps0_5, hostOps0_6, hostOps0_7, hostOps0_8, hostOps0_9, hostOps0_10, hostOps0_11, hostOps0_12, List.append_assoc, List.cons_append, List.nil_append, List.Forall, StableHlo.nullary_writes, StableHlo.unary_writes, StableHlo.binary_writes, StableHlo.ternary_writes, StableHlo.reshape_writes, StableHlo.unaryIndexed_writes, Finset.mem_singleton]
      repeat' apply And.intro
      all_goals exact StableHlo.devRef_ne_of_ne (by decide))]
  rw [segOf_eq]

set_option maxHeartbeats 4000000 in
/-- After the seventh stretch the first cloud's features are in place. -/
theorem pre6_feats (c : Dev nD) :
    (after (hostOps0_4 ++ hostOps0_5) (after (hostOps0_2 ++ hostOps0_3) (after (hostOps0 ++ hostOps0_1) (fun b => m (c, b)))) (Proc.devRef .tc main_v35) : S200000x64.Idx → EReal)
      = featsOf (F := Ideal) (m ((c : Thread nD τ).loc main_arg0)) (m ((c : Thread nD τ).loc main_arg2)) (m ((c : Thread nD τ).loc main_arg3)) := by
  rw [st45b]
  rw [kept_of (hostOps0_2 ++ hostOps0_3) _ main_arg0 (by
      simp only [hostOps0, hostOps0_1, hostOps0_2, hostOps0_3, hostOps0_4, hostOps0_5, hostOps0_6, hostOps0_7, hostOps0_8, hostOps0_9, hostOps0_10, hostOps0_11, hostOps0_12, List.append_assoc, List.cons_append, List.nil_append, List.Forall, StableHlo.nullary_writes, StableHlo.unary_writes, StableHlo.binary_writes, StableHlo.ternary_writes, StableHlo.reshape_writes, StableHlo.unaryIndexed_writes, Finset.mem_singleton]
      repeat' apply And.intro
      all_goals exact StableHlo.devRef_ne_of_ne (by decide)), kept_of (hostOps0_2 ++ hostOps0_3) _ main_arg2 (by
      simp only [hostOps0, hostOps0_1, hostOps0_2, hostOps0_3, hostOps0_4, hostOps0_5, hostOps0_6, hostOps0_7, hostOps0_8, hostOps0_9, hostOps0_10, hostOps0_11, hostOps0_12, List.append_assoc, List.cons_append, List.nil_append, List.Forall, StableHlo.nullary_writes, StableHlo.unary_writes, StableHlo.binary_writes, StableHlo.ternary_writes, StableHlo.reshape_writes, StableHlo.unaryIndexed_writes, Finset.mem_singleton]
      repeat' apply And.intro
      all_goals exact StableHlo.devRef_ne_of_ne (by decide)), kept_of (hostOps0_2 ++ hostOps0_3) _ main_arg3 (by
      simp only [hostOps0, hostOps0_1, hostOps0_2, hostOps0_3, hostOps0_4, hostOps0_5, hostOps0_6, hostOps0_7, hostOps0_8, hostOps0_9, hostOps0_10, hostOps0_11, hostOps0_12, List.append_assoc, List.cons_append, List.nil_append, List.Forall, StableHlo.nullary_writes, StableHlo.unary_writes, StableHlo.binary_writes, StableHlo.ternary_writes, StableHlo.reshape_writes, StableHlo.unaryIndexed_writes, Finset.mem_singleton]
      repeat' apply And.intro
      all_goals exact StableHlo.devRef_ne_of_ne (by decide))]
  rw [kept_of (hostOps0 ++ hostOps0_1) _ main_arg0 (by
      simp only [hostOps0, hostOps0_1, hostOps0_2, hostOps0_3, hostOps0_4, hostOps0_5, hostOps0_6, hostOps0_7, hostOps0_8, hostOps0_9, hostOps0_10, hostOps0_11, hostOps0_12, List.append_assoc, List.cons_append, List.nil_append, List.Forall, StableHlo.nullary_writes, StableHlo.unary_writes, StableHlo.binary_writes, StableHlo.ternary_writes, StableHlo.reshape_writes, StableHlo.unaryIndexed_writes, Finset.mem_singleton]
      repeat' apply And.intro
      all_goals exact StableHlo.devRef_ne_of_ne (by decide)), kept_of (hostOps0 ++ hostOps0_1) _ main_arg2 (by
      simp only [hostOps0, hostOps0_1, hostOps0_2, hostOps0_3, hostOps0_4, hostOps0_5, hostOps0_6, hostOps0_7, hostOps0_8, hostOps0_9, hostOps0_10, hostOps0_11, hostOps0_12, List.append_assoc, List.cons_append, List.nil_append, List.Forall, StableHlo.nullary_writes, StableHlo.unary_writes, StableHlo.binary_writes, StableHlo.ternary_writes, StableHlo.reshape_writes, StableHlo.unaryIndexed_writes, Finset.mem_singleton]
      repeat' apply And.intro
      all_goals exact StableHlo.devRef_ne_of_ne (by decide)), kept_of (hostOps0 ++ hostOps0_1) _ main_arg3 (by
      simp only [hostOps0, hostOps0_1, hostOps0_2, hostOps0_3, hostOps0_4, hostOps0_5, hostOps0_6, hostOps0_7, hostOps0_8, hostOps0_9, hostOps0_10, hostOps0_11, hostOps0_12, List.append_assoc, List.cons_append, List.nil_append, List.Forall, StableHlo.nullary_writes, StableHlo.unary_writes, StableHlo.binary_writes, StableHlo.ternary_writes, StableHlo.reshape_writes, StableHlo.unaryIndexed_writes, Finset.mem_singleton]
      repeat' apply And.intro
      all_goals exact StableHlo.devRef_ne_of_ne (by decide))]

set_option maxHeartbeats 4000000 in
/-- Window 0's array is the per-voxel feature sums of the first cloud. -/
theorem V_v41 (c : Dev nD) : (V m c main_v41 : S524288x64.Idx → EReal)
    = sumsOf (F := Ideal) (m ((c : Thread nD τ).loc main_arg0)) (m ((c : Thread nD τ).loc main_arg2)) (m ((c : Thread nD τ).loc main_arg3)) := by
  show V0 m c (Proc.devRef .tc main_v41) = _
  rw [V0_cut1]
  rw [kept_of hostOps0_12 _ main_v41 (by
      simp only [hostOps0, hostOps0_1, hostOps0_2, hostOps0_3, hostOps0_4, hostOps0_5, hostOps0_6, hostOps0_7, hostOps0_8, hostOps0_9, hostOps0_10, hostOps0_11, hostOps0_12, List.append_assoc, List.cons_append, List.nil_append, List.Forall, StableHlo.nullary_writes, StableHlo.unary_writes, StableHlo.binary_writes, StableHlo.ternary_writes, StableHlo.reshape_writes, StableHlo.unaryIndexed_writes, Finset.mem_singleton]
      repeat' apply And.intro
      all_goals exact StableHlo.devRef_ne_of_ne (by decide))]
  rw [kept_of (hostOps0_7 ++ hostOps0_8 ++ hostOps0_9 ++ hostOps0_10 ++ hostOps0_11) _ main_v41 (by
      simp only [hostOps0, hostOps0_1, hostOps0_2, hostOps0_3, hostOps0_4, hostOps0_5, hostOps0_6, hostOps0_7, hostOps0_8, hostOps0_9, hostOps0_10, hostOps0_11, hostOps0_12, List.append_assoc, List.cons_append, List.nil_append, List.Forall, StableHlo.nullary_writes, StableHlo.unary_writes, StableHlo.binary_writes, StableHlo.ternary_writes, StableHlo.reshape_writes, StableHlo.unaryIndexed_writes, Finset.mem_singleton]
      repeat' apply And.intro
      all_goals exact StableHlo.devRef_ne_of_ne (by decide))]
  rw [st6a, pre6_seg, pre6_feats]
  rfl

set_option maxHeartbeats 4000000 in
/-- Window 2's array is the per-voxel point counts of the first cloud, as a column. -/
theorem V_v97 (c : Dev nD) : (V m c main_v97 : S524288x1.Idx → EReal)
    = countsOf (F := Ideal) (m ((c : Thread nD τ).loc main_arg0)) (m ((c : Thread nD τ).loc main_arg2)) (m ((c : Thread nD τ).loc main_arg3)) := by
  show V0 m c (Proc.devRef .tc main_v97) = _
  rw [V0_cut1, st12c]
  rw [kept_of (hostOps0_7 ++ hostOps0_8 ++ hostOps0_9 ++ hostOps0_10 ++ hostOps0_11) _ main_v43 (by
      simp only [hostOps0, hostOps0_1, hostOps0_2, hostOps0_3, hostOps0_4, hostOps0_5, hostOps0_6, hostOps0_7, hostOps0_8, hostOps0_9, hostOps0_10, hostOps0_11, hostOps0_12, List.append_assoc, List.cons_append, List.nil_append, List.Forall, StableHlo.nullary_writes, StableHlo.unary_writes, StableHlo.binary_writes, StableHlo.ternary_writes, StableHlo.reshape_writes, StableHlo.unaryIndexed_writes, Finset.mem_singleton]
      repeat' apply And.intro
      all_goals exact StableHlo.devRef_ne_of_ne (by decide))]
  rw [st6b, pre6_seg, pre6_feats]
  rfl

end Cert.KernelIdeal.HostVal

end
-- ==== Proof.KHostE.lean ====
/- The fifth array the region's windows stage: the time row, laid as [1, 64]. The host normalises the time index (a negative
   word counts from the end), reads the row it names from the time table by a slice whose start is clamped into the table,
   adds the bias, and lays the 64 numbers as one row. Only the last stretch of host operations takes part, and it reads
   three argument arrays that no host operation writes. -/
import proofs.«171866_g16836271800623_cont_week2b_1426_95_alg».proof.Proof.KIFrame
import proofs.«171866_g16836271800623_cont_week2b_1426_95_alg».proof.Proof.KHostDefs
import proofs.«171866_g16836271800623_cont_week2b_1426_95_alg».proof.Proof.LibAfter
import Idealize.ShloMosaic.Lib.StableHlo.Run

set_option maxRecDepth 16384

noncomputable section

namespace Cert.KernelIdeal.HostVal

open Cert.KernelIdeal Cert.KernelIdeal.Gen Cert.KernelIdeal.Hand
open Idealize.ShloMosaic Idealize.ShloMosaic.TcCoe Idealize.SL.Sem Idealize.ShloMosaic.StableHlo

variable (m : (ℓ : Loc nD τ sig) → Buf (Elt Ideal) ℓ)

/-- The host operations before the region: the last stretch after all the earlier ones. -/
theorem V0_split (c : Dev nD) : V0 (F := Ideal) m c = after hostOps0_12 (after (hostOps0 ++ hostOps0_1 ++ hostOps0_2 ++ hostOps0_3 ++ hostOps0_4 ++ hostOps0_5 ++ hostOps0_6 ++ hostOps0_7 ++ hostOps0_8 ++ hostOps0_9 ++ hostOps0_10 ++ hostOps0_11) (fun b => m (c, b))) := by
  dsimp only [V0]
  rw [← Cert.LibAfter.after_append]
  simp only [List.flatten_cons, List.flatten_nil, List.append_nil, List.append_assoc]

set_option maxHeartbeats 2000000 in
/-- The last stretch, from any contents `W`: the time row of `W`'s time table, bias and index, laid as one row. -/
theorem last_stretch (W : Valuation τ sig (Elt Ideal)) : (after hostOps0_12 W (Proc.devRef .tc main_v99) : S1x64.Idx → EReal)
    = broadcastInDim S1x64 ![1] bcast_S64_S1x64_1 (timeRow (F := Ideal) (W (Proc.devRef .tc main_arg4)) (W (Proc.devRef .tc main_arg5)) (W (Proc.devRef .tc main_arg6))) := by
  simp only [hostOps0_12]
  after_results
  unfold timeRow
  refine congrArg (fun z : S64.Idx → EReal => broadcastInDim S1x64 ![1] bcast_S64_S1x64_1 z) ?_
  refine congrArg (fun z : FVec Ideal S64 .f32 => addf z (W (Proc.devRef .tc main_arg5))) ?_
  show shapeCast _ (Host.dynamicSlice S1x64 _ _ _) _ = shapeCast _ (Host.dynamicSlice S1x64 _ _ _) _
  refine congrArg (fun st : Fin S4x64.rank → Int => shapeCast _ (Host.dynamicSlice S1x64 (W (Proc.devRef .tc main_arg4)) st sliceFits_S4x64_S1x64) shapeCasts_S1x64_S64) ?_
  funext k
  fin_cases k
  · simp only [Fin.zero_eta, Fin.isValue, Matrix.cons_val_zero, cast_eq]
    repeat (first
      | rw [nullary_result] | rw [unary_result] | rw [binary_result] | rw [ternary_result] | rw [reshape_result]
      | (rw [nullary_result_ne]; rotate_left; decide) | (rw [unary_result_ne]; rotate_left; decide)
      | (rw [binary_result_ne]; rotate_left; decide) | (rw [ternary_result_ne]; rotate_left; decide)
      | (rw [reshape_result_ne]; rotate_left; decide))
    rfl
  · simp only [Fin.mk_one, Fin.isValue, Matrix.cons_val_one, Matrix.cons_val_zero, Matrix.head_cons, cast_eq]
    repeat (first
      | rw [nullary_result] | rw [unary_result] | rw [binary_result] | rw [ternary_result] | rw [reshape_result]
      | (rw [nullary_result_ne]; rotate_left; decide) | (rw [unary_result_ne]; rotate_left; decide)
      | (rw [binary_result_ne]; rotate_left; decide) | (rw [ternary_result_ne]; rotate_left; decide)
      | (rw [reshape_result_ne]; rotate_left; decide))
    rfl

/-- No earlier host operation writes an argument array: before the last stretch it is as launched. -/
theorem kept (c : Dev nD) (b : Ref sig .tc)
    (hb : (hostOps0 ++ hostOps0_1 ++ hostOps0_2 ++ hostOps0_3 ++ hostOps0_4 ++ hostOps0_5 ++ hostOps0_6 ++ hostOps0_7 ++ hostOps0_8 ++ hostOps0_9 ++ hostOps0_10 ++ hostOps0_11 : List (HloOp τ sig (Elt Ideal))).Forall fun op => Proc.devRef .tc b ∉ op.writes) :
    after (hostOps0 ++ hostOps0_1 ++ hostOps0_2 ++ hostOps0_3 ++ hostOps0_4 ++ hostOps0_5 ++ hostOps0_6 ++ hostOps0_7 ++ hostOps0_8 ++ hostOps0_9 ++ hostOps0_10 ++ hostOps0_11) (fun b => m (c, b)) (Proc.devRef .tc b)
      = m ((c : Thread nD τ).loc b) :=
  StableHlo.after_of_forall_not_mem (b := Proc.devRef .tc b) _ _ (List.forall_iff_forall_mem.mp hb)

set_option maxHeartbeats 2000000 in
/-- Window 4's array: the time row of the argument arrays, laid as one row. -/
theorem V_v99 (c : Dev nD) : (V m c main_v99 : S1x64.Idx → EReal)
    = broadcastInDim S1x64 ![1] bcast_S64_S1x64_1 (timeRow (F := Ideal) (m ((c : Thread nD τ).loc main_arg4)) (m ((c : Thread nD τ).loc main_arg5)) (m ((c : Thread nD τ).loc main_arg6))) := by
  show V0 m c (Proc.devRef .tc main_v99) = _
  rw [V0_split, last_stretch]
  rw [kept m c main_arg4 (by
      simp only [hostOps0, hostOps0_1, hostOps0_2, hostOps0_3, hostOps0_4, hostOps0_5, hostOps0_6, hostOps0_7, hostOps0_8, hostOps0_9, hostOps0_10, hostOps0_11, List.append_assoc, List.cons_append, List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide)),
    kept m c main_arg5 (by
      simp only [hostOps0, hostOps0_1, hostOps0_2, hostOps0_3, hostOps0_4, hostOps0_5, hostOps0_6, hostOps0_7, hostOps0_8, hostOps0_9, hostOps0_10, hostOps0_11, List.append_assoc, List.cons_append, List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide)),
    kept m c main_arg6 (by
      simp only [hostOps0, hostOps0_1, hostOps0_2, hostOps0_3, hostOps0_4, hostOps0_5, hostOps0_6, hostOps0_7, hostOps0_8, hostOps0_9, hostOps0_10, hostOps0_11, List.append_assoc, List.cons_append, List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))]

end Cert.KernelIdeal.HostVal

end
-- ==== Proof.LibEdgeIndex.lean ====
/-
  EDGE INDEXING: which operand element a gather along an edge list reads, and which operand element a scatter along an
  edge list lands on, for the three sets of dimension numbers that "table[edge]" (a row of a table, or an entry of a
  vector, per edge) and "sum per-edge values into nodes" lower to.

  Setting. A graph has N nodes and E edges; an edge list is an integer array of shape [E, 1] whose word at (e, 0) names
  a node. Write k(e) for that word read as a SIGNED integer.

  * Gather of rows. For a table of shape [N, C] and dimension numbers offset_dims = [1], collapsed_slice_dims = [0],
    start_index_map = [0], index_vector_dim = 1, slice_sizes = [1, C] and no batching axes, the result has shape [E, C]
    and its element (e, f) is the table's element (clamp k(e), f), where clamp k = min (max k 0) (N - 1): on the
    collapsed axis 0 the operand coordinate is the start index, clamped so that the slice of size 1 fits, and on axis 1
    the start is 0 and the coordinate is the result's offset coordinate f (`gather_rows_operandIdx`,
    `gather_rows_apply`).
  * Gather of entries. For a vector of shape [N] and dimension numbers offset_dims = [], collapsed_slice_dims = [0],
    start_index_map = [0], index_vector_dim = 1, slice_sizes = [1], the result has shape [E] and its element e is the
    vector's element clamp k(e) (`gather_entries_operandIdx`, `gather_entries_apply`).
  * Scatter into entries. For an operand of shape [N], updates of shape [E] and dimension numbers
    update_window_dims = [], inserted_window_dims = [0], scatter_dims_to_operand_dims = [0], index_vector_dim = 1,
    update e has start k(e) on axis 0 (NOT clamped) and window coordinate 0 (`scatter_entries_start`,
    `scatter_entries_window`); so it lands on operand element k(e) when 0 ≤ k(e) < N
    (`scatter_entries_resultIdx`) and is dropped otherwise (`scatter_entries_resultIdx_none`).

  The natural number (k).toNat is max k 0, so min (k).toNat (N - 1) is the clamp above.

  Every statement is about an ARBITRARY record of dimension numbers whose fields are given by equations; for a record
  written with literal fields each equation holds by `rfl`. The proofs replace the record by the literal one (the
  equations are substituted), evaluate the list lookups of the index functions on it, and identify the start-indices
  index "the result's batch coordinates with component 0 on the index vector's axis" with (e, 0) axis by axis.
-/
import Idealize.ShloMosaic.Lib.ValueIdx

open Idealize.ShloMosaic Idealize.ShloMosaic.ValueIdx

namespace Cert.LibEdgeIndex

/-! ## Scatter into the entries of a vector -/

section ScatterEntries
variable {N E w : Nat}

/-- The start on axis 0 of update `e` is the edge word `idx[e, 0]` read signed (no clamping), and its window
    coordinate there is 0 (axis 0 is an inserted window axis, so no update axis is a window axis of it). -/
theorem scatter_entries_start_window (d : ScatterDims ⟨1, ![N]⟩ ⟨2, ![E, 1]⟩ ⟨1, ![E]⟩)
    (h1 : d.updateWindowDims = []) (h2 : d.insertedWindowDims = [0])
    (h3 : d.scatterDimsToOperandDims = [0]) (h4 : d.indexVectorDim = 1)
    (idx : IVec ⟨2, ![E, 1]⟩ w) (e : Fin E) :
    d.start (ix1 e) idx 0 = (idx (ix2 e 0)).toInt ∧ d.window (ix1 e) 0 = 0 := by
  obtain ⟨uw, iw, sd, iv, wf⟩ := d
  simp only at h1 h2 h3 h4
  subst h1 h2 h3 h4
  generalize hd : (⟨[], [0], [0], 1, wf⟩ : ScatterDims ⟨1, ![N]⟩ ⟨2, ![E, 1]⟩ ⟨1, ![E]⟩) = d
  -- axis 0 is named by the scatter-dims-to-operand-dims map, at position 0
  have hmem : (0 : Fin 1) ∈ d.scatterDimsToOperandDims := by subst hd; exact List.mem_singleton.mpr rfl
  -- the scatter-indices index read for that component is (e, 0)
  have hsi : d.siIdx (ix1 e) ⟨List.idxOf (0 : Fin 1) d.scatterDimsToOperandDims,
      List.idxOf_lt_length_iff.2 hmem⟩ = ix2 e 0 := by
    subst hd
    funext b; refine Fin.ext ?_
    match b with
    | ⟨0, _⟩ => rfl
    | ⟨1, _⟩ => rfl
  refine ⟨?_, ?_⟩
  · unfold ScatterDims.start
    rw [dif_pos hmem, hsi]
  · -- the operand's kept axes are the axes of [N] outside [0]: none
    unfold ScatterDims.window
    rw [dif_neg]
    subst hd
    show (0 : Fin 1) ∉ (List.finRange 1).filter (· ∉ [0])
    decide

/-- The start on axis 0 of update `e`: the edge word read signed. -/
theorem scatter_entries_start (d : ScatterDims ⟨1, ![N]⟩ ⟨2, ![E, 1]⟩ ⟨1, ![E]⟩)
    (h1 : d.updateWindowDims = []) (h2 : d.insertedWindowDims = [0])
    (h3 : d.scatterDimsToOperandDims = [0]) (h4 : d.indexVectorDim = 1)
    (idx : IVec ⟨2, ![E, 1]⟩ w) (e : Fin E) :
    d.start (ix1 e) idx 0 = (idx (ix2 e 0)).toInt :=
  (scatter_entries_start_window d h1 h2 h3 h4 idx e).1

/-- The window coordinate on axis 0 of update `e`: zero. -/
theorem scatter_entries_window (d : ScatterDims ⟨1, ![N]⟩ ⟨2, ![E, 1]⟩ ⟨1, ![E]⟩)
    (h1 : d.updateWindowDims = []) (h2 : d.insertedWindowDims = [0])
    (h3 : d.scatterDimsToOperandDims = [0]) (h4 : d.indexVectorDim = 1)
    (idx : IVec ⟨2, ![E, 1]⟩ w) (e : Fin E) :
    d.window (ix1 e) 0 = 0 :=
  (scatter_entries_start_window d h1 h2 h3 h4 idx e).2

/-- AN EDGE WORD IN RANGE LANDS ON ITS NODE: when `0 ≤ idx[e, 0] < N` (read signed), update `e` lands on operand
    element `idx[e, 0]`. -/
theorem scatter_entries_resultIdx (d : ScatterDims ⟨1, ![N]⟩ ⟨2, ![E, 1]⟩ ⟨1, ![E]⟩)
    (h1 : d.updateWindowDims = []) (h2 : d.insertedWindowDims = [0])
    (h3 : d.scatterDimsToOperandDims = [0]) (h4 : d.indexVectorDim = 1)
    (idx : IVec ⟨2, ![E, 1]⟩ w) (e : Fin E)
    (hlo : 0 ≤ (idx (ix2 e 0)).toInt) (hhi : (idx (ix2 e 0)).toInt < N) :
    d.resultIdx? (ix1 e) idx = some (ix1 ⟨(idx (ix2 e 0)).toInt.toNat, by omega⟩) := by
  obtain ⟨hst, hwin⟩ := scatter_entries_start_window d h1 h2 h3 h4 idx e
  -- the landing index is inside the operand on its one axis
  have hcond : ∀ a, 0 ≤ d.start (ix1 e) idx a + d.window (ix1 e) a ∧
      d.start (ix1 e) idx a + d.window (ix1 e) a < (⟨1, ![N]⟩ : Shape).size a := by
    intro a
    obtain rfl : a = 0 := Subsingleton.elim _ _
    rw [hst, hwin]
    show 0 ≤ (idx (ix2 e 0)).toInt + ((0 : Nat) : Int) ∧ (idx (ix2 e 0)).toInt + ((0 : Nat) : Int) < (N : Int)
    omega
  unfold ScatterDims.resultIdx?
  rw [dif_pos hcond]
  congr 1
  funext a
  obtain rfl : a = 0 := Subsingleton.elim _ _
  refine Fin.ext ?_
  show (d.start (ix1 e) idx 0 + d.window (ix1 e) 0).toNat = (idx (ix2 e 0)).toInt.toNat
  rw [hst, hwin]
  simp

/-- AN EDGE WORD OUT OF RANGE IS DROPPED: when `idx[e, 0]` (read signed) is negative or at least `N`, update `e`
    lands nowhere. -/
theorem scatter_entries_resultIdx_none (d : ScatterDims ⟨1, ![N]⟩ ⟨2, ![E, 1]⟩ ⟨1, ![E]⟩)
    (h1 : d.updateWindowDims = []) (h2 : d.insertedWindowDims = [0])
    (h3 : d.scatterDimsToOperandDims = [0]) (h4 : d.indexVectorDim = 1)
    (idx : IVec ⟨2, ![E, 1]⟩ w) (e : Fin E)
    (hout : (idx (ix2 e 0)).toInt < 0 ∨ (N : Int) ≤ (idx (ix2 e 0)).toInt) :
    d.resultIdx? (ix1 e) idx = none := by
  obtain ⟨hst, hwin⟩ := scatter_entries_start_window d h1 h2 h3 h4 idx e
  unfold ScatterDims.resultIdx?
  rw [dif_neg]
  intro h
  have h0 := h 0
  rw [hst, hwin] at h0
  have h0' : 0 ≤ (idx (ix2 e 0)).toInt + ((0 : Nat) : Int) ∧ (idx (ix2 e 0)).toInt + ((0 : Nat) : Int) < (N : Int) := h0
  omega

end ScatterEntries

/-! ## Gather of the rows of a table -/

section GatherRows
variable {N E C w : Nat}

/-- THE ROW GATHER'S OPERAND INDEX: result element `(e, f)` reads the table at row `idx[e, 0]`, read signed and
    clamped into `[0, N − 1]`, and column `f`. -/
theorem gather_rows_operandIdx (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (idx : IVec ⟨2, ![E, 1]⟩ w) (e : Fin E) (f : Fin C) :
    d.operandIdx (ix2 e f) idx = ix2 ⟨min (idx (ix2 e 0)).toInt.toNat (N - 1), by omega⟩ f := by
  obtain ⟨od, cd, ob, sb, sm, iv, ss, wf⟩ := d
  simp only at h1 h2 h3 h4 h5 h6 h7
  subst h1 h2 h3 h4 h5 h6 h7
  generalize hd : (⟨[1], [0], [], [], [0], 1, ![1, C], wf⟩ : GatherDims ⟨2, ![N, C]⟩ ⟨2, ![E, 1]⟩ ⟨2, ![E, C]⟩) = d
  -- axis 0 is named by the start index map, at position 0
  have hmem : (0 : Fin 2) ∈ d.startIndexMap := by subst hd; exact List.mem_singleton.mpr rfl
  -- the start-indices index read for that component is (e, 0)
  have hsi : d.siIdx (ix2 e f) ⟨List.idxOf (0 : Fin 2) d.startIndexMap,
      List.idxOf_lt_length_iff.2 hmem⟩ = ix2 e 0 := by
    subst hd
    funext b; refine Fin.ext ?_
    match b with
    | ⟨0, _⟩ => rfl
    | ⟨1, _⟩ => rfl
  -- there is no batching axis
  have hob : ∀ a : Fin 2, a ∉ d.operandBatchingDims := by subst hd; exact fun _ => List.not_mem_nil
  -- axis 0: the start is the clamped edge word (size N, slice size 1); axis 1 is not in the start index map
  have hst0 : d.start (ix2 e f) idx 0 = min (idx (ix2 e 0)).toInt.toNat (N - 1) := by
    unfold GatherDims.start
    rw [dif_pos hmem, hsi]
    subst hd
    rfl
  have hst1 : d.start (ix2 e f) idx 1 = 0 := by
    unfold GatherDims.start
    rw [dif_neg]
    subst hd
    show (1 : Fin 2) ∉ [(0 : Fin 2)]
    decide
  -- axis 0 is collapsed: no offset; axis 1 is the one kept axis and reads the result's offset axis 1
  have hoff0 : d.offCoord (ix2 e f) 0 = 0 := by
    refine d.offCoord_eq_zero _ _ (fun h => ((d.mem_sKept _).mp h).1 ?_)
    subst hd
    exact List.mem_singleton.mpr rfl
  have hoff1 : d.offCoord (ix2 e f) 1 = f.val := by
    subst hd
    unfold GatherDims.offCoord
    rw [dif_pos]
    · rfl
    · show (1 : Fin 2) ∈ (List.finRange 2).filter (· ∉ [(0 : Fin 2)] ++ [])
      decide
  funext a
  refine Fin.ext ?_
  match a with
  | ⟨0, _⟩ =>
    show d.start (ix2 e f) idx 0 + d.batchCoord (ix2 e f) 0 + d.offCoord (ix2 e f) 0 = _
    rw [d.batchCoord_eq_zero _ _ (hob 0), hoff0, hst0]
    rfl
  | ⟨1, _⟩ =>
    show d.start (ix2 e f) idx 1 + d.batchCoord (ix2 e f) 1 + d.offCoord (ix2 e f) 1 = _
    rw [d.batchCoord_eq_zero _ _ (hob 1), hoff1, hst1]
    simp

/-- THE ROW GATHER READ AT `(e, f)`: the table at the clamped row and column `f`. -/
theorem gather_rows_apply {α : Type} (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ w) (e : Fin E) (f : Fin C) :
    Host.gather d x idx (ix2 e f) = x (ix2 ⟨min (idx (ix2 e 0)).toInt.toNat (N - 1), by omega⟩ f) := by
  unfold Host.gather
  rw [gather_rows_operandIdx hN d h1 h2 h3 h4 h5 h6 h7 idx e f]

end GatherRows

/-! ## Gather of the entries of a vector -/

section GatherEntries
variable {N E w : Nat}

/-- THE ENTRY GATHER'S OPERAND INDEX: result element `e` reads the vector at `idx[e, 0]`, read signed and clamped
    into `[0, N − 1]`. -/
theorem gather_entries_operandIdx (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (idx : IVec ⟨2, ![E, 1]⟩ w) (e : Fin E) :
    d.operandIdx (ix1 e) idx = ix1 ⟨min (idx (ix2 e 0)).toInt.toNat (N - 1), by omega⟩ := by
  obtain ⟨od, cd, ob, sb, sm, iv, ss, wf⟩ := d
  simp only at h1 h2 h3 h4 h5 h6 h7
  subst h1 h2 h3 h4 h5 h6 h7
  generalize hd : (⟨[], [0], [], [], [0], 1, ![1], wf⟩ : GatherDims ⟨1, ![N]⟩ ⟨2, ![E, 1]⟩ ⟨1, ![E]⟩) = d
  -- axis 0 is named by the start index map, at position 0
  have hmem : (0 : Fin 1) ∈ d.startIndexMap := by subst hd; exact List.mem_singleton.mpr rfl
  -- the start-indices index read for that component is (e, 0)
  have hsi : d.siIdx (ix1 e) ⟨List.idxOf (0 : Fin 1) d.startIndexMap,
      List.idxOf_lt_length_iff.2 hmem⟩ = ix2 e 0 := by
    subst hd
    funext b; refine Fin.ext ?_
    match b with
    | ⟨0, _⟩ => rfl
    | ⟨1, _⟩ => rfl
  -- no batching axis; the start is the clamped edge word (size N, slice size 1); axis 0 is collapsed: no offset
  have hob : (0 : Fin 1) ∉ d.operandBatchingDims := by subst hd; exact List.not_mem_nil
  have hst0 : d.start (ix1 e) idx 0 = min (idx (ix2 e 0)).toInt.toNat (N - 1) := by
    unfold GatherDims.start
    rw [dif_pos hmem, hsi]
    subst hd
    rfl
  have hoff0 : d.offCoord (ix1 e) 0 = 0 := by
    refine d.offCoord_eq_zero _ _ (fun h => ((d.mem_sKept _).mp h).1 ?_)
    subst hd
    exact List.mem_singleton.mpr rfl
  funext a
  obtain rfl : a = 0 := Subsingleton.elim _ _
  refine Fin.ext ?_
  show d.start (ix1 e) idx 0 + d.batchCoord (ix1 e) 0 + d.offCoord (ix1 e) 0 = _
  rw [d.batchCoord_eq_zero _ _ hob, hoff0, hst0]
  rfl

/-- THE ENTRY GATHER READ AT `e`: the vector at the clamped edge word. -/
theorem gather_entries_apply {α : Type} (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![E, 1]⟩ w) (e : Fin E) :
    Host.gather d x idx (ix1 e) = x (ix1 ⟨min (idx (ix2 e 0)).toInt.toNat (N - 1), by omega⟩) := by
  unfold Host.gather
  rw [gather_entries_operandIdx hN d h1 h2 h3 h4 h5 h6 h7 idx e]

end GatherEntries

end Cert.LibEdgeIndex
-- ==== Proof.LibEdgePerm.lean ====
/-
  SUMS OVER EDGES DO NOT DEPEND ON THE ORDER OF THE EDGE LIST.

  Setting. A graph has N nodes and E edges; an edge list is an integer array of shape [E, 1] whose word at (e, 0) names
  the node edge e arrives at. "Sum per-edge values into nodes" is the accumulating scatter: node n receives the sum of the
  values of the edges whose word, read signed, is n; an edge whose word names no node contributes nothing. At the ideal
  values (extended reals, exact addition) the result at an element is the operand's element plus the finite sum of the
  updates landing on it — a sum over a SET of update indices, with no order.

  * Scatter into rows. For an operand [N, C], updates [E, C] and dimension numbers update_window_dims = [1],
    inserted_window_dims = [0], scatter_dims_to_operand_dims = [0], index_vector_dim = 1, update (e, f) has start
    (word of e read signed, 0) and window coordinate (0, f) (`scatter_rows_start_window`). So where update (e, f) lands
    depends on the edge list only through the word of e: two edge lists that give e and e' the same word land (e, f) and
    (e', f) on the same element (`scatter_rows_resultIdx_congr`; `scatter_entries_resultIdx_congr` for an operand [N] with
    updates [E]).
  * Hence: if σ is a bijection of the edges, and one edge list and one family of updates are the other edge list and
    family read through σ (edge e of the first is edge σ e of the second), the two accumulating scatters into the same
    operand are equal (`hostScatterAdd_rows_perm`, `hostScatterAdd_entries_perm`): the sum over update indices is
    re-indexed along σ.

  Every statement is about ARBITRARY records of dimension numbers whose fields are given by equations; for a record
  written with literal fields each equation holds by `rfl`.
-/
import Idealize.ShloMosaic.Lib.ValueIdx
import Idealize.ShloMosaic.PureOps.Ideal
import proofs.«171866_g16836271800623_cont_week2b_1426_95_alg».proof.Proof.LibEdgeIndex

open Idealize.ShloMosaic Idealize.ShloMosaic.ValueIdx

namespace Cert.LibEdgePerm

/-! ## Where an update lands is a function of its start and window coordinates -/

/-- Two updates (of two scatters into one operand shape) whose starts and window coordinates agree on every axis land on
    the same element, or are both dropped. -/
theorem resultIdx?_congr {s si u : Shape} {w : Nat} (d d' : ScatterDims s si u) (j j' : u.Idx) (idx idx' : IVec si w)
    (hs : ∀ a, d.start j idx a = d'.start j' idx' a) (hw : ∀ a, d.window j a = d'.window j' a) :
    d.resultIdx? j idx = d'.resultIdx? j' idx' := by
  have hs' : d.start j idx = d'.start j' idx' := funext hs
  have hw' : d.window j = d'.window j' := funext hw
  unfold ScatterDims.resultIdx?
  simp only [hs', hw']

/-! ## Sums over a rank-1 index -/

/-- A rank-1 index is its one coordinate … -/
def idxEquiv1 {n : Nat} : (⟨1, ![n]⟩ : Shape).Idx ≃ Fin n where
  toFun i := i 0
  invFun := ix1
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Scatter into the rows of a table -/

section Rows
variable {N E C w : Nat}

/-- Update `(e, f)` of a row scatter: on axis 0 its start is the edge word `idx[e, 0]` read signed and its window
    coordinate 0 (axis 0 is an inserted window axis); on axis 1 its start is 0 (the index vector has one component, for
    axis 0) and its window coordinate is `f`. -/
theorem scatter_rows_start_window (d : ScatterDims ⟨2, ![N, C]⟩ ⟨2, ![E, 1]⟩ ⟨2, ![E, C]⟩)
    (h1 : d.updateWindowDims = [1]) (h2 : d.insertedWindowDims = [0])
    (h3 : d.scatterDimsToOperandDims = [0]) (h4 : d.indexVectorDim = 1)
    (idx : IVec ⟨2, ![E, 1]⟩ w) (e : Fin E) (f : Fin C) :
    d.start (ix2 e f) idx 0 = (idx (ix2 e 0)).toInt ∧ d.start (ix2 e f) idx 1 = 0
      ∧ d.window (ix2 e f) 0 = 0 ∧ d.window (ix2 e f) 1 = f.val := by
  obtain ⟨uw, iw, sd, iv, wf⟩ := d
  simp only at h1 h2 h3 h4
  subst h1 h2 h3 h4
  generalize hd : (⟨[1], [0], [0], 1, wf⟩ : ScatterDims ⟨2, ![N, C]⟩ ⟨2, ![E, 1]⟩ ⟨2, ![E, C]⟩) = d
  -- axis 0 is named by the scatter-dims-to-operand-dims map, at position 0
  have hmem : (0 : Fin 2) ∈ d.scatterDimsToOperandDims := by subst hd; exact List.mem_singleton.mpr rfl
  -- the scatter-indices index read for that component is (e, 0)
  have hsi : d.siIdx (ix2 e f) ⟨List.idxOf (0 : Fin 2) d.scatterDimsToOperandDims,
      List.idxOf_lt_length_iff.2 hmem⟩ = ix2 e 0 := by
    subst hd
    funext b; refine Fin.ext ?_
    match b with
    | ⟨0, _⟩ => rfl
    | ⟨1, _⟩ => rfl
  refine ⟨?_, ?_, ?_, ?_⟩
  · unfold ScatterDims.start
    rw [dif_pos hmem, hsi]
  · unfold ScatterDims.start
    rw [dif_neg]
    subst hd
    show (1 : Fin 2) ∉ [(0 : Fin 2)]
    decide
  · -- the operand's kept axes are the axes of [N, C] outside [0]: axis 1 only
    unfold ScatterDims.window
    rw [dif_neg]
    subst hd
    show (0 : Fin 2) ∉ (List.finRange 2).filter (· ∉ [(0 : Fin 2)])
    decide
  · subst hd
    unfold ScatterDims.window
    rw [dif_pos]
    · rfl
    · show (1 : Fin 2) ∈ (List.finRange 2).filter (· ∉ [(0 : Fin 2)])
      decide

/-- Two edge lists that give `e` and `e'` the same word land updates `(e, f)` and `(e', f)` on the same element. -/
theorem scatter_rows_resultIdx_congr (d d' : ScatterDims ⟨2, ![N, C]⟩ ⟨2, ![E, 1]⟩ ⟨2, ![E, C]⟩)
    (h1 : d.updateWindowDims = [1]) (h2 : d.insertedWindowDims = [0])
    (h3 : d.scatterDimsToOperandDims = [0]) (h4 : d.indexVectorDim = 1)
    (h1' : d'.updateWindowDims = [1]) (h2' : d'.insertedWindowDims = [0])
    (h3' : d'.scatterDimsToOperandDims = [0]) (h4' : d'.indexVectorDim = 1)
    (idx idx' : IVec ⟨2, ![E, 1]⟩ w) (e e' : Fin E) (f : Fin C) (h : idx (ix2 e 0) = idx' (ix2 e' 0)) :
    d.resultIdx? (ix2 e f) idx = d'.resultIdx? (ix2 e' f) idx' := by
  obtain ⟨s0, s1, w0, w1⟩ := scatter_rows_start_window d h1 h2 h3 h4 idx e f
  obtain ⟨s0', s1', w0', w1'⟩ := scatter_rows_start_window d' h1' h2' h3' h4' idx' e' f
  refine resultIdx?_congr d d' _ _ _ _ (fun a => ?_) (fun a => ?_)
  · match a with
    | ⟨0, _⟩ => exact s0.trans ((congrArg BitVec.toInt h).trans s0'.symm)
    | ⟨1, _⟩ => exact s1.trans s1'.symm
  · match a with
    | ⟨0, _⟩ => exact w0.trans w0'.symm
    | ⟨1, _⟩ => exact w1.trans w1'.symm

/-- RELABELLING THE EDGES DOES NOT CHANGE THE ROW SUMS: if `σ` is a bijection of the edges and the first edge list and
    updates are the second read through `σ`, the two accumulating scatters into `z` are equal. -/
theorem hostScatterAdd_rows_perm (d d' : ScatterDims ⟨2, ![N, C]⟩ ⟨2, ![E, 1]⟩ ⟨2, ![E, C]⟩)
    (h1 : d.updateWindowDims = [1]) (h2 : d.insertedWindowDims = [0])
    (h3 : d.scatterDimsToOperandDims = [0]) (h4 : d.indexVectorDim = 1)
    (h1' : d'.updateWindowDims = [1]) (h2' : d'.insertedWindowDims = [0])
    (h3' : d'.scatterDimsToOperandDims = [0]) (h4' : d'.indexVectorDim = 1)
    (σ : Fin E → Fin E) (hσ : Function.Bijective σ)
    (z : (⟨2, ![N, C]⟩ : Shape).Idx → EReal) (idx idx' : IVec ⟨2, ![E, 1]⟩ w)
    (upd upd' : (⟨2, ![E, C]⟩ : Shape).Idx → EReal)
    (hi : ∀ e, idx (ix2 e 0) = idx' (ix2 (σ e) 0)) (hu : ∀ e f, upd (ix2 e f) = upd' (ix2 (σ e) f)) :
    Ideal.hostScatterAdd d z idx upd = Ideal.hostScatterAdd d' z idx' upd' := by
  funext i
  unfold Ideal.hostScatterAdd
  refine congrArg (z i + ·) ?_
  rw [Finset.sum_filter, Finset.sum_filter, sum_idx2, sum_idx2]
  refine Eq.trans ?_ (hσ.sum_comp _)
  refine Finset.sum_congr rfl fun e _ => ?_
  refine Finset.sum_congr rfl fun f _ => ?_
  rw [scatter_rows_resultIdx_congr d d' h1 h2 h3 h4 h1' h2' h3' h4' idx idx' e (σ e) f (hi e), hu e f]

end Rows

/-! ## Scatter into the entries of a vector -/

section Entries
variable {N E w : Nat}

/-- Two edge lists that give `e` and `e'` the same word land updates `e` and `e'` on the same entry. -/
theorem scatter_entries_resultIdx_congr (d d' : ScatterDims ⟨1, ![N]⟩ ⟨2, ![E, 1]⟩ ⟨1, ![E]⟩)
    (h1 : d.updateWindowDims = []) (h2 : d.insertedWindowDims = [0])
    (h3 : d.scatterDimsToOperandDims = [0]) (h4 : d.indexVectorDim = 1)
    (h1' : d'.updateWindowDims = []) (h2' : d'.insertedWindowDims = [0])
    (h3' : d'.scatterDimsToOperandDims = [0]) (h4' : d'.indexVectorDim = 1)
    (idx idx' : IVec ⟨2, ![E, 1]⟩ w) (e e' : Fin E) (h : idx (ix2 e 0) = idx' (ix2 e' 0)) :
    d.resultIdx? (ix1 e) idx = d'.resultIdx? (ix1 e') idx' := by
  obtain ⟨s0, w0⟩ := Cert.LibEdgeIndex.scatter_entries_start_window d h1 h2 h3 h4 idx e
  obtain ⟨s0', w0'⟩ := Cert.LibEdgeIndex.scatter_entries_start_window d' h1' h2' h3' h4' idx' e'
  refine resultIdx?_congr d d' _ _ _ _ (fun a => ?_) (fun a => ?_)
  · obtain rfl : a = 0 := Subsingleton.elim _ _
    exact s0.trans ((congrArg BitVec.toInt h).trans s0'.symm)
  · obtain rfl : a = 0 := Subsingleton.elim _ _
    exact w0.trans w0'.symm

/-- RELABELLING THE EDGES DOES NOT CHANGE THE ENTRY SUMS. -/
theorem hostScatterAdd_entries_perm (d d' : ScatterDims ⟨1, ![N]⟩ ⟨2, ![E, 1]⟩ ⟨1, ![E]⟩)
    (h1 : d.updateWindowDims = []) (h2 : d.insertedWindowDims = [0])
    (h3 : d.scatterDimsToOperandDims = [0]) (h4 : d.indexVectorDim = 1)
    (h1' : d'.updateWindowDims = []) (h2' : d'.insertedWindowDims = [0])
    (h3' : d'.scatterDimsToOperandDims = [0]) (h4' : d'.indexVectorDim = 1)
    (σ : Fin E → Fin E) (hσ : Function.Bijective σ)
    (z : (⟨1, ![N]⟩ : Shape).Idx → EReal) (idx idx' : IVec ⟨2, ![E, 1]⟩ w)
    (upd upd' : (⟨1, ![E]⟩ : Shape).Idx → EReal)
    (hi : ∀ e, idx (ix2 e 0) = idx' (ix2 (σ e) 0)) (hu : ∀ e, upd (ix1 e) = upd' (ix1 (σ e))) :
    Ideal.hostScatterAdd d z idx upd = Ideal.hostScatterAdd d' z idx' upd' := by
  funext i
  unfold Ideal.hostScatterAdd
  refine congrArg (z i + ·) ?_
  rw [Finset.sum_filter, Finset.sum_filter, sum_idx1, sum_idx1]
  refine Eq.trans ?_ (hσ.sum_comp _)
  refine Finset.sum_congr rfl fun e _ => ?_
  rw [scatter_entries_resultIdx_congr d d' h1 h2 h3 h4 h1' h2' h3' h4' idx idx' e (σ e) (hi e), hu e]

end Entries

end Cert.LibEdgePerm
-- ==== Proof.LibScatterSum.lean ====
/-
  AN ACCUMULATING SCATTER ALONG AN EDGE LIST, READ AT ONE ELEMENT, IS A SUM OVER THE EDGES WITH AN INDICATOR.

  Setting. An edge list is an integer array of shape [E, 1] whose word at (e, 0), read as a SIGNED integer k(e), names the
  node edge e arrives at. At the ideal values (extended reals, exact addition):

  * Scatter of rows. For an operand [N, C], updates [E, C] and dimension numbers update_window_dims = [1],
    inserted_window_dims = [0], scatter_dims_to_operand_dims = [0], index_vector_dim = 1, update (e, g) lands on element
    (s, j) exactly when k(e) = s and g = j (`scatter_rows_resultIdx_eq_iff`); hence element (s, j) of the result is the
    operand's element plus the sum over ALL edges e of "update (e, j) if k(e) = s, else 0" (`hostScatterAdd_rows_apply`).
    An edge whose word is negative or at least N meets no s and contributes 0.
  * Scatter of entries. For an operand [N], updates [E] and update_window_dims = [], the same with no column
    (`scatter_entries_resultIdx_eq_iff`, `hostScatterAdd_entries_apply`).

  In this form two scatters along the same edge list can be compared column by column whatever their widths: the sum
  ranges over the edges only.

  Every statement is about an ARBITRARY record of dimension numbers whose fields are given by equations; for a record
  written with literal fields each equation holds by `rfl`.
-/
import Idealize.ShloMosaic.Lib.ValueIdx
import Idealize.ShloMosaic.PureOps.Ideal
import proofs.«171866_g16836271800623_cont_week2b_1426_95_alg».proof.Proof.LibEdgeIndex
import proofs.«171866_g16836271800623_cont_week2b_1426_95_alg».proof.Proof.LibEdgePerm

open Idealize.ShloMosaic Idealize.ShloMosaic.ValueIdx

namespace Cert.LibScatterSum

section Rows
variable {N E C w : Nat}

/-- Update `(e, g)` of a row scatter lands on element `(s, j)` exactly when the edge word of `e`, read signed, is `s`
    and the column `g` is `j`. -/
theorem scatter_rows_resultIdx_eq_iff (d : ScatterDims ⟨2, ![N, C]⟩ ⟨2, ![E, 1]⟩ ⟨2, ![E, C]⟩)
    (h1 : d.updateWindowDims = [1]) (h2 : d.insertedWindowDims = [0])
    (h3 : d.scatterDimsToOperandDims = [0]) (h4 : d.indexVectorDim = 1)
    (idx : IVec ⟨2, ![E, 1]⟩ w) (e : Fin E) (g : Fin C) (s : Fin N) (j : Fin C) :
    d.resultIdx? (ix2 e g) idx = some (ix2 s j) ↔ ((idx (ix2 e 0)).toInt = (s.val : Int) ∧ g = j) := by
  obtain ⟨s0, s1, w0, w1⟩ := Cert.LibEdgePerm.scatter_rows_start_window d h1 h2 h3 h4 idx e g
  unfold ScatterDims.resultIdx?
  by_cases hc : ∀ a, 0 ≤ d.start (ix2 e g) idx a + d.window (ix2 e g) a ∧
      d.start (ix2 e g) idx a + d.window (ix2 e g) a < (⟨2, ![N, C]⟩ : Shape).size a
  · rw [dif_pos hc]
    have hc0 := hc 0
    rw [s0, w0] at hc0
    have hc0' : 0 ≤ (idx (ix2 e 0)).toInt + ((0 : Nat) : Int) ∧
        (idx (ix2 e 0)).toInt + ((0 : Nat) : Int) < (N : Int) := hc0
    constructor
    · intro h
      have hi := Option.some.inj h
      have h0 : (d.start (ix2 e g) idx 0 + d.window (ix2 e g) 0).toNat = s.val :=
        congrArg (fun i : (⟨2, ![N, C]⟩ : Shape).Idx => (i 0).val) hi
      have h1' : (d.start (ix2 e g) idx 1 + d.window (ix2 e g) 1).toNat = j.val :=
        congrArg (fun i : (⟨2, ![N, C]⟩ : Shape).Idx => (i 1).val) hi
      rw [s0, w0] at h0
      rw [s1, w1] at h1'
      refine ⟨by omega, Fin.ext (by omega)⟩
    · rintro ⟨hk, rfl⟩
      refine congrArg some (funext fun a => Fin.ext ?_)
      match a with
      | ⟨0, _⟩ =>
        show (d.start (ix2 e g) idx 0 + d.window (ix2 e g) 0).toNat = s.val
        rw [s0, w0]; omega
      | ⟨1, _⟩ =>
        show (d.start (ix2 e g) idx 1 + d.window (ix2 e g) 1).toNat = g.val
        rw [s1, w1]; omega
  · rw [dif_neg hc]
    constructor
    · intro h; exact absurd h (by simp)
    · rintro ⟨hk, rfl⟩
      exfalso
      apply hc
      intro a
      match a with
      | ⟨0, _⟩ =>
        show 0 ≤ d.start (ix2 e g) idx 0 + d.window (ix2 e g) 0 ∧
          d.start (ix2 e g) idx 0 + d.window (ix2 e g) 0 < (N : Int)
        rw [s0, w0]
        have := s.isLt
        omega
      | ⟨1, _⟩ =>
        show 0 ≤ d.start (ix2 e g) idx 1 + d.window (ix2 e g) 1 ∧
          d.start (ix2 e g) idx 1 + d.window (ix2 e g) 1 < (C : Int)
        rw [s1, w1]
        have := g.isLt
        omega

/-- THE ROW SCATTER AT AN ELEMENT: the operand's element plus the sum over all edges of the update in that column,
    counted where the edge word is the element's row. -/
theorem hostScatterAdd_rows_apply (d : ScatterDims ⟨2, ![N, C]⟩ ⟨2, ![E, 1]⟩ ⟨2, ![E, C]⟩)
    (h1 : d.updateWindowDims = [1]) (h2 : d.insertedWindowDims = [0])
    (h3 : d.scatterDimsToOperandDims = [0]) (h4 : d.indexVectorDim = 1)
    (z : (⟨2, ![N, C]⟩ : Shape).Idx → EReal) (idx : IVec ⟨2, ![E, 1]⟩ w)
    (upd : (⟨2, ![E, C]⟩ : Shape).Idx → EReal) (s : Fin N) (j : Fin C) :
    Ideal.hostScatterAdd d z idx upd (ix2 s j)
      = z (ix2 s j) + ∑ e : Fin E, if (idx (ix2 e 0)).toInt = (s.val : Int) then upd (ix2 e j) else 0 := by
  classical
  unfold Ideal.hostScatterAdd
  refine congrArg (z (ix2 s j) + ·) ?_
  rw [Finset.sum_filter, sum_idx2]
  refine Finset.sum_congr rfl fun e _ => ?_
  simp only [scatter_rows_resultIdx_eq_iff d h1 h2 h3 h4 idx e _ s j]
  by_cases hk : (idx (ix2 e 0)).toInt = (s.val : Int)
  · simp only [hk, true_and, if_true]
    rw [Finset.sum_ite_eq' Finset.univ j (fun g => upd (ix2 e g))]
    simp
  · simp only [hk, false_and, if_false]
    exact Finset.sum_const_zero

end Rows

section Entries
variable {N E w : Nat}

/-- Update `e` of an entry scatter lands on entry `s` exactly when the edge word of `e`, read signed, is `s`. -/
theorem scatter_entries_resultIdx_eq_iff (d : ScatterDims ⟨1, ![N]⟩ ⟨2, ![E, 1]⟩ ⟨1, ![E]⟩)
    (h1 : d.updateWindowDims = []) (h2 : d.insertedWindowDims = [0])
    (h3 : d.scatterDimsToOperandDims = [0]) (h4 : d.indexVectorDim = 1)
    (idx : IVec ⟨2, ![E, 1]⟩ w) (e : Fin E) (s : Fin N) :
    d.resultIdx? (ix1 e) idx = some (ix1 s) ↔ (idx (ix2 e 0)).toInt = (s.val : Int) := by
  by_cases hr : 0 ≤ (idx (ix2 e 0)).toInt ∧ (idx (ix2 e 0)).toInt < N
  · rw [Cert.LibEdgeIndex.scatter_entries_resultIdx d h1 h2 h3 h4 idx e hr.1 hr.2]
    constructor
    · intro h
      have hi := Option.some.inj h
      have h0 : (idx (ix2 e 0)).toInt.toNat = s.val :=
        congrArg (fun i : (⟨1, ![N]⟩ : Shape).Idx => (i 0).val) hi
      omega
    · intro hk
      refine congrArg some (funext fun a => Fin.ext ?_)
      obtain rfl : a = 0 := Subsingleton.elim _ _
      show (idx (ix2 e 0)).toInt.toNat = s.val
      omega
  · rw [Cert.LibEdgeIndex.scatter_entries_resultIdx_none d h1 h2 h3 h4 idx e (by omega)]
    constructor
    · intro h; exact absurd h (by simp)
    · intro hk
      have := s.isLt
      omega

/-- THE ENTRY SCATTER AT AN ENTRY: the operand's entry plus the sum over all edges of the update, counted where the
    edge word is the entry. -/
theorem hostScatterAdd_entries_apply (d : ScatterDims ⟨1, ![N]⟩ ⟨2, ![E, 1]⟩ ⟨1, ![E]⟩)
    (h1 : d.updateWindowDims = []) (h2 : d.insertedWindowDims = [0])
    (h3 : d.scatterDimsToOperandDims = [0]) (h4 : d.indexVectorDim = 1)
    (z : (⟨1, ![N]⟩ : Shape).Idx → EReal) (idx : IVec ⟨2, ![E, 1]⟩ w)
    (upd : (⟨1, ![E]⟩ : Shape).Idx → EReal) (s : Fin N) :
    Ideal.hostScatterAdd d z idx upd (ix1 s)
      = z (ix1 s) + ∑ e : Fin E, if (idx (ix2 e 0)).toInt = (s.val : Int) then upd (ix1 e) else 0 := by
  classical
  unfold Ideal.hostScatterAdd
  refine congrArg (z (ix1 s) + ·) ?_
  rw [Finset.sum_filter, Cert.LibEdgePerm.sum_idx1]
  refine Finset.sum_congr rfl fun e _ => ?_
  simp only [scatter_entries_resultIdx_eq_iff d h1 h2 h3 h4 idx e s]

end Entries

end Cert.LibScatterSum
-- ==== Proof.KAt.lean ====
/- The kernel's per-voxel sums and counts, read at one voxel. The host's one scatter of the 65-column rows (features, 1),
   read at voxel s and column j < 64, is the sum over all points e of the feature (e, j) counted where point e's voxel id
   is s; read at column 64 it is the sum of 1 counted the same way — the number of points in voxel s. (An id outside
   [0, 524288) meets no voxel and is counted nowhere.) -/
import proofs.«171866_g16836271800623_cont_week2b_1426_95_alg».proof.Proof.KHostDefs
import proofs.«171866_g16836271800623_cont_week2b_1426_95_alg».proof.Proof.LibScatterSum
import Idealize.ShloMosaic.Lib.ValueIdx
import Idealize.ShloMosaic.Lib.Pipeline.Value

set_option maxRecDepth 16384

noncomputable section

namespace Cert.KernelIdeal.HostVal

open Cert.KernelIdeal Cert.KernelIdeal.Gen
open Idealize.ShloMosaic Idealize.ShloMosaic.ValueIdx

/-- The zero operand of the scatter, read anywhere, is the pattern of `+0.0`. -/
theorem zeros65_apply (i : S524288x65.Idx) :
    broadcastInDim S524288x65 ![] bcast_S_S524288x65 (constant (F := Ideal) S_ .f32 0x00000000#32) i
      = Ideal.ofBits .f32 0x00000000#32 := rfl

/-- The edge list `[E, 1]` made from the voxel ids, read at `(e, 0)`, is point `e`'s voxel id. -/
theorem edge_apply (v : IVec S200000 32) (e : Fin 200000) :
    broadcastInDim S200000x1 ![0] bcast_S200000_S200000x1_0 v (ix2 e (0 : Fin 1)) = v (ix1 e) :=
  broadcastInDim_apply ![0] bcast_S200000_S200000x1_0 v (ix2 e (0 : Fin 1)) (ix1 e) (fun a => match a with
    | ⟨0, _⟩ => by show e.val = if (200000 : Nat) = 1 then 0 else e.val; rw [if_neg (by decide)])

/-- The concatenated row (features, 1) read at a feature column is the feature. -/
theorem ext_left (X : FVec Ideal S200000x64 .f32) (Y : FVec Ideal S200000x1 .f32) (e : Fin 200000) (j : Fin 64) :
    concatenate S200000x65 1 [⟨S200000x64, X⟩, ⟨S200000x1, Y⟩] concatenates_S200000x64_S200000x1_S200000x65_d1
        (ix2 e (⟨j.val, by have := j.isLt; omega⟩ : Fin 65)) = X (ix2 e j) :=
  concatenate_pair_apply_left (t := S200000x65) (s₁ := S200000x64) (s₂ := S200000x1) (1 : Fin 2) X Y
    concatenates_S200000x64_S200000x1_S200000x65_d1 (ix2 e (⟨j.val, by have := j.isLt; omega⟩ : Fin 65)) rfl (ix2 e j)
    (fun a => match a with
      | ⟨0, _⟩ => rfl
      | ⟨1, _⟩ => rfl)

/-- The concatenated row (features, 1) read at the last column is the appended entry. -/
theorem ext_right (X : FVec Ideal S200000x64 .f32) (Y : FVec Ideal S200000x1 .f32) (e : Fin 200000) :
    concatenate S200000x65 1 [⟨S200000x64, X⟩, ⟨S200000x1, Y⟩] concatenates_S200000x64_S200000x1_S200000x65_d1
        (ix2 e (⟨64, by decide⟩ : Fin 65)) = Y (ix2 e (0 : Fin 1)) :=
  concatenate_pair_apply_right (t := S200000x65) (s₁ := S200000x64) (s₂ := S200000x1) (1 : Fin 2) X Y
    concatenates_S200000x64_S200000x1_S200000x65_d1 (ix2 e (⟨64, by decide⟩ : Fin 65)) rfl rfl (ix2 e (0 : Fin 1))
    (fun a h => match a with
      | ⟨0, _⟩ => rfl
      | ⟨1, _⟩ => absurd rfl h) rfl

set_option maxHeartbeats 1000000 in
/-- The 65-column scatter at voxel `s` and any column `j`: the sum over the points whose voxel id is `s` of the
    concatenated row's entry `j`. -/
theorem sums65_at (x : FVec Ideal S2x100000x3 .f32) (w : FVec Ideal S3x64 .f32) (b : FVec Ideal S64 .f32)
    (s : Fin 524288) (j : Fin 65) :
    sums65 (F := Ideal) x w b (ix2 s j)
      = Ideal.ofBits .f32 0x00000000#32 + ∑ e : Fin 200000, if (segOf (F := Ideal) x (ix1 e)).toInt = (s.val : Int)
          then concatenate S200000x65 1 [⟨S200000x64, featsOf (F := Ideal) x w b⟩,
            ⟨S200000x1, broadcastInDim S200000x1 ![] bcast_S_S200000x1 (constant (F := Ideal) S_ .f32 0x3F800000#32)⟩]
            concatenates_S200000x64_S200000x1_S200000x65_d1 (ix2 e j) else 0 := by
  unfold sums65
  refine (Cert.LibScatterSum.hostScatterAdd_rows_apply scatter_S524288x65_S200000x1_S200000x65_1_0_0_1 rfl rfl rfl rfl _ _ _ s j).trans ?_
  rw [zeros65_apply]
  refine congrArg (Ideal.ofBits .f32 0x00000000#32 + ·) (Finset.sum_congr rfl fun e _ => ?_)
  rw [edge_apply]

/-- THE FEATURE SUMS AT A VOXEL: over the points whose voxel id is `s`, the sum of feature `j`. -/
theorem sums_at (x : FVec Ideal S2x100000x3 .f32) (w : FVec Ideal S3x64 .f32) (b : FVec Ideal S64 .f32)
    (s : Fin 524288) (j : Fin 64) :
    sumsOf (F := Ideal) x w b (ix2 s j)
      = Ideal.ofBits .f32 0x00000000#32 + ∑ e : Fin 200000, if (segOf (F := Ideal) x (ix1 e)).toInt = (s.val : Int)
          then featsOf (F := Ideal) x w b (ix2 e j) else 0 := by
  unfold sumsOf
  refine (extractStridedSlice_apply ![0, 0] (sums65 (F := Ideal) x w b) slices_S524288x65_S524288x64_0_0 (ix2 s j)
    (ix2 s (⟨j.val, by have := j.isLt; omega⟩ : Fin 65)) (fun a => match a with
      | ⟨0, _⟩ => by show s.val = 0 + s.val; omega
      | ⟨1, _⟩ => by show j.val = 0 + j.val; omega)).trans ?_
  refine (sums65_at x w b s _).trans ?_
  refine congrArg (Ideal.ofBits .f32 0x00000000#32 + ·) (Finset.sum_congr rfl fun e _ => ?_)
  rw [ext_left]

/-- THE POINT COUNT AT A VOXEL: over the points whose voxel id is `s`, the sum of 1. -/
theorem counts_at (x : FVec Ideal S2x100000x3 .f32) (w : FVec Ideal S3x64 .f32) (b : FVec Ideal S64 .f32)
    (s : Fin 524288) :
    countsOf (F := Ideal) x w b (ix2 s (0 : Fin 1))
      = Ideal.ofBits .f32 0x00000000#32 + ∑ e : Fin 200000, if (segOf (F := Ideal) x (ix1 e)).toInt = (s.val : Int)
          then Ideal.ofBits .f32 0x3F800000#32 else 0 := by
  unfold countsOf
  refine (broadcastInDim_apply ![0] bcast_S524288_S524288x1_0 _ (ix2 s (0 : Fin 1)) (ix1 s) (fun a => match a with
      | ⟨0, _⟩ => by show s.val = if (524288 : Nat) = 1 then 0 else s.val; rw [if_neg (by decide)])).trans ?_
  refine (shapeCast_apply _ shapeCasts_S524288x1_S524288 (ix1 s) (ix2 s (0 : Fin 1)) (by
      rw [Shape.rowMajor_val_two, Shape.rowMajor_val_one]; show s.val * 1 + 0 = s.val; omega)).trans ?_
  refine (extractStridedSlice_apply ![0, 64] (sums65 (F := Ideal) x w b) slices_S524288x65_S524288x1_0_64 (ix2 s (0 : Fin 1))
    (ix2 s (⟨64, by decide⟩ : Fin 65)) (fun a => match a with
      | ⟨0, _⟩ => by show s.val = 0 + s.val; omega
      | ⟨1, _⟩ => rfl)).trans ?_
  refine (sums65_at x w b s _).trans ?_
  refine congrArg (Ideal.ofBits .f32 0x00000000#32 + ·) (Finset.sum_congr rfl fun e _ => ?_)
  rw [ext_right]
  rfl

end Cert.KernelIdeal.HostVal

end
-- ==== Proof.CellAlg.lean ====
/- The two places where the kernel's arithmetic on one voxel and the reference's differ in spelling, and why they agree on
   the extended reals.

   * The kernel multiplies a feature sum by the reciprocal 1 / max(c, 1) of the floored count; the reference divides the
     sum by max(c, 1). The extended reals' quotient x / y is x · y⁻¹ whenever y ≠ 0, so 1 / y is 1 · y⁻¹ = y⁻¹ and
     x · (1 / y) = x · y⁻¹ = x / y. Here y = max(c, 1) ≥ 1 > 0 whatever c is (a count, but nothing of that is used), so
     y ≠ 0 — no finiteness is needed.
   * The occupancy flag [cs + ct > 0] is one bit. The kernel widens the bit to a 32-bit word and converts the word, read
     signed, to a float; the reference converts the bit, read unsigned, to a float. A bit widened to 32 bits is 0 or 1
     read either way.

   So the kernel's value at a voxel is the reference's formula of the same five numbers (`cellVal_eq`). -/
import proofs.«171866_g16836271800623_cont_week2b_1426_95_alg».proof.Proof.KBody
import Idealize.ShloMosaic.PureOps.Ideal

noncomputable section

namespace Cert.CellAlg

open Idealize.ShloMosaic Cert.KernelIdeal.Body

/-- The pattern of `+0.0` denotes 0. -/
theorem ofBits_zero : Ideal.ofBits .f32 0x00000000#32 = 0 := by
  simp [Ideal.ofBits, Ideal.ieee]

/-- The pattern of `1.0` denotes 1. -/
theorem ofBits_one : Ideal.ofBits .f32 0x3F800000#32 = 1 := by
  simp [Ideal.ofBits, Ideal.ieee, -EReal.coe_mul]; norm_num

/-- A count floored at one is not zero. -/
theorem max_one_ne_zero (c : EReal) : max c (1 : EReal) ≠ 0 := by
  intro h
  have h1 : (1 : EReal) ≤ max c 1 := le_max_right c 1
  rw [h] at h1
  exact absurd h1 (by norm_num)

/-- Multiplying by the reciprocal of a nonzero divisor is dividing by it. -/
theorem mul_div_one (x y : EReal) (hy : y ≠ 0) : x * Ideal.div 1 y = Ideal.div x y := by
  unfold Ideal.div
  rw [if_neg hy, if_neg hy, one_mul]

/-- The kernel's reciprocal of the floored count, times a sum, is the reference's quotient. -/
theorem mul_invK (x c : EReal) : x * invK c = Ideal.div x (max c (Ideal.ofBits .f32 0x3F800000#32)) := by
  show x * Ideal.div (Ideal.ofBits .f32 0x3F800000#32) (max c (Ideal.ofBits .f32 0x3F800000#32)) = _
  rw [ofBits_one]
  exact mul_div_one x _ (max_one_ne_zero c)

/-- A bit widened to a word and read signed is the bit read unsigned. -/
theorem bit_toInt (b : BitVec 1) : ((b.setWidth 32).toInt : ℝ) = (b.toNat : ℝ) := by
  rcases BitVec.eq_zero_or_eq_one b with h | h <;> subst h <;> simp

/-- The kernel's occupancy factor is the reference's. -/
theorem occK_eq (x : EReal) :
    occK x = FloatOps.uitofp (F := Ideal) .f32 (FloatOps.cmpf (F := Ideal) .ogt x (Ideal.ofBits .f32 0x00000000#32)) := by
  show (((FloatOps.cmpf (F := Ideal) .ogt x (Ideal.ofBits .f32 0x00000000#32)).setWidth 32).toInt : ℝ)
      = ((((FloatOps.cmpf (F := Ideal) .ogt x (Ideal.ofBits .f32 0x00000000#32)).toNat : ℝ) : EReal))
  rw [bit_toInt]

/-- THE VOXEL'S VALUE, IN THE REFERENCE'S SPELLING: quotients by the floored counts, and the flag read unsigned. -/
theorem cellVal_eq (s t cs ct tf : EReal) :
    cellVal s t cs ct tf
      = (Ideal.div t (max ct (Ideal.ofBits .f32 0x3F800000#32)) - Ideal.div s (max cs (Ideal.ofBits .f32 0x3F800000#32)) + tf)
        * FloatOps.uitofp (F := Ideal) .f32 (FloatOps.cmpf (F := Ideal) .ogt (cs + ct) (Ideal.ofBits .f32 0x00000000#32)) := by
  unfold cellVal
  rw [mul_invK, mul_invK, occK_eq]

end Cert.CellAlg

end
-- ==== Proof.SegEq.lean ====
/- The two programs compute the voxel ids and the per-point features by the same operations in the same order: the
   kernel's host terms and the reference's stages are one term each (clip(floor((x − xmin)/vs), 0, 511) on the two
   horizontal coordinates, batch·512·512 + vx·512 + vy; relu(x·W + b)), for the first cloud and for the second. -/
import proofs.«171866_g16836271800623_cont_week2b_1426_95_alg».proof.Proof.KHostDefs
import proofs.«171866_g16836271800623_cont_week2b_1426_95_alg».proof.Proof.RefReadP

set_option maxRecDepth 16384

noncomputable section

namespace Cert.SegEq

open Idealize.ShloMosaic
open Cert.KernelIdeal.HostVal

/-- The voxel ids of the first cloud. -/
theorem seg0 (x : FVec Ideal Cert.KernelIdeal.S2x100000x3 .f32) :
    segOf (F := Ideal) x = Cert.ReferenceIdeal.ReadP.val_main_v29 (F := Ideal) x := rfl

/-- The voxel ids of the second cloud. -/
theorem seg1 (x : FVec Ideal Cert.KernelIdeal.S2x100000x3 .f32) :
    segOf (F := Ideal) x = Cert.ReferenceIdeal.ReadP.val_main_v77 (F := Ideal) x := rfl

/-- The features of the first cloud. -/
theorem feats0 (x : FVec Ideal Cert.KernelIdeal.S2x100000x3 .f32) (w : FVec Ideal Cert.KernelIdeal.S3x64 .f32)
    (b : FVec Ideal Cert.KernelIdeal.S64 .f32) :
    featsOf (F := Ideal) x w b = Cert.ReferenceIdeal.ReadP.val_main_v35 (F := Ideal) x w b := rfl

/-- The features of the second cloud. -/
theorem feats1 (x : FVec Ideal Cert.KernelIdeal.S2x100000x3 .f32) (w : FVec Ideal Cert.KernelIdeal.S3x64 .f32)
    (b : FVec Ideal Cert.KernelIdeal.S64 .f32) :
    featsOf (F := Ideal) x w b = Cert.ReferenceIdeal.ReadP.val_main_v83 (F := Ideal) x w b := rfl

end Cert.SegEq

end
-- ==== Proof.RefAt.lean ====
/- The reference read at one voxel and one column, at the ideal values. The reference's result there is
     (mean of the second cloud's features − mean of the first cloud's features + the time row) · mask,
   where each mean is the voxel's feature sum divided by max(count, 1), the time row is the row of the batch the voxel
   belongs to (voxel s of 2·262144 lies in batch s / 262144), and the mask is 1 where the two clouds' counts sum to more
   than zero. The four scatters (two feature sums, two counts) read at an element are sums over the points with an
   indicator on the point's voxel word. -/
import proofs.«171866_g16836271800623_cont_week2b_1426_95_alg».proof.Proof.RefReadP
import proofs.«171866_g16836271800623_cont_week2b_1426_95_alg».proof.Proof.LibScatterSum
import Idealize.ShloMosaic.Lib.ValueIdx
import Idealize.ShloMosaic.PureOps.Ideal.Laws

set_option maxRecDepth 16384

noncomputable section

namespace Cert.RefAt

open Cert.ReferenceIdeal Cert.ReferenceIdeal.ReadP
open Idealize.ShloMosaic Idealize.ShloMosaic.ValueIdx
open scoped BigOperators

/-! ## The reference at a voxel -/

set_option maxHeartbeats 1000000 in
/-- The reference's result before its last reshape, at voxel `s` and column `j`. -/
theorem ref_at [Cert.ReferenceIdeal.Facts] (a0 a1 : FVec Ideal S2x100000x3 .f32) (a2 : FVec Ideal S3x64 .f32) (a3 : FVec Ideal S64 .f32)
    (a4 : FVec Ideal S4x64 .f32) (a5 : FVec Ideal S64 .f32) (a6 : IVec S_ 32)
    (s : Fin 524288) (j : Fin 64) :
    val_main_v117 (F := Ideal) a0 a1 a2 a3 a4 a5 a6 (ix2 s j)
      = (Ideal.div (val_main_v86 (F := Ideal) a1 a2 a3 (ix2 s j)) (max (val_main_v90 (F := Ideal) a1 (ix1 s)) (Ideal.ofBits .f32 0x3F800000#32))
          - Ideal.div (val_main_v38 (F := Ideal) a0 a2 a3 (ix2 s j)) (max (val_main_v42 (F := Ideal) a0 (ix1 s)) (Ideal.ofBits .f32 0x3F800000#32))
          + val_main_v111 (F := Ideal) a4 a5 a6 (ix2 (⟨s.val / 262144, by have := s.isLt; omega⟩ : Fin 2) j))
        * FloatOps.uitofp (F := Ideal) .f32 (FloatOps.cmpf (F := Ideal) .ogt
            (val_main_v42 (F := Ideal) a0 (ix1 s) + val_main_v90 (F := Ideal) a1 (ix1 s)) (Ideal.ofBits .f32 0x00000000#32)) := by
  have h94 : idx_main_v93 (idx_main_v94 (ix2 s j)) = ix1 s := funext fun a => match a with | ⟨0, _⟩ => rfl
  have h46 : idx_main_v45 (idx_main_v46 (ix2 s j)) = ix1 s := funext fun a => match a with | ⟨0, _⟩ => rfl
  have h116 : idx_main_v115 (idx_main_v116 (ix2 s j)) = ix1 s := funext fun a => match a with | ⟨0, _⟩ => rfl
  have h113 : idx_main_v112 (idx_main_v113 (ix2 s j)) = ix2 (⟨s.val / 262144, by have := s.isLt; omega⟩ : Fin 2) j := by
    have hs := s.isLt
    have hj := j.isLt
    funext a
    refine Fin.ext ?_
    match a with
    | ⟨0, _⟩ =>
      show (s.val * 64 + j.val) / 16777216 = s.val / 262144
      omega
    | ⟨1, _⟩ =>
      show (s.val * 64 + j.val) % 64 = j.val
      omega
  simp only [val_main_v117_apply, val_main_v114_apply, val_main_v96_apply, val_main_v95_apply, val_main_v47_apply,
    val_main_v94_apply, val_main_v93_apply, val_main_v92_apply, val_main_v91_apply, val_main_cst_27_apply,
    val_main_v46_apply, val_main_v45_apply, val_main_v44_apply, val_main_v43_apply, val_main_cst_12_apply,
    val_main_v116_apply, val_main_v115_apply, val_main_v100_apply, val_main_v99_apply, val_main_v97_apply,
    val_main_v98_apply, val_main_cst_28_apply, val_main_v113_apply, val_main_v112_apply, h94, h46, h116, h113]
  <;> rfl

/-! ## The four scatters at an element -/

/-- The first cloud's feature sums at a voxel and a column: zero plus the sum over all points of the point's feature in that
    column, counted where the point's voxel word, read signed, is the voxel. -/
theorem v38_at [Cert.ReferenceIdeal.Facts] (a0 : FVec Ideal S2x100000x3 .f32) (a2 : FVec Ideal S3x64 .f32) (a3 : FVec Ideal S64 .f32)
    (s : Fin 524288) (j : Fin 64) :
    val_main_v38 (F := Ideal) a0 a2 a3 (ix2 s j) = Ideal.ofBits .f32 0x00000000#32
      + ∑ e : Fin 200000, if (val_main_v29 (F := Ideal) a0 (ix1 e)).toInt = (s.val : Int) then val_main_v35 (F := Ideal) a0 a2 a3 (ix2 e j) else 0 := by
  have hi : ∀ e : Fin 200000, idx_main_v37 (ix2 e (0 : Fin 1)) = ix1 e := fun e => funext fun a =>
    match a with | ⟨0, _⟩ => rfl
  unfold val_main_v38
  show Ideal.hostScatterAdd scatter_S524288x64_S200000x1_S200000x64_1_0_0_1 _ _ _ (ix2 s j) = _
  rw [Cert.LibScatterSum.hostScatterAdd_rows_apply _ rfl rfl rfl rfl, val_main_v36_apply]
  simp only [val_main_v37_apply, hi]
  rfl

/-- The first cloud's point count at a voxel: zero plus the sum over all points of one, counted where the point's voxel
    word, read signed, is the voxel. -/
theorem v42_at [Cert.ReferenceIdeal.Facts] (a0 : FVec Ideal S2x100000x3 .f32) (s : Fin 524288) :
    val_main_v42 (F := Ideal) a0 (ix1 s) = Ideal.ofBits .f32 0x00000000#32
      + ∑ e : Fin 200000, if (val_main_v29 (F := Ideal) a0 (ix1 e)).toInt = (s.val : Int) then Ideal.ofBits .f32 0x3F800000#32 else 0 := by
  have hi : ∀ e : Fin 200000, idx_main_v41 (ix2 e (0 : Fin 1)) = ix1 e := fun e => funext fun a =>
    match a with | ⟨0, _⟩ => rfl
  unfold val_main_v42
  show Ideal.hostScatterAdd scatter_S524288_S200000x1_S200000_n_0_0_1 _ _ _ (ix1 s) = _
  rw [Cert.LibScatterSum.hostScatterAdd_entries_apply _ rfl rfl rfl rfl, val_main_v40_apply]
  simp only [val_main_v41_apply, hi, val_main_v39_apply, val_main_cst_10_apply]
  rfl

/-- The second cloud's feature sums at a voxel and a column: zero plus the sum over all points of the point's feature in that
    column, counted where the point's voxel word, read signed, is the voxel. -/
theorem v86_at [Cert.ReferenceIdeal.Facts] (a1 : FVec Ideal S2x100000x3 .f32) (a2 : FVec Ideal S3x64 .f32) (a3 : FVec Ideal S64 .f32)
    (s : Fin 524288) (j : Fin 64) :
    val_main_v86 (F := Ideal) a1 a2 a3 (ix2 s j) = Ideal.ofBits .f32 0x00000000#32
      + ∑ e : Fin 200000, if (val_main_v77 (F := Ideal) a1 (ix1 e)).toInt = (s.val : Int) then val_main_v83 (F := Ideal) a1 a2 a3 (ix2 e j) else 0 := by
  have hi : ∀ e : Fin 200000, idx_main_v85 (ix2 e (0 : Fin 1)) = ix1 e := fun e => funext fun a =>
    match a with | ⟨0, _⟩ => rfl
  unfold val_main_v86
  show Ideal.hostScatterAdd scatter_S524288x64_S200000x1_S200000x64_1_0_0_1 _ _ _ (ix2 s j) = _
  rw [Cert.LibScatterSum.hostScatterAdd_rows_apply _ rfl rfl rfl rfl, val_main_v84_apply]
  simp only [val_main_v85_apply, hi]
  rfl

/-- The second cloud's point count at a voxel: zero plus the sum over all points of one, counted where the point's voxel
    word, read signed, is the voxel. -/
theorem v90_at [Cert.ReferenceIdeal.Facts] (a1 : FVec Ideal S2x100000x3 .f32) (s : Fin 524288) :
    val_main_v90 (F := Ideal) a1 (ix1 s) = Ideal.ofBits .f32 0x00000000#32
      + ∑ e : Fin 200000, if (val_main_v77 (F := Ideal) a1 (ix1 e)).toInt = (s.val : Int) then Ideal.ofBits .f32 0x3F800000#32 else 0 := by
  have hi : ∀ e : Fin 200000, idx_main_v89 (ix2 e (0 : Fin 1)) = ix1 e := fun e => funext fun a =>
    match a with | ⟨0, _⟩ => rfl
  unfold val_main_v90
  show Ideal.hostScatterAdd scatter_S524288_S200000x1_S200000_n_0_0_1 _ _ _ (ix1 s) = _
  rw [Cert.LibScatterSum.hostScatterAdd_entries_apply _ rfl rfl rfl rfl, val_main_v88_apply]
  simp only [val_main_v89_apply, hi, val_main_v87_apply, val_main_cst_25_apply]
  rfl

end Cert.RefAt

end
-- ==== Proof.TimeRow.lean ====
/- The time-embedding row, at the ideal values. Both programs normalise the integer input the same way (a negative
   index counts from the end: +4) and, for an input in [-4, 4) read signed, the normalised index n is one of 0, 1, 2, 3.
   The kernel's host program reads row n of the 4x64 table by a clamped dynamic slice and adds the bias. The
   reference builds a 2x4 array of zeros, sets column n of each of its two rows to one, multiplies it by the table
   and adds the bias: row b of the product is the sum over k of onehot(b, k) * W(k, f), and since 0 * x = 0 and
   1 * x = x for every extended real x, that sum is W(n, f). So each of the reference's two rows is the kernel's row. -/
import proofs.«171866_g16836271800623_cont_week2b_1426_95_alg».proof.Proof.Gen.KernelIdeal
import proofs.«171866_g16836271800623_cont_week2b_1426_95_alg».proof.Proof.RefReadP
import Idealize.ShloMosaic.Lib.Pipeline.Value
import Idealize.ShloMosaic.Lib.ValueIdx
import Idealize.ShloMosaic.Lib.ValueLayout
import Idealize.ShloMosaic.Lib.DynamicIndex
import Idealize.ShloMosaic.Lib.IdealHost
import Idealize.ShloMosaic.PureOps.Ideal.Laws

noncomputable section

namespace Cert.TimeRow

open Cert.KernelIdeal Cert.KernelIdeal.Gen
open Idealize.ShloMosaic Idealize.ShloMosaic.ValueIdx
open scoped BigOperators

/-! ## The kernel's row, as its host program spells it -/

section Row
variable {F : FTy → Type} [FloatOps F]

/-- The index the host normalises: a negative word counts from the end (+4). -/
def normIdx (i : IVec S_ 32) : IVec S_ 32 :=
  select (cmpi .slt i (constantI S_ 32 0#32)) (addi i (constantI S_ 32 4#32)) i

/-- The column start of the dynamic slice: the literal 0, normalised the same way. -/
def zeroIdx : IVec S_ 32 :=
  select (cmpi .slt (constantI S_ 32 0#32) (constantI S_ 32 0#32)) (addi (constantI S_ 32 0#32) (constantI S_ 32 64#32)) (constantI S_ 32 0#32)

/-- The time row: row `normIdx i` (clamped into the table) of the time table, plus the bias. -/
def kRow (w4 : FVec F S4x64 .f32) (b5 : FVec F S64 .f32) (i : IVec S_ 32) : FVec F S64 .f32 :=
  addf (shapeCast _ (Host.dynamicSlice S1x64 w4 (fun k => ((![normIdx i, zeroIdx] : Fin 2 → IVec S_ 32) k (Shape.Idx.first h_S_)).toInt) sliceFits_S4x64_S1x64) shapeCasts_S1x64_S64) b5

end Row

/-! ## The index, normalised -/

/-- A negative index counts from the end: `w + 4` where `w` is negative read signed, `w` otherwise. -/
def nrm (w : BitVec 32) : BitVec 32 := Scalar.select (IntOp.cmpi .slt w 0#32) (IntOp.addi w 4#32) w

/-- For `w` in [-4, 4) read signed, the normalised index is one of 0, 1, 2, 3. -/
theorem nrm_eq (w : BitVec 32) (hlo : -4 ≤ w.toInt) (hhi : w.toInt < 4) : ∃ k : Fin 4, nrm w = BitVec.ofNat 32 k.val := by
  have hw : w = BitVec.ofInt 32 w.toInt := BitVec.ofInt_toInt.symm
  generalize w.toInt = t at hw hlo hhi
  subst hw
  interval_cases t
  · exact ⟨0, by decide⟩
  · exact ⟨1, by decide⟩
  · exact ⟨2, by decide⟩
  · exact ⟨3, by decide⟩
  · exact ⟨0, by decide⟩
  · exact ⟨1, by decide⟩
  · exact ⟨2, by decide⟩
  · exact ⟨3, by decide⟩

/-- The host's normalised index, at the one index of a rank-0 array, is `nrm` of the word. -/
theorem normIdx_apply (a6 : IVec S_ 32) (j : S_.Idx) : normIdx a6 j = nrm (a6 ix0) := by
  rw [eq_ix0 j]; rfl

/-- The column start is the word 0. -/
theorem zeroIdx_apply (j : S_.Idx) : zeroIdx j = 0#32 := by
  show Scalar.select (IntOp.cmpi .slt 0#32 0#32) (IntOp.addi 0#32 64#32) 0#32 = 0#32
  decide

/-! ## The kernel's row is row n of the table plus the bias -/

/-- A row start in 0..3 is its own clamp into [0, 3]. -/
theorem clamp_row (w : BitVec 32) (k : Fin 4) (hw : w = BitVec.ofNat 32 k.val) :
    (min (max w.toInt 0) ((3 : Nat) : Int)).toNat = k.val := by
  subst hw; fin_cases k <;> decide

/-- The column start 0 is its own clamp into [0, 0]. -/
theorem clamp_col : (min (max (0#32 : BitVec 32).toInt 0) ((0 : Nat) : Int)).toNat = 0 := by decide

theorem ker_row (a4 : FVec Ideal S4x64 .f32) (a5 : FVec Ideal S64 .f32) (a6 : IVec S_ 32) (k : Fin 4)
    (hk : nrm (a6 ix0) = BitVec.ofNat 32 k.val) (f : Fin 64) :
    kRow (F := Ideal) a4 a5 a6 (ix1 f) = a4 (ix2 k f) + a5 (ix1 f) := by
  unfold kRow
  rw [addf_apply, shapeCast_1a_a_apply]
  congr 1
  have hs : S4x64.Slices ![k.val, 0] S1x64 := ⟨rfl, fun a => by
    have := k.isLt
    fin_cases a
    · show k.val + 1 ≤ 4; omega
    · show 0 + 64 ≤ 64; omega⟩
  rw [Host.dynamicSlice_eq_extractStridedSlice_of_clamp S1x64 a4 _ sliceFits_S4x64_S1x64 ![k.val, 0] (fun a => by
    fin_cases a
    · exact clamp_row (normIdx a6 (Shape.Idx.first h_S_)) k ((normIdx_apply a6 _).trans hk)
    · show (min (max (zeroIdx (Shape.Idx.first h_S_)).toInt 0) ((0 : Nat) : Int)).toNat = 0
      rw [zeroIdx_apply]; exact clamp_col) hs]
  exact extractStridedSlice_apply _ a4 hs (ix2 (0 : Fin 1) f) (ix2 k f) (fun a => by
    fin_cases a
    · show k.val = k.val + 0; omega
    · show f.val = 0 + f.val; omega)

/-! ## A scatter that sets commutes with a map of the values -/

/-- A scatter whose body returns the update moves values and computes none: mapping the operand's and the updates'
    values by `g` maps the result. -/
theorem scatter_set_map {s si u : Shape} {w : Nat} {α β : Type} (g : β → α) (d : ScatterDims s si u) (x : s.Idx → β)
    (idx : IVec si w) (upd : u.Idx → β) :
    Host.scatter d (fun _ b => b) (fun i => g (x i)) idx (fun j => g (upd j))
      = fun i => g (Host.scatter d (fun _ b => b) x idx upd i) := by
  unfold Host.scatter
  generalize List.finRange u.numel = L
  induction L generalizing x with
  | nil => rfl
  | cons n L ih =>
    rw [List.foldl_cons, List.foldl_cons]
    cases hr : d.resultIdx? (u.rowMajor.symm n) idx with
    | none => exact ih x
    | some i =>
      have e : (fun i' => if i' = i then g (upd (u.rowMajor.symm n)) else g (x i'))
          = fun i' => g ((fun i' => if i' = i then upd (u.rowMajor.symm n) else x i') i') := by
        funext i'; by_cases h : i' = i
        · simp only [if_pos h]
        · simp only [if_neg h]
      show List.foldl _ (fun i' => if i' = i then g (upd (u.rowMajor.symm n)) else g (x i')) L = _
      rw [e]
      exact ih _

/-! ## The reference's one-hot rows -/

/-- The reference's scatter over truth values: false everywhere, then true at column `k` of each of the two rows. -/
theorem onehot_bool : ∀ (k : Fin 4) (b : Fin 2) (j : Fin 4),
    Host.scatter Cert.ReferenceIdeal.scatter_S2x4_S1_S2_0_1_1_0 (fun _ b => b) (fun _ => false)
        (fun _ => BitVec.ofNat 32 k.val : IVec Cert.ReferenceIdeal.S1 32) (fun _ => true) (ix2 b j) = decide (j = k) := by
  decide

/-- One for true, zero for false. -/
def ind : Bool → EReal
  | true => 1
  | false => 0

open Cert.ReferenceIdeal.ReadP in
/-- The reference's array of zeros. -/
theorem v101_eq : val_main_v101 (F := Ideal) = fun _ => ind false := by
  funext i
  rw [val_main_v101_apply, val_main_cst_29_apply, Ideal.ofBits_def, Ideal.ofBits_zero_f32]; rfl

open Cert.ReferenceIdeal.ReadP in
/-- The reference's two updates, both one. -/
theorem v106_eq : val_main_v106 (F := Ideal) = fun _ => ind true := by
  funext i
  rw [val_main_v106_apply, val_main_cst_32_apply, Ideal.ofBits_def, Ideal.ofBits_one_f32]; rfl

open Cert.ReferenceIdeal.ReadP in
/-- The reference's scatter index: the normalised word. -/
theorem v105_eq (a6 : IVec S_ 32) : val_main_v105 (F := Ideal) a6 = fun _ => nrm (a6 ix0) := by
  funext i
  rw [val_main_v105_apply]; rfl

open Cert.ReferenceIdeal.ReadP in
/-- The reference's one-hot array: one at column n of each row, zero elsewhere. -/
theorem v107_eq (a6 : IVec S_ 32) (k : Fin 4) (hk : nrm (a6 ix0) = BitVec.ofNat 32 k.val) (b : Fin 2) (j : Fin 4) :
    val_main_v107 (F := Ideal) a6 (ix2 b j) = ind (decide (j = k)) := by
  unfold val_main_v107
  rw [v101_eq, v106_eq, v105_eq, hk]
  have h := congrFun (scatter_set_map ind Cert.ReferenceIdeal.scatter_S2x4_S1_S2_0_1_1_0 (fun _ => false)
    (fun _ => BitVec.ofNat 32 k.val : IVec Cert.ReferenceIdeal.S1 32) (fun _ => true)) (ix2 b j)
  rw [onehot_bool] at h
  exact h

open Cert.ReferenceIdeal.ReadP in
/-- Each of the reference's two rows is row n of the table plus the bias. -/
theorem ref_row (a4 : FVec Ideal S4x64 .f32) (a5 : FVec Ideal S64 .f32) (a6 : IVec S_ 32) (k : Fin 4)
    (hk : nrm (a6 ix0) = BitVec.ofNat 32 k.val) (b : Fin 2) (f : Fin 64) :
    val_main_v111 (F := Ideal) a4 a5 a6 (ix2 b f) = a4 (ix2 k f) + a5 (ix1 f) := by
  have hl : ∀ k' : Fin 4, lidx_main_v108 (ix2 b f) k' = ix2 b k' := fun k' => funext fun a =>
    match a with | ⟨0, _⟩ => rfl | ⟨1, _⟩ => rfl
  have hr : ∀ k' : Fin 4, ridx_main_v108 (ix2 b f) k' = ix2 k' f := fun k' => funext fun a =>
    match a with | ⟨0, _⟩ => rfl | ⟨1, _⟩ => rfl
  have h5 : idx_main_v109 (idx_main_v110 (ix2 b f)) = ix1 f := funext fun a =>
    match a with | ⟨0, _⟩ => rfl
  rw [val_main_v111_apply, val_main_v108_apply, val_main_v110_apply, val_main_v109_apply, Ideal.addf_def, h5,
    Fin.sum_univ_four]
  simp only [hl, hr, v107_eq a6 k hk]
  fin_cases k <;> simp [ind]

/-! ## The two rows agree -/

/-- For an integer input in [-4, 4) read signed, each row of the reference's time embedding is the kernel's row. -/
theorem time_row [Cert.KernelIdeal.Facts] [Cert.ReferenceIdeal.Facts] (a4 : FVec Ideal S4x64 .f32) (a5 : FVec Ideal S64 .f32)
    (a6 : IVec S_ 32) (hlo : -4 ≤ (a6 ix0).toInt) (hhi : (a6 ix0).toInt < 4) (b : Fin 2) (f : Fin 64) :
    Cert.ReferenceIdeal.ReadP.val_main_v111 (F := Ideal) a4 a5 a6 (ix2 b f) = kRow (F := Ideal) a4 a5 a6 (ix1 f) := by
  obtain ⟨k, hk⟩ := nrm_eq (a6 ix0) hlo hhi
  rw [ref_row a4 a5 a6 k hk b f, ker_row a4 a5 a6 k hk f]

end Cert.TimeRow

end
-- ==== Proof.Bridge.lean ====
/- The two programs compute one function. At voxel s and feature j both are

       ( T[s,j] / max(ct[s], 1)  −  S[s,j] / max(cs[s], 1)  +  W_time[n, j] + b_time[j] ) · [cs[s] + ct[s] > 0],

   where S, T are the sums over the points of each cloud whose voxel id is s of the point features, cs, ct the numbers of
   such points, and n the normalised time index. The kernel gets S and cs (T and ct) from ONE scatter of 65-column rows and
   multiplies by reciprocals; the reference from two scatters (64 columns, and a vector of ones) and divides; read at a
   voxel, each scatter is the same sum over the points with the same indicator, the voxel ids and the features being the
   same terms in both programs. The time feature is the same number when the time index is in range (the kernel reads
   the table's row, the reference multiplies a one-hot row into the table). -/
import proofs.«171866_g16836271800623_cont_week2b_1426_95_alg».proof.Proof.KFinal
import proofs.«171866_g16836271800623_cont_week2b_1426_95_alg».proof.Proof.KAt
import proofs.«171866_g16836271800623_cont_week2b_1426_95_alg».proof.Proof.CellAlg
import proofs.«171866_g16836271800623_cont_week2b_1426_95_alg».proof.Proof.SegEq
import proofs.«171866_g16836271800623_cont_week2b_1426_95_alg».proof.Proof.RefAt
import proofs.«171866_g16836271800623_cont_week2b_1426_95_alg».proof.Proof.TimeRow

set_option maxRecDepth 16384

noncomputable section

namespace Cert.Bridge

open Idealize.ShloMosaic Idealize.ShloMosaic.ValueIdx
open Cert.KernelIdeal Cert.KernelIdeal.Gen
open Cert.KernelIdeal.HostVal Cert.KernelIdeal.Final Cert.KernelIdeal.Body

/-- The output function at a voxel and a feature. -/
theorem Gk_apply (A0 A1 : S524288x64.Idx → EReal) (A2 A3 : S524288x1.Idx → EReal) (A4 : S1x64.Idx → EReal)
    (s : Fin 524288) (j : Fin 64) :
    Gk A0 A1 A2 A3 A4 (ix2 s j)
      = cellVal (A0 (ix2 s j)) (A1 (ix2 s j)) (A2 (ix2 s (0 : Fin 1))) (A3 (ix2 s (0 : Fin 1))) (A4 (ix2 (0 : Fin 1) j)) := rfl

/-- The time row laid as `[1, 64]`, read at `(0, j)`, is its entry `j`. -/
theorem row_apply (v : FVec Ideal S64 .f32) (j : Fin 64) :
    broadcastInDim S1x64 ![1] bcast_S64_S1x64_1 v (ix2 (0 : Fin 1) j) = v (ix1 j) :=
  broadcastInDim_apply ![1] bcast_S64_S1x64_1 v (ix2 (0 : Fin 1) j) (ix1 j) (fun a => match a with
    | ⟨0, _⟩ => by show j.val = if (64 : Nat) = 1 then 0 else j.val; rw [if_neg (by decide)])

set_option maxHeartbeats 2000000 in
/-- AT EVERY VOXEL AND FEATURE the kernel's output function of its host terms is the reference's stage before the final
    re-laying, when the time index is in range. -/
theorem cell_eq (a0 a1 : FVec Ideal S2x100000x3 .f32) (a2 : FVec Ideal S3x64 .f32) (a3 : FVec Ideal S64 .f32)
    (a4 : FVec Ideal S4x64 .f32) (a5 : FVec Ideal S64 .f32) (a6 : IVec S_ 32)
    (hlo : -4 ≤ (a6 ix0).toInt) (hhi : (a6 ix0).toInt < 4) (s : Fin 524288) (j : Fin 64) :
    Gk (sumsOf (F := Ideal) a0 a2 a3) (sumsOf (F := Ideal) a1 a2 a3) (countsOf (F := Ideal) a0 a2 a3) (countsOf (F := Ideal) a1 a2 a3)
        (broadcastInDim S1x64 ![1] bcast_S64_S1x64_1 (timeRow (F := Ideal) a4 a5 a6)) (ix2 s j)
      = Cert.ReferenceIdeal.ReadP.val_main_v117 (F := Ideal) a0 a1 a2 a3 a4 a5 a6 (ix2 s j) := by
  rw [Gk_apply, Cert.CellAlg.cellVal_eq, sums_at, sums_at, counts_at, counts_at, row_apply]
  rw [Cert.RefAt.ref_at, Cert.RefAt.v38_at, Cert.RefAt.v86_at, Cert.RefAt.v42_at, Cert.RefAt.v90_at,
    Cert.TimeRow.time_row a4 a5 a6 hlo hhi]
  rfl

/-- THE RESULTS ARE EQUAL: the kernel's re-laid output function of its host terms is the reference's result term. -/
theorem result_eq (a0 a1 : FVec Ideal S2x100000x3 .f32) (a2 : FVec Ideal S3x64 .f32) (a3 : FVec Ideal S64 .f32)
    (a4 : FVec Ideal S4x64 .f32) (a5 : FVec Ideal S64 .f32) (a6 : IVec S_ 32)
    (hlo : -4 ≤ (a6 ix0).toInt) (hhi : (a6 ix0).toInt < 4) :
    shapeCast S2x512x512x64
        (Gk (sumsOf (F := Ideal) a0 a2 a3) (sumsOf (F := Ideal) a1 a2 a3) (countsOf (F := Ideal) a0 a2 a3) (countsOf (F := Ideal) a1 a2 a3)
          (broadcastInDim S1x64 ![1] bcast_S64_S1x64_1 (timeRow (F := Ideal) a4 a5 a6)))
        shapeCasts_S524288x64_S2x512x512x64
      = Cert.ReferenceIdeal.ReadP.val_main_v118 (F := Ideal) a0 a1 a2 a3 a4 a5 a6 := by
  have h : Gk (sumsOf (F := Ideal) a0 a2 a3) (sumsOf (F := Ideal) a1 a2 a3) (countsOf (F := Ideal) a0 a2 a3) (countsOf (F := Ideal) a1 a2 a3)
        (broadcastInDim S1x64 ![1] bcast_S64_S1x64_1 (timeRow (F := Ideal) a4 a5 a6))
      = Cert.ReferenceIdeal.ReadP.val_main_v117 (F := Ideal) a0 a1 a2 a3 a4 a5 a6 := by
    funext i
    obtain ⟨s, j, rfl⟩ : ∃ (s : Fin 524288) (j : Fin 64), i = ix2 s j := ⟨i 0, i 1, eq_ix2 i⟩
    exact cell_eq a0 a1 a2 a3 a4 a5 a6 hlo hhi s j
  rw [h]
  rfl

end Cert.Bridge

end
-- ==== Proof.PreIdx.lean ====
/- The range of the integer input, decoded from the precondition. The precondition is a conjunction whose last
   conjunct is `(-4 ≤ t) ∧ (t < 4)` on the rank-0 integer argument, both comparisons signed: read at the one index
   of a rank-0 array, the outer conjunction being 1 makes each signed comparison 1, which is an inequality between
   the words read as integers. -/
import proofs.«171866_g16836271800623_cont_week2b_1426_95_alg».proof.Pre_finite_inputs
import Idealize.ShloMosaic.Lib.Affine
import Idealize.ShloMosaic.Lib.ValueIdx
import Idealize.ShloMosaic.PureOps.Ideal

noncomputable section

namespace Cert.PreIdx

open Idealize.ShloMosaic
open Cert.Pre_finite_inputs

variable [Cert.Pre_finite_inputs.Facts]

/-- The two integer literals of the range test, read signed. -/
theorem toInt_neg4 : (4294967292#32 : BitVec 32).toInt = -4 := by decide
theorem toInt_4 : (4#32 : BitVec 32).toInt = 4 := by decide

/-- Under the precondition the integer input, read signed, lies in [-4, 4). -/
theorem idx_range (a0 a1 : FVec Ideal S2x100000x3 .f32) (a2 : FVec Ideal S3x64 .f32) (a3 : FVec Ideal S64 .f32)
    (a4 : FVec Ideal S4x64 .f32) (a5 : FVec Ideal S64 .f32) (a6 : IVec S_ 32)
    (h : Cert.Pre_finite_inputs.fn (F := Ideal) a0 a1 a2 a3 a4 a5 a6 = fun _ => 1#1) :
    -4 ≤ (a6 Idealize.ShloMosaic.ValueIdx.ix0).toInt ∧ (a6 Idealize.ShloMosaic.ValueIdx.ix0).toInt < 4 := by
  -- the precondition at the one index: the last conjunction, of everything before and the range test
  have e : IntOp.andi _ (IntOp.andi (IntOp.cmpi .sge (a6 ValueIdx.ix0) (4294967292#32)) (IntOp.cmpi .slt (a6 ValueIdx.ix0) (4#32))) = 1#1 :=
    congrFun h ValueIdx.ix0
  obtain ⟨-, e2⟩ := IntOp.andi_eq_one.1 e
  obtain ⟨hge, hlt⟩ := IntOp.andi_eq_one.1 e2
  rw [IntOp.cmpi_sge, toInt_neg4] at hge
  rw [IntOp.cmpi_slt, toInt_4] at hlt
  exact ⟨hge, hlt⟩

end Cert.PreIdx

end
-- ==== Proof.lean ====
/- The proof of `Cert.Claim`: the three frames, the (empty) idealization ledger, and the equality of the two idealized
   programs' results over the extended reals.

   The kernel's program voxelizes two point clouds on the host (voxel ids, per-point features relu(x·W + b), one
   accumulating scatter per cloud of the rows (features, 1) into 2·512·512 voxel rows), reads one row of a time table, and
   a pipelined region of 128 points then computes, voxel row by voxel row,
   (T/max(ct,1) − S/max(cs,1) + time) · [cs + ct > 0] with reciprocals in place of quotients; the reference computes the same
   by two scatters per cloud, quotients, and a one-hot product for the time row. The frames say each program runs to the end
   and leaves its arguments alone: the two kernel programs' by the launch of the pipelined region between the host
   stretches, the reference's by its straight-line run. The results agree voxel by voxel (module Bridge); the only input
   condition used is that the time index is an in-range index of the table's four rows, which the precondition states. -/
import proofs.«171866_g16836271800623_cont_week2b_1426_95_alg».proof.Defs
import proofs.«171866_g16836271800623_cont_week2b_1426_95_alg».proof.Proof.Gen.Kernel
import proofs.«171866_g16836271800623_cont_week2b_1426_95_alg».proof.Proof.Gen.KernelIdeal
import proofs.«171866_g16836271800623_cont_week2b_1426_95_alg».proof.Proof.Gen.ReferenceIdeal
import proofs.«171866_g16836271800623_cont_week2b_1426_95_alg».proof.Proof.Gen.Pre_finite_inputs
import proofs.«171866_g16836271800623_cont_week2b_1426_95_alg».proof.Proof.KFrame
import proofs.«171866_g16836271800623_cont_week2b_1426_95_alg».proof.Proof.KIFrame
import proofs.«171866_g16836271800623_cont_week2b_1426_95_alg».proof.Proof.KFinal
import proofs.«171866_g16836271800623_cont_week2b_1426_95_alg».proof.Proof.KStage
import proofs.«171866_g16836271800623_cont_week2b_1426_95_alg».proof.Proof.KStage1
import proofs.«171866_g16836271800623_cont_week2b_1426_95_alg».proof.Proof.KHostE
import proofs.«171866_g16836271800623_cont_week2b_1426_95_alg».proof.Proof.Bridge
import proofs.«171866_g16836271800623_cont_week2b_1426_95_alg».proof.Proof.PreIdx
import proofs.«171866_g16836271800623_cont_week2b_1426_95_alg».proof.Proof.RefRunP
import proofs.«171866_g16836271800623_cont_week2b_1426_95_alg».proof.Proof.RefReadP
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs to the end and leaves its arguments alone. -/
theorem frame_k : Cert.frame_Kernel := fun m ρ _ => Cert.Kernel.Hand.frame (F := Bits) m ρ

/-- So does the idealized kernel program. -/
theorem frame_ki : Cert.frame_KernelIdeal := fun m ρ _ => Cert.KernelIdeal.Hand.frame (F := Ideal) m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing: there is nothing to preserve. -/
theorem preserves : Cert.preserves_Kernel_KernelIdeal := trivial

set_option maxHeartbeats 2000000 in
/-- From memories agreeing on the arguments both idealized programs end with one result: the reference's result term of
    the arguments. The kernel's run ends with the re-laid output function of the five arrays its region staged; those are
    the host terms of the arguments; and that function of them is the reference's term, the time index being in range. -/
theorem algebraic : Cert.algebraic_KernelIdeal_ReferenceIdeal := by
  intro m ρ m' ρ' hpre hagree
  refine ⟨fun c => Cert.ReferenceIdeal.ReadP.val_main_v118 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6)), ?_, ?_⟩
  · refine (θ_run Cert.KernelIdeal.defs _ _).mono (fun _ h c => ⟨(h c).1.trans ?_, (h c).2⟩)
      (Cert.KernelIdeal.Final.run m ρ)
    obtain ⟨hlo, hhi⟩ := Cert.PreIdx.idx_range _ _ _ _ _ _ _ (hpre c)
    rw [Cert.KernelIdeal.HostVal.V_v41, Cert.KernelIdeal.HostVal.V_v85, Cert.KernelIdeal.HostVal.V_v97,
      Cert.KernelIdeal.HostVal.V_v98, Cert.KernelIdeal.HostVal.V_v99]
    exact Cert.Bridge.result_eq _ _ _ _ _ _ _ hlo hhi
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v118_eq, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
